-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S4096x64 : Shape := ⟨2, ![4096, 64]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x2048 32) (main_arg2 : FVec F S4096x64 .f32) (main_arg3 : FVec F S4096x64 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x2048 : Shape := ⟨2, ![4096, 2048]⟩
abbrev S4096x64 : Shape := ⟨2, ![4096, 64]⟩
abbrev S4096 : Shape := ⟨1, ![4096]⟩
abbrev S4096x1 : Shape := ⟨2, ![4096, 1]⟩
abbrev S64x4096 : Shape := ⟨2, ![64, 4096]⟩
abbrev S1024x512 : Shape := ⟨2, ![1024, 512]⟩
abbrev S16x1024 : Shape := ⟨2, ![16, 1024]⟩
abbrev S1024x16 : Shape := ⟨2, ![1024, 16]⟩
abbrev S1024x16x1 : Shape := ⟨3, ![1024, 16, 1]⟩
abbrev S1024x16x32 : Shape := ⟨3, ![1024, 16, 32]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S1024x1024 : Shape := ⟨2, ![1024, 1024]⟩

abbrev nBuf : Space → Nat
  | .hbm => 19
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096x64, .f32⟩
  | .hbm, ⟨3, _⟩ => ⟨S4096x64, .f32⟩
  | .hbm, ⟨4, _⟩ => ⟨S4096, .f32⟩
  | .hbm, ⟨5, _⟩ => ⟨S4096x1, .f32⟩
  | .hbm, ⟨6, _⟩ => ⟨S4096x64, .f32⟩
  | .hbm, ⟨7, _⟩ => ⟨S4096x64, .f32⟩
  | .hbm, ⟨8, _⟩ => ⟨S64x4096, .f32⟩
  | .hbm, ⟨9, _⟩ => ⟨S64x4096, .f32⟩
  | .hbm, ⟨10, _⟩ => ⟨S4096x2048, .bf16⟩
  | .hbm, ⟨11, _⟩ => ⟨S4096x2048, .bf16⟩
  | .hbm, ⟨12, _⟩ => ⟨S8192x4096, .bf16⟩
  | .hbm, ⟨13, _⟩ => ⟨S8192x2048x2, .bf16⟩
  | .hbm, ⟨14, _⟩ => ⟨S8192x2048x1, .bf16⟩
  | .hbm, ⟨15, _⟩ => ⟨S8192x2048, .bf16⟩
  | .hbm, ⟨16, _⟩ => ⟨S8192x2048x1, .bf16⟩
  | .hbm, ⟨17, _⟩ => ⟨S8192x2048, .bf16⟩
  | .hbm, ⟨18, _⟩ => ⟨S8192x4096, .f32⟩
  | .local _ .vmem, ⟨0, _⟩ => ⟨S1024x512, .i32⟩
  | .local _ .vmem, ⟨1, _⟩ => ⟨S1024x512, .i32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  inb_S1024x512_S1024x512_0_0 : ∀ a, (![0, 0] : Fin 2 → Nat) a + S1024x512.size a ≤ S1024x512.size a
  h_S1024x512 : 0 < S1024x512.numel
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  transposes_S16x1024_p1_0_S1024x16 : S16x1024.Transposes [1, 0] S1024x16
  shapeCasts_S1024x16_S1024x16x1 : S1024x16.ShapeCasts S1024x16x1
  shapeCasts_S1024x16x1_S1024x16x1 : S1024x16x1.ShapeCasts S1024x16x1
  broadcasts_S1024x16x1_S1024x16x32 : S1024x16x1.Broadcasts S1024x16x32
  shapeCasts_S1024x16x32_S1024x512 : S1024x16x32.ShapeCasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x512_S1024x512 : S1024x512.ShapeCasts S1024x512
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .i32 = 32 ∨ (Rect.block (s := S4096x2048) S1024x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S64x4096.size a
  hwx0_1 : ∀ i : grid0.Coords, EltTy.bits .f32 = 32 ∨ (Rect.block (s := S64x4096) S16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S64x4096.size a
  hwx0_2 : ∀ i : grid0.Coords, EltTy.bits .f32 = 32 ∨ (Rect.block (s := S64x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x2048.size a
  hwx0_3 : ∀ i : grid0.Coords, EltTy.bits .bf16 = 32 ∨ (Rect.block (s := S4096x2048) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x2048.size a
  hwx0_4 : ∀ i : grid0.Coords, EltTy.bits .bf16 = 32 ∨ (Rect.block (s := S4096x2048) S1024x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x2048.size a
  hwx1_0 : ∀ i : grid1.Coords, EltTy.bits .bf16 = 32 ∨ (Rect.block (s := S8192x2048) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x2048.size a
  hwx1_1 : ∀ i : grid1.Coords, EltTy.bits .bf16 = 32 ∨ (Rect.block (s := S8192x2048) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x2048.size a
  hwx1_2 : ∀ i : grid1.Coords, EltTy.bits .bf16 = 32 ∨ (Rect.block (s := S4096x2048) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x2048.size a
  hwx1_3 : ∀ i : grid1.Coords, EltTy.bits .bf16 = 32 ∨ (Rect.block (s := S4096x2048) S1024x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S4096x64 : Shape := ⟨2, ![4096, 64]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x64x64 : Shape := ⟨3, ![4096, 64, 64]⟩
abbrev S4096x64x1 : Shape := ⟨3, ![4096, 64, 1]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096x64, .f32⟩
  | .hbm, ⟨3, _⟩ => ⟨S4096x64, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S4096x2048x1, .i32⟩
  | .hbm, ⟨15, _⟩ => ⟨S4096x2048x1, .i32⟩
  | .hbm, ⟨16, _⟩ => ⟨S4096x2048x2, .i32⟩
  | .hbm, ⟨17, _⟩ => ⟨S4096x4096, .i32⟩
  | .hbm, ⟨18, _⟩ => ⟨S4096x4096, .f32⟩
  | .hbm, ⟨19, _⟩ => ⟨S4096x64x64, .f32⟩
  | .hbm, ⟨20, _⟩ => ⟨S4096x64x1, .f32⟩
  | .hbm, ⟨21, _⟩ => ⟨S4096x64x64, .f32⟩
  | .hbm, ⟨22, _⟩ => ⟨S4096x64x64, .f32⟩
  | .hbm, ⟨23, _⟩ => ⟨S4096x64x1, .f32⟩
  | .hbm, ⟨24, _⟩ => ⟨S4096x64x64, .f32⟩
  | .hbm, ⟨25, _⟩ => ⟨S4096x64x64, .f32⟩
  | .hbm, ⟨26, _⟩ => ⟨S4096x4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.PointData.lean ====
/-
  What each grid point of the two kernels leaves behind, as data the launch theorems take, at any float instance.

  The program is two tiled kernels. The first (grid 4 × 4 over the packed weight [4096, 2048]) turns a tile of packed
  words and the matching 16 × 1024 tiles of the transposed scales and zero points into two tiles of dequantized weights:
  the low nibbles (even columns of the unpacked weight) and the high nibbles (odd columns). The second (grid 8 × 4 × 4,
  the last axis running over four blocks of the contracted axis) keeps a 1024 × 1024 accumulator in a buffer of its own:
  at the first block it is reset to zero, at every block it gains the product of the even columns of the activations with
  the low tile and then the product of the odd columns with the high tile, and at the last block it is copied into the
  output tile. Everything here is stated at the contents `V` the core's buffers hold when the kernel is entered.
-/
import proofs.«181014_j88304527606015_2_alg».proof.Proof.Gen.Kernel.Launch
import proofs.«181014_j88304527606015_2_alg».proof.Proof.Gen.Kernel.Skeleton
import proofs.«181014_j88304527606015_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The dequantizing kernel -/

/-- The tile of window `w` at grid point `t`, cut out of the window's array as the kernel finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 × 512 tile and the whole 16 × 1024 tile, as rectangles at the origin. -/
abbrev rectQ : Rect S1024x512 := Rect.unit (s := S1024x512) ![0, 0] S1024x512.size inb_S1024x512_S1024x512_0_0
abbrev rectG : Rect S16x1024 := Rect.unit (s := S16x1024) ![0, 0] S16x1024.size inb_S16x1024_S16x1024_0_0

/-- The low-nibble tile the body stores: one store of the whole tile, its value the body's arithmetic on the three loads. -/
def loTile (q : Vec F S1024x512 .i32) (s z : Vec F S16x1024 .f32) : Vec F S1024x512 .bf16 :=
  View.canon [⟨rectQ, k0_pay4 (View.ld q rectQ) (View.ld s rectG) (View.ld z rectG)⟩]

/-- The high-nibble tile the body stores. -/
def hiTile (q : Vec F S1024x512 .i32) (s z : Vec F S16x1024 .f32) : Vec F S1024x512 .bf16 :=
  View.canon [⟨rectQ, k0_pay5 (View.ld q rectQ) (View.ld s rectG) (View.ld z rectG)⟩]

/-- Per point: the three input tiles stay as fetched, the two output tiles are the body's stores; the kernel keeps
    nothing between points, owes nothing and holds its buffers whole. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => loTile (tile0 V c 0 t) (tile0 V c 1 t) (tile0 V c 2 t)
    | ⟨4, _⟩ => hiTile (tile0 V c 0 t) (tile0 V c 1 t) (tile0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = tile0 V c 0 t := by dsimp only [dat0]
theorem dat0_after_1 (c : Dev nD) (t : Fin cfg0.N) : (dat0 V c).after 1 t = tile0 V c 1 t := by dsimp only [dat0]
theorem dat0_after_2 (c : Dev nD) (t : Fin cfg0.N) : (dat0 V c).after 2 t = tile0 V c 2 t := by dsimp only [dat0]
theorem dat0_after_3 (c : Dev nD) (t : Fin cfg0.N) :
    (dat0 V c).after 3 t = loTile (tile0 V c 0 t) (tile0 V c 1 t) (tile0 V c 2 t) := by dsimp only [dat0]
theorem dat0_after_4 (c : Dev nD) (t : Fin cfg0.N) :
    (dat0 V c).after 4 t = hiTile (tile0 V c 0 t) (tile0 V c 1 t) (tile0 V c 2 t) := by dsimp only [dat0]

/-! ## The accumulating product kernel -/

/-- The tile of window `w` at grid point `t`, cut out of the window's array as the kernel finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator buffer the kernel keeps for itself. -/
abbrev accM : Memref sig .tc .vmem S1024x1024 .f32 := Memref.whole cc1_scratch0

/-- What the launch hands a kernel of a program of several — every scoped buffer that is no staging buffer of this
    kernel, at anything, and the random-number register —, with the accumulator split out of the others. -/
theorem PhiA1_split (c : Dev nD) :
    (Pipeline.ΦA spec1 c : sProp 𝕄)
      = iprop(iprop((∃ d, owns (c : Thread nD τ) accM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [accM, owns_whole]
  try rfl

/-- One point's gain: the accumulator `a` plus the product of the even-column tile with the low tile, then plus the
    product of the odd-column tile with the high tile. -/
def accStep (xe xo lo hi : Vec F S1024x512 .bf16) (a : Vec F S1024x1024 .f32) : Vec F S1024x1024 .f32 :=
  k1_pay3 xo hi (k1_pay2 xe lo a)

/-- The accumulator after the point at position `n`: started from zero where the block index (the position mod 4) is
    zero, from what the point before left elsewhere. -/
def accAt (c : Dev nD) : (n : ℕ) → n < cfg1.N → Vec F S1024x1024 .f32
  | 0, hn => accStep (tile1 V c 0 ⟨0, hn⟩) (tile1 V c 1 ⟨0, hn⟩) (tile1 V c 2 ⟨0, hn⟩) (tile1 V c 3 ⟨0, hn⟩) k1_pay1
  | n + 1, hn =>
    accStep (tile1 V c 0 ⟨n + 1, hn⟩) (tile1 V c 1 ⟨n + 1, hn⟩) (tile1 V c 2 ⟨n + 1, hn⟩) (tile1 V c 3 ⟨n + 1, hn⟩)
      (if (n + 1) % 4 = 0 then k1_pay1 else accAt c n (Nat.lt_of_succ_lt hn))

theorem accAt_reset (c : Dev nD) (t : Fin cfg1.N) (h : t.val % 4 = 0) :
    accAt V c t.val t.isLt = accStep (tile1 V c 0 t) (tile1 V c 1 t) (tile1 V c 2 t) (tile1 V c 3 t) k1_pay1 := by
  obtain ⟨n, hn⟩ := t
  cases n with
  | zero => rfl
  | succ n => exact congrArg _ (if_pos h)

theorem accAt_carry (c : Dev nD) (t : Fin cfg1.N) (h : ¬t.val % 4 = 0) :
    accAt V c t.val t.isLt = accStep (tile1 V c 0 t) (tile1 V c 1 t) (tile1 V c 2 t) (tile1 V c 3 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-- The core's scoped buffers other than this kernel's staging buffers and its accumulator (the other kernel's staging
    buffers), each at some contents: carried along unopened. -/
abbrev restAcc (c : Dev nD) : sProp 𝕄 :=
  Pipeline.scopedRestBut (Ix := Unit) (Name := ℕ) (U := UR sig nD τ) (Lvl := ℕ) (Val := Elt F) spec1 c [cc1_scratch0]

/-- What the kernel holds between points: before the first point the core's scoped buffers at anything; after the point
    at position `n` the accumulator at `accAt … n` beside the other scoped buffers; the random-number register at some
    state throughout. -/
def PhiAcc (c : Dev nD) : (n : ℕ) → n ≤ cfg1.N → sProp 𝕄
  | 0, _ => Pipeline.ΦA spec1 c
  | n + 1, hn => iprop(iprop(owns (c : Thread nD τ) accM fullShare (accAt V c n hn) ∗ restAcc c) ∗ (∃ r, prngReg c r))

theorem PhiAcc_zero (c : Dev nD) (n : ℕ) (h : n ≤ cfg1.N) (hz : n = 0) : PhiAcc V c n h = Pipeline.ΦA spec1 c := by
  subst hz; rfl
theorem PhiAcc_succ (c : Dev nD) (n : ℕ) (hn : n < cfg1.N) :
    PhiAcc V c (n + 1) hn = iprop(iprop(owns (c : Thread nD τ) accM fullShare (accAt V c n hn) ∗ restAcc c) ∗ (∃ r, prngReg c r)) := rfl
theorem PhiAcc_pos (c : Dev nD) (n : ℕ) (h : n ≤ cfg1.N) (hz : n ≠ 0) :
    PhiAcc V c n h = iprop(iprop(owns (c : Thread nD τ) accM fullShare (accAt V c (n - 1) (by omega)) ∗ restAcc c) ∗ (∃ r, prngReg c r)) := by
  cases n with
  | zero => exact absurd rfl hz
  | succ n => rfl

/-- Per point: the four input tiles stay as fetched; the output tile, where the body stores it (the last block), is the
    accumulator (elsewhere the body leaves its buffer alone and the entry is not consulted); between points the kernel
    holds `PhiAcc`; it owes nothing and holds its buffers whole. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => accAt V c t.val t.isLt
  Φ t := PhiAcc V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = tile1 V c 0 t := by dsimp only [dat1]
theorem dat1_after_1 (c : Dev nD) (t : Fin cfg1.N) : (dat1 V c).after 1 t = tile1 V c 1 t := by dsimp only [dat1]
theorem dat1_after_2 (c : Dev nD) (t : Fin cfg1.N) : (dat1 V c).after 2 t = tile1 V c 2 t := by dsimp only [dat1]
theorem dat1_after_3 (c : Dev nD) (t : Fin cfg1.N) : (dat1 V c).after 3 t = tile1 V c 3 t := by dsimp only [dat1]
theorem dat1_after_4 (c : Dev nD) (t : Fin cfg1.N) : (dat1 V c).after 4 t = accAt V c t.val t.isLt := by dsimp only [dat1]
theorem dat1_Phi_castSucc (c : Dev nD) (t : Fin cfg1.N) :
    (dat1 V c).Φ t.castSucc = PhiAcc V c t.val (Nat.le_of_lt t.isLt) := by
  dsimp only [dat1]; simp only [Fin.coe_castSucc]

end Entry

/-! ## The buffers' contents between the pieces of the program -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the host lines before the first kernel (the scales multiplied by the row scale and transposed, the zero points
    transposed). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its arrays at what its write-backs leave, the rest as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the host lines between the kernels (the activations split into even and odd columns). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

/-- No kernel has a prefetched table. -/
abbrev adm : (p : Fin 2) → (pcfgs (F := F) p).Adm := fun p => (cfgs p).toPCfg_adm
/-- Both kernels' per-point data, each at the contents its kernel is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.Kernel.Hand

end
-- ==== Proof.K.Run.lean ====
/-
  The whole program as a run: host lines, the dequantizing kernel, host lines, the accumulating product kernel — every
  weakly fair execution terminates without a fault, and at the end every buffer that outlives the kernels holds what
  the chain of boundary contents `W0 … W4` says. Each kernel is entered from "every such buffer at the boundary's
  contents, the random-number register at some state, nothing owed" and left in the same form: its arrays are split
  out of the buffers on entry and put back at what its write-backs leave on exit. What the two bodies do at a point
  (their obligations) and how the second kernel's accumulator invariant is entered and left are taken as hypotheses
  here and supplied where the claims are assembled.
-/
import proofs.«181014_j88304527606015_2_alg».proof.Proof.K.PointData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The boundary contents at the kernels' arrays and elsewhere -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem arrays_left0 (c : Dev nD) (w : Fin cfg0.W) : (dat0 (V1 m ρ) c).arrAt w cfg0.N = V2 m ρ c (Pipeline.arrRef spec0 w) :=
  (W2_arr m ρ c w).symm
theorem others_kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem arrays_left1 (c : Dev nD) (w : Fin cfg1.W) : (dat1 (V3 m ρ) c).arrAt w cfg1.N = V4 m ρ c (Pipeline.arrRef spec1 w) :=
  (W4_arr m ρ c w).symm
theorem others_kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The thread state between the pieces -/

abbrev 𝒱₀ : Variants := Variants.none
/-- No core waits on another: no level is assigned. -/
abbrev L : GSem nD τ sig → Finset Unit := fun _ => ∅
abbrev lv : GSem nD τ sig → Unit → ℕ := fun _ _ => 0
/-- What rides beside the buffers: the random-number register at some state, and nothing owed. -/
abbrev Beside (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host lines as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Last (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The dequantizing kernel between `W1` and `W2`. -/
def kernelSeg0 (hb0 : ∀ c, BodyObligation (dat0 (F := F) (V1 m ρ) c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays_left0 m ρ c) (others_kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating product kernel between `W3` and `W4`: what the launch hands a kernel (its own buffers at
    anything, the register) is the accumulator invariant before the first point (`hin1`), and after the last point
    the invariant gives that back (`hout1`). -/
def kernelSeg1 (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ Beside c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays_left1 m ρ c) (others_kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four pieces, and the launch -/

section Launch

abbrev pieces (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) : List (Pipeline.Seg (pcfgs (F := F)) adm (pdats m ρ) () defs₀ 𝒱₀ L lv) :=
  [ .host (hostSeg hostOps0 hostOps0_sub hostOps0_fresh (W0 m ρ)),
    .region (kernelSeg0 m ρ hb0),
    .host (hostSeg hostOps1 hostOps1_sub hostOps1_fresh (W2 m ρ)),
    .region (kernelSeg1 m ρ hb1 hin1 hout1) ]

theorem main_pieces (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) (c : Dev nD) : main (F := F) c = Pipeline.Seg.run (pieces m ρ hb0 hb1 hin1 hout1) :=
  (main_chain c).trans (by chain_rfl)

set_option backward.isDefEq.respectTransparency.types false in
/-- Every weakly fair execution of the program terminates without a fault, and at the end every buffer that outlives the
    kernels holds `W4`'s contents. -/
theorem run_all (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) :
    θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (pieces m ρ hb0 hb1 hin1 hout1)
    (fun c Q => by rw [main_pieces m ρ hb0 hb1 hin1 hout1 c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := Last m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Launch

end Cert.Kernel.Hand

end
-- ==== Proof.K.Frame.lean ====
/-
  The end of the run read at the buffers the claims speak of: no host line and no kernel writes an argument, so each
  ends as launched; the result buffer ends at what the second kernel's write-backs leave.
-/
import proofs.«181014_j88304527606015_2_alg».proof.Proof.K.Run
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-! ## The arguments end as launched -/

theorem end_arg0 (c : Dev nD) : W4 m ρ c (Proc.devRef .tc main_arg0) = m ((c : Thread nD τ).loc main_arg0) := by
  rw [W4_of_ne m ρ c main_arg0 (by decide)]
  have e3 : W3 m ρ c (Proc.devRef .tc main_arg0) = W2 m ρ c (Proc.devRef .tc main_arg0) := by
    show StableHlo.after hostOps1 _ (Proc.devRef .tc main_arg0) = _
    after_results
    try rfl
  rw [e3]
  rw [W2_of_ne m ρ c main_arg0 (by decide)]
  show StableHlo.after hostOps0 _ (Proc.devRef .tc main_arg0) = _
  after_results
  try rfl

theorem end_arg1 (c : Dev nD) : W4 m ρ c (Proc.devRef .tc main_arg1) = m ((c : Thread nD τ).loc main_arg1) := by
  rw [W4_of_ne m ρ c main_arg1 (by decide)]
  have e3 : W3 m ρ c (Proc.devRef .tc main_arg1) = W2 m ρ c (Proc.devRef .tc main_arg1) := by
    show StableHlo.after hostOps1 _ (Proc.devRef .tc main_arg1) = _
    after_results
    try rfl
  rw [e3]
  rw [show W2 m ρ c (Proc.devRef .tc main_arg1) = (dat0 (V1 m ρ) c).arrAt 0 cfg0.N from W2_arr m ρ c 0,
    (dat0 (V1 m ρ) c).arrAt_in 0 rfl _, dat0_A]
  show StableHlo.after hostOps0 _ (Proc.devRef .tc main_arg1) = _
  after_results
  try rfl

theorem end_arg2 (c : Dev nD) : W4 m ρ c (Proc.devRef .tc main_arg2) = m ((c : Thread nD τ).loc main_arg2) := by
  rw [W4_of_ne m ρ c main_arg2 (by decide)]
  have e3 : W3 m ρ c (Proc.devRef .tc main_arg2) = W2 m ρ c (Proc.devRef .tc main_arg2) := by
    show StableHlo.after hostOps1 _ (Proc.devRef .tc main_arg2) = _
    after_results
    try rfl
  rw [e3]
  rw [W2_of_ne m ρ c main_arg2 (by decide)]
  show StableHlo.after hostOps0 _ (Proc.devRef .tc main_arg2) = _
  after_results
  try rfl

theorem end_arg3 (c : Dev nD) : W4 m ρ c (Proc.devRef .tc main_arg3) = m ((c : Thread nD τ).loc main_arg3) := by
  rw [W4_of_ne m ρ c main_arg3 (by decide)]
  have e3 : W3 m ρ c (Proc.devRef .tc main_arg3) = W2 m ρ c (Proc.devRef .tc main_arg3) := by
    show StableHlo.after hostOps1 _ (Proc.devRef .tc main_arg3) = _
    after_results
    try rfl
  rw [e3]
  rw [W2_of_ne m ρ c main_arg3 (by decide)]
  show StableHlo.after hostOps0 _ (Proc.devRef .tc main_arg3) = _
  after_results
  try rfl

theorem end_arg4 (c : Dev nD) : W4 m ρ c (Proc.devRef .tc main_arg4) = m ((c : Thread nD τ).loc main_arg4) := by
  rw [W4_of_ne m ρ c main_arg4 (by decide)]
  have e3 : W3 m ρ c (Proc.devRef .tc main_arg4) = W2 m ρ c (Proc.devRef .tc main_arg4) := by
    show StableHlo.after hostOps1 _ (Proc.devRef .tc main_arg4) = _
    after_results
    try rfl
  rw [e3]
  rw [W2_of_ne m ρ c main_arg4 (by decide)]
  show StableHlo.after hostOps0 _ (Proc.devRef .tc main_arg4) = _
  after_results
  try rfl

/-- The result buffer ends at what the second kernel's write-backs of its output tiles leave. -/
theorem end_result (c : Dev nD) : W4 m ρ c (Proc.devRef .tc main_v12) = (dat1 (V3 m ρ) c).arrAt 4 cfg1.N :=
  W4_arr m ρ c 4

/-! ## The two posts the claims need -/

/-- The program runs to the end, faults nowhere, and leaves its five arguments as launched. -/
theorem frame_run (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (end_arg0 m ρ c),
     (h c _ (mem_uc main_arg1 (by decide))).trans (end_arg1 m ρ c),
     (h c _ (mem_uc main_arg2 (by decide))).trans (end_arg2 m ρ c),
     (h c _ (mem_uc main_arg3 (by decide))).trans (end_arg3 m ρ c),
     (h c _ (mem_uc main_arg4 (by decide))).trans (end_arg4 m ρ c)⟩)
    (run_all m ρ hb0 hb1 hin1 hout1)

/-- The same run with the result named. -/
theorem result_run (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) :
    θ_run defs (onTc (τ := τ) (main (F := F))) ⟨m, fun _ => 0, ρ⟩ (fun r => ∀ c : Dev nD,
      r.2.mem ((c.tc : Thread nD τ).loc main_v12) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v12 (by decide))).trans (end_result m ρ c),
     (h c _ (mem_uc main_arg0 (by decide))).trans (end_arg0 m ρ c),
     (h c _ (mem_uc main_arg1 (by decide))).trans (end_arg1 m ρ c),
     (h c _ (mem_uc main_arg2 (by decide))).trans (end_arg2 m ρ c),
     (h c _ (mem_uc main_arg3 (by decide))).trans (end_arg3 m ρ c),
     (h c _ (mem_uc main_arg4 (by decide))).trans (end_arg4 m ρ c)⟩)
    (run_all m ρ hb0 hb1 hin1 hout1)

end Cert.Kernel.Hand

end
-- ==== Proof.K.DequantBody.lean ====
/-
  The dequantizing kernel at one grid point.

  At every point of its 4 × 4 grid the kernel finds, in the buffers the pipeline stages for it, the tile of packed
  words and the two 16 × 1024 tiles of transposed scales and zero points that belong to that point. It reads each of
  the three once, whole; it also reads the two output buffers (the values are not used) and then overwrites each of
  them, whole, with one store: the low-nibble tile and the high-nibble tile, both pure functions of the three tiles
  read. Nothing is carried from one point to the next. This module proves exactly that, in the form the launch
  theorem asks of a kernel body: started with the three input tiles in place and the output buffers at anything, the
  body ends with the inputs untouched and the outputs at `loTile` / `hiTile` of the inputs.
-/
import proofs.«181014_j88304527606015_2_alg».proof.Proof.K.PointData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-! ## What the body finds in the input buffers -/

/-- The staged buffer of the packed words holds the point's tile of the packed array, whether or not the pipeline
    fetched it at this very point: the body never writes it, and a point at which nothing is fetched has the same
    tile index as the point before. -/
theorem found0_0 (c : Dev nD) (t : Fin cfg0.N) (d) : (dat0 V c).before 0 t d = tile0 V c 0 t := by
  refine ((dat0 V c).before_in_eq_fetched 0 rfl (fun _ => rfl) (fun _ _ _ => rfl) (fun t => ?_) t d).trans ?_
  · rw [dat0_after_0]; unfold Dat.blockOf tile0; rw [dat0_A]; try rfl
  · unfold Dat.fetched Dat.blockOf tile0; rw [dat0_A]; try rfl

/-- The same for the transposed scales. -/
theorem found0_1 (c : Dev nD) (t : Fin cfg0.N) (d) : (dat0 V c).before 1 t d = tile0 V c 1 t := by
  refine ((dat0 V c).before_in_eq_fetched 1 rfl (fun _ => rfl) (fun _ _ _ => rfl) (fun t => ?_) t d).trans ?_
  · rw [dat0_after_1]; unfold Dat.blockOf tile0; rw [dat0_A]; try rfl
  · unfold Dat.fetched Dat.blockOf tile0; rw [dat0_A]; try rfl

/-- The same for the transposed zero points. -/
theorem found0_2 (c : Dev nD) (t : Fin cfg0.N) (d) : (dat0 V c).before 2 t d = tile0 V c 2 t := by
  refine ((dat0 V c).before_in_eq_fetched 2 rfl (fun _ => rfl) (fun _ _ _ => rfl) (fun t => ?_) t d).trans ?_
  · rw [dat0_after_2]; unfold Dat.blockOf tile0; rw [dat0_A]; try rfl
  · unfold Dat.fetched Dat.blockOf tile0; rw [dat0_A]; try rfl

/-! ## One store fills an output buffer -/

/-- The single store into an output buffer goes through the rectangle of the whole tile, so every index of the tile
    lies in it. -/
theorem whole_store_covers (p : Vec F S1024x512 .bf16) (y : S1024x512.Idx) :
    ∃ pc ∈ ([⟨rectQ, p⟩] : List (View.Piece (Elt F) S1024x512 .bf16)), y ∈ pc.1.set :=
  View.cover_of_tiled [⟨rectQ, p⟩] S1024x512.size (by rfl) y

/-! ## The body on any five whole buffers -/

set_option maxHeartbeats 1000000 in
/-- Run on five whole buffers, the three inputs reading `q`, `s`, `z` and the two outputs holding anything, the body
    reaches its continuation with the inputs as they were and the outputs reading `loTile q s z` and `hiTile q s z`.
    The two loads of the output buffers read whatever is there and their values go nowhere; each store then replaces
    the whole buffer, so what it held before does not matter. -/
theorem dequant_body_spec (c : Dev nD) (E : Set ℕ) (i : grid0.Coords)
    (a2 : Memref sig .tc .vmem S1024x512 .i32) (h2 : a2.IsWhole)
    (a3 : Memref sig .tc .vmem S16x1024 .f32) (h3 : a3.IsWhole)
    (a4 : Memref sig .tc .vmem S16x1024 .f32) (h4 : a4.IsWhole)
    (a5 : Memref sig .tc .vmem S1024x512 .bf16) (h5 : a5.IsWhole)
    (a6 : Memref sig .tc .vmem S1024x512 .bf16) (h6 : a6.IsWhole)
    (q : Vec F S1024x512 .i32) (s z : Vec F S16x1024 .f32) (K : PUnit → sProp 𝕄) :
    iprop(owns (c : Thread nD τ) a2 fullShare q ∗ owns (c : Thread nD τ) a3 fullShare s ∗ owns (c : Thread nD τ) a4 fullShare z
        ∗ (∃ d, owns (c : Thread nD τ) a5 fullShare d) ∗ (∃ d, owns (c : Thread nD τ) a6 fullShare d)
        ∗ (iprop(owns (c : Thread nD τ) a2 fullShare q ∗ owns (c : Thread nD τ) a3 fullShare s ∗ owns (c : Thread nD τ) a4 fullShare z
            ∗ owns (c : Thread nD τ) a5 fullShare (loTile q s z) ∗ owns (c : Thread nD τ) a6 fullShare (hiTile q s z)) -∗ K ⟨⟩))
      ⊢ wp frame (wpE (defs₀ (F := F)) Variants.none c none) E (cc0__dequant_kernel i a2 h2 a3 h3 a4 h4 a5 h5 a6 h6) K := by
  simp only [cc0__dequant_kernel_eq_skeleton]; unfold cc0__dequant_kernel_skel
  unfold owns
  iintro ⟨⟨%fq, %hq, Hq⟩, ⟨%fs, %hs, Hs⟩, ⟨%fz, %hz, Hz⟩, ⟨%dl, %fl, -, Hl⟩, ⟨%dh, %fh, -, Hh⟩, Hk⟩
  subst hq hs hz
  sl_exec
  sl_step
  iapply Hk
  isplitl [Hq]
  · iexists fq; isplitr; · ipureintro; rfl
    iexact Hq
  isplitl [Hs]
  · iexists fs; isplitr; · ipureintro; rfl
    iexact Hs
  isplitl [Hz]
  · iexists fz; isplitr; · ipureintro; rfl
    iexact Hz
  isplitl [Hl]
  · iexists _; isplitr
    swap; · iexact Hl
    ipureintro
    exact View.read_writes_eq_canon _ _ _ (whole_store_covers _)
  iexists _; isplitr
  swap; · iexact Hh
  ipureintro
  exact View.read_writes_eq_canon _ _ _ (whole_store_covers _)

/-! ## The body as the pipeline calls it -/

/-- What the pipeline hands the body at point `t`: what the kernel keeps between points, what the core owes, and the
    five staged buffers at what they hold before the body. -/
def dequantPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it must hand back: the same two, and the five staged buffers at what the point leaves in them. -/
def dequantPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the three input buffers hold the point's tiles, so the body's specification applies to them; what the
    kernel keeps between points and what the core owes are the same before and after and pass by untouched. -/
theorem dequant_at_point (c : Dev nD) (t : Fin cfg0.N) :
    dequantPre V c t ⊢ wp frame (wpE (defs₀ (F := F)) Variants.none c none) Set.univ (bodyAt0 t) (fun _ => dequantPost V c t) := by
  unfold dequantPre dequantPost bodyAt0
  simp only [found0_0, found0_1, found0_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4]
  iintro ⟨HΦ, Ho, ⟨%d0, H0⟩, ⟨%d1, H1⟩, ⟨%d2, H2⟩, ⟨%d3, H3⟩, ⟨%d4, H4⟩⟩
  iapply (dequant_body_spec c Set.univ _ _ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Body

/-- The obligation the launch theorem puts on the dequantizing kernel's body, at every point of the grid. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact dequant_at_point V c t

end Cert.Kernel.Hand

end
-- ==== Proof.K.AccumShared.lean ====
/-
  What the runs of the accumulating product kernel's body and its obligation share.

  The body branches twice on the coordinate along the contracted axis: it clears the accumulator where that coordinate
  is zero, and copies the accumulator into the output tile where it is three. Along the grid's row-major order the
  coordinate is the position modulo four, so the two tests read "position ≡ 0" and "position ≡ 3 (mod 4)", and the
  points fall into three kinds: clearing (≡ 0), plain (≡ 1, 2) and copying (≡ 3). The output tile is stored, and
  written back to its array, exactly at the copying points; elsewhere the body leaves its buffer as it found it.
-/
import proofs.«181014_j88304527606015_2_alg».proof.Proof.K.PointData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two tests, as functions of the grid point -/

/-- The body clears the accumulator where this holds: the comparison of the last coordinate with zero, widened to a
    word and compared with zero again, as the body computes it. -/
abbrev clearsAt (i : grid1.Coords) : Prop :=
  (Scalar.cmpi .ne (Scalar.extui (Scalar.cmpi .eq (BitVec.ofNat 32 (i 2).val) 0#32)) 0#32) = 1#1

/-- Along the grid it holds at the positions divisible by four: the last coordinate is the position modulo four. -/
theorem clearsAt_iff : ∀ t : Fin cfg1.N, clearsAt (grid1.coords t) ↔ t.val % 4 = 0 :=
  (by decide +kernel : ∀ t : Fin grid1.N, clearsAt (grid1.coords t) ↔ t.val % 4 = 0)

/-- The body copies the accumulator out where this holds: the same chain against three. -/
abbrev copiesAt (i : grid1.Coords) : Prop := k1_cond2 i = 1#1

/-- Along the grid it holds at the positions that leave three modulo four: the last block of the contracted axis. -/
theorem copiesAt_iff : ∀ t : Fin cfg1.N, copiesAt (grid1.coords t) ↔ t.val % 4 = 3 :=
  (by decide +kernel : ∀ t : Fin grid1.N, copiesAt (grid1.coords t) ↔ t.val % 4 = 3)

/-! ## Where the output tile is stored -/

/-- Away from the copying points the output window is idle: the body stores nothing into its buffer there, -/
theorem outIdle : ∀ t : Fin cfg1.N, ¬t.val % 4 = 3 → cfg1.idle 4 (grid1.coords t) = true :=
  (by decide +kernel : ∀ t : Fin grid1.N, ¬t.val % 4 = 3 → cfg1.idle 4 (grid1.coords t) = true)

/-- and the tile is not written back there (the output's block index moves only when the last axis wraps). -/
theorem outKept (t : Fin cfg1.N) (h : ¬t.val % 4 = 3) : (cfg1.win 4).flush t = false := by
  cases hf : (cfg1.win 4).flush t with
  | false => rfl
  | true => exact absurd ((flush1_4 t).mp hf) h

/-- At the copying points the window is live. -/
theorem outLive : ∀ t : Fin cfg1.N, t.val % 4 = 3 → cfg1.idle 4 (grid1.coords t) = false :=
  (by decide +kernel : ∀ t : Fin grid1.N, t.val % 4 = 3 → cfg1.idle 4 (grid1.coords t) = false)

/-! ## The buffers the body is called on -/

/-- Each window's current buffer at point `t`, and that it is a whole buffer. -/
abbrev buf0 (t : Fin cfg1.N) : Memref sig .tc .vmem S1024x512 .bf16 := win1_0.stage (cfg1.slots t 0)
abbrev whole0 (t : Fin cfg1.N) : (buf0 t).IsWhole := hstage1_0 ((cfg1.slots t 0).cast nbuf1_0)
abbrev buf1 (t : Fin cfg1.N) : Memref sig .tc .vmem S1024x512 .bf16 := win1_1.stage (cfg1.slots t 1)
abbrev whole1 (t : Fin cfg1.N) : (buf1 t).IsWhole := hstage1_1 ((cfg1.slots t 1).cast nbuf1_1)
abbrev buf2 (t : Fin cfg1.N) : Memref sig .tc .vmem S1024x512 .bf16 := win1_2.stage (cfg1.slots t 2)
abbrev whole2 (t : Fin cfg1.N) : (buf2 t).IsWhole := hstage1_2 ((cfg1.slots t 2).cast nbuf1_2)
abbrev buf3 (t : Fin cfg1.N) : Memref sig .tc .vmem S1024x512 .bf16 := win1_3.stage (cfg1.slots t 3)
abbrev whole3 (t : Fin cfg1.N) : (buf3 t).IsWhole := hstage1_3 ((cfg1.slots t 3).cast nbuf1_3)
abbrev buf4 (t : Fin cfg1.N) : Memref sig .tc .vmem S1024x1024 .f32 := win1_4.stage (cfg1.slots t 4)
abbrev whole4 (t : Fin cfg1.N) : (buf4 t).IsWhole := hstage1_4 ((cfg1.slots t 4).cast nbuf1_4)

/-- The whole 1024 × 1024 tile as a rectangle at the origin: the one rectangle every load and store of the accumulator
    and of the output tile goes through. -/
abbrev rectA : Rect S1024x1024 := Rect.unit (s := S1024x1024) ![0, 0] S1024x1024.size inb_S1024x1024_S1024x1024_0_0

theorem origin2 : (![0, 0] : Fin 2 → Nat) = fun _ => 0 := by
  funext a; match a with | ⟨0, _⟩ => rfl | ⟨1, _⟩ => rfl

/-! ## The input windows' buffers hold their tiles -/

/-- An input window's current buffer holds the tile of its array at the point, whether or not it was fetched there:
    where it was not, the tile's index did not move and the body left the buffer alone. -/
theorem before1_0 (V : (c : Dev nD) → (b : Ref sig .tc) → Buf (Elt F) ((c : Thread nD τ).loc b)) (c : Dev nD) (t : Fin cfg1.N) (d) :
    (dat1 V c).before 0 t d = tile1 V c 0 t :=
  ((dat1 V c).before_in_eq_fetched 0 rfl (fun _ => rfl) (fun _ _ _ => rfl)
    (fun t => by rw [dat1_after_0]; unfold Dat.blockOf tile1; rw [dat1_A]; try rfl) t d).trans
    (by unfold Dat.fetched Dat.blockOf tile1; rw [dat1_A]; try rfl)
theorem before1_1 (V : (c : Dev nD) → (b : Ref sig .tc) → Buf (Elt F) ((c : Thread nD τ).loc b)) (c : Dev nD) (t : Fin cfg1.N) (d) :
    (dat1 V c).before 1 t d = tile1 V c 1 t :=
  ((dat1 V c).before_in_eq_fetched 1 rfl (fun _ => rfl) (fun _ _ _ => rfl)
    (fun t => by rw [dat1_after_1]; unfold Dat.blockOf tile1; rw [dat1_A]; try rfl) t d).trans
    (by unfold Dat.fetched Dat.blockOf tile1; rw [dat1_A]; try rfl)
theorem before1_2 (V : (c : Dev nD) → (b : Ref sig .tc) → Buf (Elt F) ((c : Thread nD τ).loc b)) (c : Dev nD) (t : Fin cfg1.N) (d) :
    (dat1 V c).before 2 t d = tile1 V c 2 t :=
  ((dat1 V c).before_in_eq_fetched 2 rfl (fun _ => rfl) (fun _ _ _ => rfl)
    (fun t => by rw [dat1_after_2]; unfold Dat.blockOf tile1; rw [dat1_A]; try rfl) t d).trans
    (by unfold Dat.fetched Dat.blockOf tile1; rw [dat1_A]; try rfl)
theorem before1_3 (V : (c : Dev nD) → (b : Ref sig .tc) → Buf (Elt F) ((c : Thread nD τ).loc b)) (c : Dev nD) (t : Fin cfg1.N) (d) :
    (dat1 V c).before 3 t d = tile1 V c 3 t :=
  ((dat1 V c).before_in_eq_fetched 3 rfl (fun _ => rfl) (fun _ _ _ => rfl)
    (fun t => by rw [dat1_after_3]; unfold Dat.blockOf tile1; rw [dat1_A]; try rfl) t d).trans
    (by unfold Dat.fetched Dat.blockOf tile1; rw [dat1_A]; try rfl)

end Cert.Kernel.Hand

end
-- ==== Proof.K.AccumRunClear.lean ====
/-
  The body of the accumulating product kernel at a clearing point, run from start to end.

  At such a point the first test holds and the second does not: the body stores zeros over the whole accumulator, loads
  the four input tiles, reads the accumulator back and stores it with the first product added, reads it back again and
  stores it with the second product added, and leaves the output tile's buffer alone. Whatever the accumulator held on
  entry is overwritten before it is read, so it may be entered at any contents. The run is stated on arbitrary whole
  buffers: the inputs at given contents, returned as found; the output tile's buffer at given contents, returned as
  found; the accumulator returned with the body's three stores written into it. Those stores, as a list of rectangles
  with their values (the last store first), are found by running the body symbolically; they are the witness.
-/
import proofs.«181014_j88304527606015_2_alg».proof.Proof.K.AccumShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores a clearing point makes into the accumulator, with the proof that the body, started on whole buffers (the
    inputs at `xe xo lo hi`, the output tile's buffer at `keep`, the accumulator at anything), runs to any continuation
    that accepts the inputs and the output tile's buffer unchanged and the accumulator with those stores written. -/
noncomputable def bodyRunClear (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : clearsAt i) (hc1 : ¬copiesAt i) (xe xo lo hi : Vec F S1024x512 .bf16) :
    { LS : List (View.Piece (Elt F) S1024x1024 .f32) //
      ∀ (keep : Vec F S1024x1024 .f32) (E : Set ℕ) (K : PUnit → sProp 𝕄),
        iprop(owns (c : Thread nD τ) arg3 fullShare xe ∗ owns (c : Thread nD τ) arg4 fullShare xo ∗ owns (c : Thread nD τ) arg5 fullShare lo ∗ owns (c : Thread nD τ) arg6 fullShare hi
            ∗ owns (c : Thread nD τ) arg7 fullShare keep ∗ (∃ d, owns (c : Thread nD τ) arg8 fullShare d)
            ∗ (iprop(owns (c : Thread nD τ) arg3 fullShare xe ∗ owns (c : Thread nD τ) arg4 fullShare xo ∗ owns (c : Thread nD τ) arg5 fullShare lo ∗ owns (c : Thread nD τ) arg6 fullShare hi
                ∗ owns (c : Thread nD τ) arg7 fullShare keep
                ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun keep E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.K.AccumRunPlain.lean ====
/-
  The body of the accumulating product kernel at a plain point, run from start to end.

  Neither test holds: the body loads the four input tiles, reads the accumulator and stores it with the first product
  added, reads it back and stores it with the second product added, and touches nothing else. The accumulator is entered
  at the contents `acc` the point before left, and its two stores (the last first) are the witness the run finds.
-/
import proofs.«181014_j88304527606015_2_alg».proof.Proof.K.AccumRunClear

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores a plain point makes into the accumulator, with the proof that the body, started on whole buffers (the inputs
    at `xe xo lo hi`, the output tile's buffer at `keep`, the accumulator at `acc`), runs to any continuation that accepts
    the inputs and the output tile's buffer unchanged and the accumulator with those stores written. -/
noncomputable def bodyRunPlain (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : ¬copiesAt i) (xe xo lo hi : Vec F S1024x512 .bf16) (acc : Vec F S1024x1024 .f32) :
    { LS : List (View.Piece (Elt F) S1024x1024 .f32) //
      ∀ (keep : Vec F S1024x1024 .f32) (E : Set ℕ) (K : PUnit → sProp 𝕄),
        iprop(owns (c : Thread nD τ) arg3 fullShare xe ∗ owns (c : Thread nD τ) arg4 fullShare xo ∗ owns (c : Thread nD τ) arg5 fullShare lo ∗ owns (c : Thread nD τ) arg6 fullShare hi
            ∗ owns (c : Thread nD τ) arg7 fullShare keep ∗ owns (c : Thread nD τ) arg8 fullShare acc
            ∗ (iprop(owns (c : Thread nD τ) arg3 fullShare xe ∗ owns (c : Thread nD τ) arg4 fullShare xo ∗ owns (c : Thread nD τ) arg5 fullShare lo ∗ owns (c : Thread nD τ) arg6 fullShare hi
                ∗ owns (c : Thread nD τ) arg7 fullShare keep
                ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun keep E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.K.AccumRunCopy.lean ====
/-
  The body of the accumulating product kernel at a copying point, run from start to end.

  The first test fails and the second holds: the body loads the four input tiles, reads the accumulator and stores it
  with the first product added, reads it back and stores it with the second product added, then reads it once more and
  stores what it read over the whole output tile. The accumulator is entered at the contents `acc` the point before
  left; the output tile's buffer is entered at anything, since the body overwrites all of it. The run finds two lists of
  stores (the last first): the output tile's one and the accumulator's two.
-/
import proofs.«181014_j88304527606015_2_alg».proof.Proof.K.AccumRunPlain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores a copying point makes into the output tile's buffer and into the accumulator, with the proof that the body,
    started on whole buffers (the inputs at `xe xo lo hi`, the output tile's buffer at anything, the accumulator at
    `acc`), runs to any continuation that accepts the inputs unchanged and the two buffers with those stores written. -/
noncomputable def bodyRunCopy (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare xe ∗ owns (c : Thread nD τ) arg4 fullShare xo ∗ owns (c : Thread nD τ) arg5 fullShare lo ∗ owns (c : Thread nD τ) arg6 fullShare hi
            ∗ (∃ d, owns (c : Thread nD τ) arg7 fullShare d) ∗ owns (c : Thread nD τ) arg8 fullShare acc
            ∗ (iprop(owns (c : Thread nD τ) arg3 fullShare xe ∗ owns (c : Thread nD τ) arg4 fullShare xo ∗ owns (c : Thread nD τ) arg5 fullShare lo ∗ owns (c : Thread nD τ) arg6 fullShare hi
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.K.AccumLeaves.lean ====
/-
  What the body's stores leave behind, read back as one term.

  Every store the body makes into the accumulator, and its one store into the output tile, covers the whole tile. So
  whatever a list of such stores is written over, the buffer afterwards reads as the value of the last store, and a load
  of the whole tile made between two stores reads the value of the store before it. Read this way, the accumulator after
  a point is the accumulator before it (zeros, at a clearing point) plus the product of the even-column tile with the
  low tile, plus the product of the odd-column tile with the high tile; and the output tile at a copying point is that
  same term. The stores' rectangles tile the shape, which is all the cover asks.
-/
import proofs.«181014_j88304527606015_2_alg».proof.Proof.K.AccumRunCopy
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## A whole-shape load after stores the last of which covers the shape -/

/-- After a list of stores whose last goes through the whole-shape rectangle at the origin, a load through that rectangle
    reads the last store's value, whatever the earlier stores were. -/
theorem readCov_cons_whole {Val : EltTy → Type} [∀ e, Nonempty (Val e)] {sig' : RefSig} {κ : Kind} {sp : Space} {S : Shape} {e : EltTy}
    (v : View sig' κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-! ## A clearing point -/

/-- The three stores of a clearing point tile the accumulator. -/
theorem clearCovers (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : clearsAt i) (hc1 : ¬copiesAt i) (xe xo lo hi : Vec F S1024x512 .bf16) (y : S1024x1024.Idx) :
    ∃ pc ∈ (bodyRunClear c i arg3 harg3 arg4 harg4 arg5 harg5 arg6 harg6 arg7 harg7 arg8 harg8 hc0 hc1 xe xo lo hi).1, y ∈ pc.1.set :=
  View.cover_of_tiledL (bodyRunClear c i arg3 harg3 arg4 harg4 arg5 harg5 arg6 harg6 arg7 harg7 arg8 harg8 hc0 hc1 xe xo lo hi).1 S1024x1024.size (by sl_kernel_rfl) y

/-- They leave the two products added to zeros. -/
theorem clearLeaves (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : clearsAt i) (hc1 : ¬copiesAt i) (xe xo lo hi : Vec F S1024x512 .bf16) :
    View.canon (bodyRunClear c i arg3 harg3 arg4 harg4 arg5 harg5 arg6 harg6 arg7 harg7 arg8 harg8 hc0 hc1 xe xo lo hi).1 = accStep xe xo lo hi k1_pay1 := by
  unfold bodyRunClear; dsimp only; sl_unfold_words
  rw [View.canon_cons_unit_zero origin2, readCov_cons_whole _ origin2, View.readCov_unit_zero _ origin2]
  simp only [View.readAt_eq_ld, harg3.read_unread, harg4.read_unread, harg5.read_unread, harg6.read_unread,
    View.ld_unit_zero (S := S1024x512) origin2]
  rfl

/-! ## A plain point -/

/-- The two stores of a plain point tile the accumulator. -/
theorem plainCovers (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : ¬copiesAt i) (xe xo lo hi : Vec F S1024x512 .bf16) (acc : Vec F S1024x1024 .f32) (y : S1024x1024.Idx) :
    ∃ pc ∈ (bodyRunPlain c i arg3 harg3 arg4 harg4 arg5 harg5 arg6 harg6 arg7 harg7 arg8 harg8 hc0 hc1 xe xo lo hi acc).1, y ∈ pc.1.set :=
  View.cover_of_tiledL (bodyRunPlain c i arg3 harg3 arg4 harg4 arg5 harg5 arg6 harg6 arg7 harg7 arg8 harg8 hc0 hc1 xe xo lo hi acc).1 S1024x1024.size (by sl_kernel_rfl) y

/-- They leave the two products added to what the accumulator held. -/
theorem plainLeaves (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : ¬copiesAt i) (xe xo lo hi : Vec F S1024x512 .bf16) (acc : Vec F S1024x1024 .f32) :
    View.canon (bodyRunPlain c i arg3 harg3 arg4 harg4 arg5 harg5 arg6 harg6 arg7 harg7 arg8 harg8 hc0 hc1 xe xo lo hi acc).1 = accStep xe xo lo hi acc := by
  unfold bodyRunPlain; dsimp only; sl_unfold_words
  rw [View.canon_cons_unit_zero origin2, View.readCov_unit_zero _ origin2]
  simp only [View.readAt_eq_ld, harg3.read_unread, harg4.read_unread, harg5.read_unread, harg6.read_unread, harg8.read_unread,
    View.ld_unit_zero (S := S1024x512) origin2, View.ld_unit_zero (S := S1024x1024) origin2]
  rfl

/-! ## A copying point -/

/-- The two stores of a copying point tile the accumulator, -/
theorem copyCovers (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) (y : S1024x1024.Idx) :
    ∃ pc ∈ (bodyRunCopy c i arg3 harg3 arg4 harg4 arg5 harg5 arg6 harg6 arg7 harg7 arg8 harg8 hc0 hc1 xe xo lo hi acc).2.1, y ∈ pc.1.set :=
  View.cover_of_tiledL (bodyRunCopy c i arg3 harg3 arg4 harg4 arg5 harg5 arg6 harg6 arg7 harg7 arg8 harg8 hc0 hc1 xe xo lo hi acc).2.1 S1024x1024.size (by sl_kernel_rfl) y

/-- and leave the two products added to what it held; -/
theorem copyLeaves (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) :
    View.canon (bodyRunCopy c i arg3 harg3 arg4 harg4 arg5 harg5 arg6 harg6 arg7 harg7 arg8 harg8 hc0 hc1 xe xo lo hi acc).2.1 = accStep xe xo lo hi acc := by
  unfold bodyRunCopy; dsimp only; sl_unfold_words
  rw [View.canon_cons_unit_zero origin2, View.readCov_unit_zero _ origin2]
  simp only [View.readAt_eq_ld, harg3.read_unread, harg4.read_unread, harg5.read_unread, harg6.read_unread, harg8.read_unread,
    View.ld_unit_zero (S := S1024x512) origin2, View.ld_unit_zero (S := S1024x1024) origin2]
  rfl

/-- its one store into the output tile covers the tile, -/
theorem copyOutCovers (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) (y : S1024x1024.Idx) :
    ∃ pc ∈ (bodyRunCopy c i arg3 harg3 arg4 harg4 arg5 harg5 arg6 harg6 arg7 harg7 arg8 harg8 hc0 hc1 xe xo lo hi acc).1, y ∈ pc.1.set :=
  View.cover_of_tiledL (bodyRunCopy c i arg3 harg3 arg4 harg4 arg5 harg5 arg6 harg6 arg7 harg7 arg8 harg8 hc0 hc1 xe xo lo hi acc).1 S1024x1024.size (by sl_kernel_rfl) y

/-- and what it stores there is the accumulator it has just completed. -/
theorem copyOutLeaves (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) :
    View.canon (bodyRunCopy c i arg3 harg3 arg4 harg4 arg5 harg5 arg6 harg6 arg7 harg7 arg8 harg8 hc0 hc1 xe xo lo hi acc).1 = accStep xe xo lo hi acc := by
  unfold bodyRunCopy; dsimp only; sl_unfold_words
  rw [View.canon_unit_zero origin2, readCov_cons_whole _ origin2, View.readCov_unit_zero _ origin2]
  simp only [View.readAt_eq_ld, harg3.read_unread, harg4.read_unread, harg5.read_unread, harg6.read_unread, harg8.read_unread,
    View.ld_unit_zero (S := S1024x512) origin2, View.ld_unit_zero (S := S1024x1024) origin2]
  rfl

end Cert.Kernel.Hand

end
-- ==== Proof.K.AccumBody.lean ====
/-
  The body obligation of the accumulating product kernel, and what the kernel holds on entry and on exit.

  At every grid point the body is handed the four input tiles in their buffers, the output tile's buffer, and — between
  points — the accumulator at what the point before left (at anything before the first point), beside the core's other
  buffers, which it never touches. The position modulo four says which of the three runs applies. At a clearing point the
  accumulator comes back at the two products over zeros; at a plain or copying point at the two products over what it
  held; and at a copying point the output tile's buffer comes back at that same term, while elsewhere it comes back as
  found. These are the terms the per-point data name, so the obligation closes by the runs and the read-backs.
-/
import proofs.«181014_j88304527606015_2_alg».proof.Proof.K.AccumLeaves

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The input windows are never idle -/

theorem inLive0 (t : Fin cfg1.N) : cfg1.idle 0 (grid1.coords t) = false := rfl
theorem inLive1 (t : Fin cfg1.N) : cfg1.idle 1 (grid1.coords t) = false := rfl
theorem inLive2 (t : Fin cfg1.N) : cfg1.idle 2 (grid1.coords t) = false := rfl
theorem inLive3 (t : Fin cfg1.N) : cfg1.idle 3 (grid1.coords t) = false := rfl

/-! ## The obligation at one point -/

/-- What the body is called with at point `t`: what the kernel holds between points, what the core owes, and each
    window's current buffer at what it then holds. -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (buf0 t) fullShare ((dat1 V c).before 0 t d))
    ∗ (∃ d, owns (c : Thread nD τ) (buf1 t) fullShare ((dat1 V c).before 1 t d))
    ∗ (∃ d, owns (c : Thread nD τ) (buf2 t) fullShare ((dat1 V c).before 2 t d))
    ∗ (∃ d, owns (c : Thread nD τ) (buf3 t) fullShare ((dat1 V c).before 3 t d))
    ∗ (∃ d, owns (c : Thread nD τ) (buf4 t) fullShare ((dat1 V c).before 4 t d)))

/-- What it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by the kind of the point. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiAcc V c (t.val + 1) t.isLt from rfl, PhiAcc_succ]
  have hN : t.val < 128 := lt_of_lt_of_eq t.isLt (show cfg1.N = 128 from N_1)
  rw [show (dat1 V c).leavesExact 0 t = owns (c : Thread nD τ) (buf0 t) fullShare ((dat1 V c).after 0 t) from by
    unfold Dat.leavesExact; rw [inLive0 t], dat1_after_0]
  rw [show (dat1 V c).leavesExact 1 t = owns (c : Thread nD τ) (buf1 t) fullShare ((dat1 V c).after 1 t) from by
    unfold Dat.leavesExact; rw [inLive1 t], dat1_after_1]
  rw [show (dat1 V c).leavesExact 2 t = owns (c : Thread nD τ) (buf2 t) fullShare ((dat1 V c).after 2 t) from by
    unfold Dat.leavesExact; rw [inLive2 t], dat1_after_2]
  rw [show (dat1 V c).leavesExact 3 t = owns (c : Thread nD τ) (buf3 t) fullShare ((dat1 V c).after 3 t) from by
    unfold Dat.leavesExact; rw [inLive3 t], dat1_after_3]
  by_cases h0 : t.val % 4 = 0
  · have h3 : ¬t.val % 4 = 3 := by omega
    -- a clearing point: the output tile's buffer is handed back as found; the accumulator starts from zeros
    rw [Dat.leavesExact_idle (dat1 V c) 4 t (outIdle t h3) (outKept t h3)]
    rw [accAt_reset V c t h0]
    by_cases hz : t.val = 0
    · rw [dat1_Phi_castSucc V c t, PhiAcc_zero V c _ _ hz, PhiA1_split]
      iintro ⟨⟨⟨HS, Hrest⟩, Hg⟩, Ho, ⟨%d0, H0⟩, ⟨%d1, H1⟩, ⟨%d2, H2⟩, ⟨%d3, H3⟩, ⟨%d4, H4⟩⟩
      iapply ((bodyRunClear c (grid1.coords t) (buf0 t) (whole0 t) (buf1 t) (whole1 t) (buf2 t) (whole2 t) (buf3 t) (whole3 t) (buf4 t) (whole4 t) accM (Memref.isWhole_whole _) ((clearsAt_iff t).mpr h0) (fun h => h3 ((copiesAt_iff t).mp h)) (tile1 V c 0 t) (tile1 V c 1 t) (tile1 V c 2 t) (tile1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro
            exact (View.read_writes_eq_canon _ _ _ (clearCovers c _ _ _ _ _ _ _ _ _ _ _ _ _ _ _ _ _ _ _)).trans (clearLeaves c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [dat1_Phi_castSucc V c t, PhiAcc_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((bodyRunClear c (grid1.coords t) (buf0 t) (whole0 t) (buf1 t) (whole1 t) (buf2 t) (whole2 t) (buf3 t) (whole3 t) (buf4 t) (whole4 t) accM (Memref.isWhole_whole _) ((clearsAt_iff t).mpr h0) (fun h => h3 ((copiesAt_iff t).mp h)) (tile1 V c 0 t) (tile1 V c 1 t) (tile1 V c 2 t) (tile1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro
            exact (View.read_writes_eq_canon _ _ _ (clearCovers c _ _ _ _ _ _ _ _ _ _ _ _ _ _ _ _ _ _ _)).trans (clearLeaves c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h3 : t.val % 4 = 3
    · -- a copying point: the accumulator goes on from what it held, and the output tile receives it
      rw [show (dat1 V c).leavesExact 4 t = owns (c : Thread nD τ) (buf4 t) fullShare ((dat1 V c).after 4 t) from by
        unfold Dat.leavesExact; rw [outLive t h3], dat1_after_4]
      rw [accAt_carry V c t h0]
      rw [dat1_Phi_castSucc V c t, PhiAcc_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((bodyRunCopy c (grid1.coords t) (buf0 t) (whole0 t) (buf1 t) (whole1 t) (buf2 t) (whole2 t) (buf3 t) (whole3 t) (buf4 t) (whole4 t) accM (Memref.isWhole_whole _) (fun h => h0 ((clearsAt_iff t).mp h)) ((copiesAt_iff t).mpr h3) (tile1 V c 0 t) (tile1 V c 1 t) (tile1 V c 2 t) (tile1 V c 3 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro
            exact (View.read_writes_eq_canon _ _ _ (copyCovers c _ _ _ _ _ _ _ _ _ _ _ _ _ _ _ _ _ _ _ _)).trans (copyLeaves c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (copyOutCovers c _ _ _ _ _ _ _ _ _ _ _ _ _ _ _ _ _ _ _ _)).trans (copyOutLeaves c _ _ _ _ _ _ _ _ _ _ _ _ _ _ _ _ _ _ _ _)
    · -- a plain point: the output tile's buffer is handed back as found; the accumulator goes on from what it held
      rw [Dat.leavesExact_idle (dat1 V c) 4 t (outIdle t h3) (outKept t h3)]
      rw [accAt_carry V c t h0]
      rw [dat1_Phi_castSucc V c t, PhiAcc_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((bodyRunPlain c (grid1.coords t) (buf0 t) (whole0 t) (buf1 t) (whole1 t) (buf2 t) (whole2 t) (buf3 t) (whole3 t) (buf4 t) (whole4 t) accM (Memref.isWhole_whole _) (fun h => h0 ((clearsAt_iff t).mp h)) (fun h => h3 ((copiesAt_iff t).mp h)) (tile1 V c 0 t) (tile1 V c 1 t) (tile1 V c 2 t) (tile1 V c 3 t) (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro
            exact (View.read_writes_eq_canon _ _ _ (plainCovers c _ _ _ _ _ _ _ _ _ _ _ _ _ _ _ _ _ _ _ _)).trans (plainLeaves c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-! ## The three facts the launch takes -/

/-- The body obligation of the kernel's per-point data, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

/-- What the launch hands the kernel is what it holds before the first point. -/
theorem acc_in (V : (c : Dev nD) → (b : Ref sig .tc) → Buf (Elt F) ((c : Thread nD τ).loc b)) (c : Dev nD) : Pipeline.ΦA spec1 c ⊢ (dat1 (F := F) V c).Φ 0 := by
  rw [show (dat1 V c).Φ 0 = PhiAcc V c 0 (Nat.zero_le _) from rfl, PhiAcc_zero V c 0 _ rfl]
  try exact Idealize.SL.BI.Entails.refl _

/-- After any point the kernel can hand everything back: the accumulator's named contents are forgotten. -/
theorem heldAfter (V : (c : Dev nD) → (b : Ref sig .tc) → Buf (Elt F) ((c : Thread nD τ).loc b)) (c : Dev nD) (t : Fin (cfg1.N + 1)) (ht : t.val ≠ 0) :
    (dat1 (F := F) V c).Φ t ⊢ Pipeline.ΦA spec1 c := by
  rw [show (dat1 V c).Φ t = PhiAcc V c t.val (Nat.le_of_lt_succ t.isLt) from rfl, PhiAcc_pos V c _ _ ht, PhiA1_split]
  iintro ⟨⟨HS, Hrest⟩, Hg⟩
  isplitl [HS Hrest]
  · isplitl [HS]
    · iexists _; iexact HS
    iexact Hrest
  iexact Hg

/-- In particular after the last. -/
theorem acc_out (V : (c : Dev nD) → (b : Ref sig .tc) → Buf (Elt F) ((c : Thread nD τ).loc b)) (c : Dev nD) : (dat1 (F := F) V c).Φ (Fin.last cfg1.N) ⊢ Pipeline.ΦA spec1 c :=
  heldAfter V c _ (by rw [Fin.val_last]; have : cfg1.N = 128 := N_1; omega)

end Cert.Kernel.Hand

end
-- ==== Proof.KI.PointData.lean ====
/-
  What each grid point of the two kernels leaves behind, as data the launch theorems take, at any float instance.

  The program is two tiled kernels. The first (grid 4 × 4 over the packed weight [4096, 2048]) turns a tile of packed
  words and the matching 16 × 1024 tiles of the transposed scales and zero points into two tiles of dequantized weights:
  the low nibbles (even columns of the unpacked weight) and the high nibbles (odd columns). The second (grid 8 × 4 × 4,
  the last axis running over four blocks of the contracted axis) keeps a 1024 × 1024 accumulator in a buffer of its own:
  at the first block it is reset to zero, at every block it gains the product of the even columns of the activations with
  the low tile and then the product of the odd columns with the high tile, and at the last block it is copied into the
  output tile. Everything here is stated at the contents `V` the core's buffers hold when the kernel is entered.
-/
import proofs.«181014_j88304527606015_2_alg».proof.Proof.Gen.KernelIdeal.Launch
import proofs.«181014_j88304527606015_2_alg».proof.Proof.Gen.KernelIdeal.Skeleton
import proofs.«181014_j88304527606015_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The dequantizing kernel -/

/-- The tile of window `w` at grid point `t`, cut out of the window's array as the kernel finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 × 512 tile and the whole 16 × 1024 tile, as rectangles at the origin. -/
abbrev rectQ : Rect S1024x512 := Rect.unit (s := S1024x512) ![0, 0] S1024x512.size inb_S1024x512_S1024x512_0_0
abbrev rectG : Rect S16x1024 := Rect.unit (s := S16x1024) ![0, 0] S16x1024.size inb_S16x1024_S16x1024_0_0

/-- The low-nibble tile the body stores: one store of the whole tile, its value the body's arithmetic on the three loads. -/
def loTile (q : Vec F S1024x512 .i32) (s z : Vec F S16x1024 .f32) : Vec F S1024x512 .bf16 :=
  View.canon [⟨rectQ, k0_pay4 (View.ld q rectQ) (View.ld s rectG) (View.ld z rectG)⟩]

/-- The high-nibble tile the body stores. -/
def hiTile (q : Vec F S1024x512 .i32) (s z : Vec F S16x1024 .f32) : Vec F S1024x512 .bf16 :=
  View.canon [⟨rectQ, k0_pay5 (View.ld q rectQ) (View.ld s rectG) (View.ld z rectG)⟩]

/-- Per point: the three input tiles stay as fetched, the two output tiles are the body's stores; the kernel keeps
    nothing between points, owes nothing and holds its buffers whole. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => loTile (tile0 V c 0 t) (tile0 V c 1 t) (tile0 V c 2 t)
    | ⟨4, _⟩ => hiTile (tile0 V c 0 t) (tile0 V c 1 t) (tile0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = tile0 V c 0 t := by dsimp only [dat0]
theorem dat0_after_1 (c : Dev nD) (t : Fin cfg0.N) : (dat0 V c).after 1 t = tile0 V c 1 t := by dsimp only [dat0]
theorem dat0_after_2 (c : Dev nD) (t : Fin cfg0.N) : (dat0 V c).after 2 t = tile0 V c 2 t := by dsimp only [dat0]
theorem dat0_after_3 (c : Dev nD) (t : Fin cfg0.N) :
    (dat0 V c).after 3 t = loTile (tile0 V c 0 t) (tile0 V c 1 t) (tile0 V c 2 t) := by dsimp only [dat0]
theorem dat0_after_4 (c : Dev nD) (t : Fin cfg0.N) :
    (dat0 V c).after 4 t = hiTile (tile0 V c 0 t) (tile0 V c 1 t) (tile0 V c 2 t) := by dsimp only [dat0]

/-! ## The accumulating product kernel -/

/-- The tile of window `w` at grid point `t`, cut out of the window's array as the kernel finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator buffer the kernel keeps for itself. -/
abbrev accM : Memref sig .tc .vmem S1024x1024 .f32 := Memref.whole cc1_scratch0

/-- What the launch hands a kernel of a program of several — every scoped buffer that is no staging buffer of this
    kernel, at anything, and the random-number register —, with the accumulator split out of the others. -/
theorem PhiA1_split (c : Dev nD) :
    (Pipeline.ΦA spec1 c : sProp 𝕄)
      = iprop(iprop((∃ d, owns (c : Thread nD τ) accM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [accM, owns_whole]
  try rfl

/-- One point's gain: the accumulator `a` plus the product of the even-column tile with the low tile, then plus the
    product of the odd-column tile with the high tile. -/
def accStep (xe xo lo hi : Vec F S1024x512 .bf16) (a : Vec F S1024x1024 .f32) : Vec F S1024x1024 .f32 :=
  k1_pay3 xo hi (k1_pay2 xe lo a)

/-- The accumulator after the point at position `n`: started from zero where the block index (the position mod 4) is
    zero, from what the point before left elsewhere. -/
def accAt (c : Dev nD) : (n : ℕ) → n < cfg1.N → Vec F S1024x1024 .f32
  | 0, hn => accStep (tile1 V c 0 ⟨0, hn⟩) (tile1 V c 1 ⟨0, hn⟩) (tile1 V c 2 ⟨0, hn⟩) (tile1 V c 3 ⟨0, hn⟩) k1_pay1
  | n + 1, hn =>
    accStep (tile1 V c 0 ⟨n + 1, hn⟩) (tile1 V c 1 ⟨n + 1, hn⟩) (tile1 V c 2 ⟨n + 1, hn⟩) (tile1 V c 3 ⟨n + 1, hn⟩)
      (if (n + 1) % 4 = 0 then k1_pay1 else accAt c n (Nat.lt_of_succ_lt hn))

theorem accAt_reset (c : Dev nD) (t : Fin cfg1.N) (h : t.val % 4 = 0) :
    accAt V c t.val t.isLt = accStep (tile1 V c 0 t) (tile1 V c 1 t) (tile1 V c 2 t) (tile1 V c 3 t) k1_pay1 := by
  obtain ⟨n, hn⟩ := t
  cases n with
  | zero => rfl
  | succ n => exact congrArg _ (if_pos h)

theorem accAt_carry (c : Dev nD) (t : Fin cfg1.N) (h : ¬t.val % 4 = 0) :
    accAt V c t.val t.isLt = accStep (tile1 V c 0 t) (tile1 V c 1 t) (tile1 V c 2 t) (tile1 V c 3 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-- The core's scoped buffers other than this kernel's staging buffers and its accumulator (the other kernel's staging
    buffers), each at some contents: carried along unopened. -/
abbrev restAcc (c : Dev nD) : sProp 𝕄 :=
  Pipeline.scopedRestBut (Ix := Unit) (Name := ℕ) (U := UR sig nD τ) (Lvl := ℕ) (Val := Elt F) spec1 c [cc1_scratch0]

/-- What the kernel holds between points: before the first point the core's scoped buffers at anything; after the point
    at position `n` the accumulator at `accAt … n` beside the other scoped buffers; the random-number register at some
    state throughout. -/
def PhiAcc (c : Dev nD) : (n : ℕ) → n ≤ cfg1.N → sProp 𝕄
  | 0, _ => Pipeline.ΦA spec1 c
  | n + 1, hn => iprop(iprop(owns (c : Thread nD τ) accM fullShare (accAt V c n hn) ∗ restAcc c) ∗ (∃ r, prngReg c r))

theorem PhiAcc_zero (c : Dev nD) (n : ℕ) (h : n ≤ cfg1.N) (hz : n = 0) : PhiAcc V c n h = Pipeline.ΦA spec1 c := by
  subst hz; rfl
theorem PhiAcc_succ (c : Dev nD) (n : ℕ) (hn : n < cfg1.N) :
    PhiAcc V c (n + 1) hn = iprop(iprop(owns (c : Thread nD τ) accM fullShare (accAt V c n hn) ∗ restAcc c) ∗ (∃ r, prngReg c r)) := rfl
theorem PhiAcc_pos (c : Dev nD) (n : ℕ) (h : n ≤ cfg1.N) (hz : n ≠ 0) :
    PhiAcc V c n h = iprop(iprop(owns (c : Thread nD τ) accM fullShare (accAt V c (n - 1) (by omega)) ∗ restAcc c) ∗ (∃ r, prngReg c r)) := by
  cases n with
  | zero => exact absurd rfl hz
  | succ n => rfl

/-- Per point: the four input tiles stay as fetched; the output tile, where the body stores it (the last block), is the
    accumulator (elsewhere the body leaves its buffer alone and the entry is not consulted); between points the kernel
    holds `PhiAcc`; it owes nothing and holds its buffers whole. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => accAt V c t.val t.isLt
  Φ t := PhiAcc V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = tile1 V c 0 t := by dsimp only [dat1]
theorem dat1_after_1 (c : Dev nD) (t : Fin cfg1.N) : (dat1 V c).after 1 t = tile1 V c 1 t := by dsimp only [dat1]
theorem dat1_after_2 (c : Dev nD) (t : Fin cfg1.N) : (dat1 V c).after 2 t = tile1 V c 2 t := by dsimp only [dat1]
theorem dat1_after_3 (c : Dev nD) (t : Fin cfg1.N) : (dat1 V c).after 3 t = tile1 V c 3 t := by dsimp only [dat1]
theorem dat1_after_4 (c : Dev nD) (t : Fin cfg1.N) : (dat1 V c).after 4 t = accAt V c t.val t.isLt := by dsimp only [dat1]
theorem dat1_Phi_castSucc (c : Dev nD) (t : Fin cfg1.N) :
    (dat1 V c).Φ t.castSucc = PhiAcc V c t.val (Nat.le_of_lt t.isLt) := by
  dsimp only [dat1]; simp only [Fin.coe_castSucc]

end Entry

/-! ## The buffers' contents between the pieces of the program -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the host lines before the first kernel (the scales multiplied by the row scale and transposed, the zero points
    transposed). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its arrays at what its write-backs leave, the rest as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the host lines between the kernels (the activations split into even and odd columns). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

/-- No kernel has a prefetched table. -/
abbrev adm : (p : Fin 2) → (pcfgs (F := F) p).Adm := fun p => (cfgs p).toPCfg_adm
/-- Both kernels' per-point data, each at the contents its kernel is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.KernelIdeal.Hand

end
-- ==== Proof.KI.Run.lean ====
/-
  The whole program as a run: host lines, the dequantizing kernel, host lines, the accumulating product kernel — every
  weakly fair execution terminates without a fault, and at the end every buffer that outlives the kernels holds what
  the chain of boundary contents `W0 … W4` says. Each kernel is entered from "every such buffer at the boundary's
  contents, the random-number register at some state, nothing owed" and left in the same form: its arrays are split
  out of the buffers on entry and put back at what its write-backs leave on exit. What the two bodies do at a point
  (their obligations) and how the second kernel's accumulator invariant is entered and left are taken as hypotheses
  here and supplied where the claims are assembled.
-/
import proofs.«181014_j88304527606015_2_alg».proof.Proof.KI.PointData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The boundary contents at the kernels' arrays and elsewhere -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem arrays_left0 (c : Dev nD) (w : Fin cfg0.W) : (dat0 (V1 m ρ) c).arrAt w cfg0.N = V2 m ρ c (Pipeline.arrRef spec0 w) :=
  (W2_arr m ρ c w).symm
theorem others_kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem arrays_left1 (c : Dev nD) (w : Fin cfg1.W) : (dat1 (V3 m ρ) c).arrAt w cfg1.N = V4 m ρ c (Pipeline.arrRef spec1 w) :=
  (W4_arr m ρ c w).symm
theorem others_kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The thread state between the pieces -/

abbrev 𝒱₀ : Variants := Variants.none
/-- No core waits on another: no level is assigned. -/
abbrev L : GSem nD τ sig → Finset Unit := fun _ => ∅
abbrev lv : GSem nD τ sig → Unit → ℕ := fun _ _ => 0
/-- What rides beside the buffers: the random-number register at some state, and nothing owed. -/
abbrev Beside (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host lines as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Last (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The dequantizing kernel between `W1` and `W2`. -/
def kernelSeg0 (hb0 : ∀ c, BodyObligation (dat0 (F := F) (V1 m ρ) c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays_left0 m ρ c) (others_kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating product kernel between `W3` and `W4`: what the launch hands a kernel (its own buffers at
    anything, the register) is the accumulator invariant before the first point (`hin1`), and after the last point
    the invariant gives that back (`hout1`). -/
def kernelSeg1 (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ Beside c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays_left1 m ρ c) (others_kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four pieces, and the launch -/

section Launch

abbrev pieces (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) : List (Pipeline.Seg (pcfgs (F := F)) adm (pdats m ρ) () defs₀ 𝒱₀ L lv) :=
  [ .host (hostSeg hostOps0 hostOps0_sub hostOps0_fresh (W0 m ρ)),
    .region (kernelSeg0 m ρ hb0),
    .host (hostSeg hostOps1 hostOps1_sub hostOps1_fresh (W2 m ρ)),
    .region (kernelSeg1 m ρ hb1 hin1 hout1) ]

theorem main_pieces (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) (c : Dev nD) : main (F := F) c = Pipeline.Seg.run (pieces m ρ hb0 hb1 hin1 hout1) :=
  (main_chain c).trans (by chain_rfl)

set_option backward.isDefEq.respectTransparency.types false in
/-- Every weakly fair execution of the program terminates without a fault, and at the end every buffer that outlives the
    kernels holds `W4`'s contents. -/
theorem run_all (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) :
    θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (pieces m ρ hb0 hb1 hin1 hout1)
    (fun c Q => by rw [main_pieces m ρ hb0 hb1 hin1 hout1 c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := Last m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Launch

end Cert.KernelIdeal.Hand

end
-- ==== Proof.KI.Frame.lean ====
/-
  The end of the run read at the buffers the claims speak of: no host line and no kernel writes an argument, so each
  ends as launched; the result buffer ends at what the second kernel's write-backs leave.
-/
import proofs.«181014_j88304527606015_2_alg».proof.Proof.KI.Run
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-! ## The arguments end as launched -/

theorem end_arg0 (c : Dev nD) : W4 m ρ c (Proc.devRef .tc main_arg0) = m ((c : Thread nD τ).loc main_arg0) := by
  rw [W4_of_ne m ρ c main_arg0 (by decide)]
  have e3 : W3 m ρ c (Proc.devRef .tc main_arg0) = W2 m ρ c (Proc.devRef .tc main_arg0) := by
    show StableHlo.after hostOps1 _ (Proc.devRef .tc main_arg0) = _
    after_results
    try rfl
  rw [e3]
  rw [W2_of_ne m ρ c main_arg0 (by decide)]
  show StableHlo.after hostOps0 _ (Proc.devRef .tc main_arg0) = _
  after_results
  try rfl

theorem end_arg1 (c : Dev nD) : W4 m ρ c (Proc.devRef .tc main_arg1) = m ((c : Thread nD τ).loc main_arg1) := by
  rw [W4_of_ne m ρ c main_arg1 (by decide)]
  have e3 : W3 m ρ c (Proc.devRef .tc main_arg1) = W2 m ρ c (Proc.devRef .tc main_arg1) := by
    show StableHlo.after hostOps1 _ (Proc.devRef .tc main_arg1) = _
    after_results
    try rfl
  rw [e3]
  rw [show W2 m ρ c (Proc.devRef .tc main_arg1) = (dat0 (V1 m ρ) c).arrAt 0 cfg0.N from W2_arr m ρ c 0,
    (dat0 (V1 m ρ) c).arrAt_in 0 rfl _, dat0_A]
  show StableHlo.after hostOps0 _ (Proc.devRef .tc main_arg1) = _
  after_results
  try rfl

theorem end_arg2 (c : Dev nD) : W4 m ρ c (Proc.devRef .tc main_arg2) = m ((c : Thread nD τ).loc main_arg2) := by
  rw [W4_of_ne m ρ c main_arg2 (by decide)]
  have e3 : W3 m ρ c (Proc.devRef .tc main_arg2) = W2 m ρ c (Proc.devRef .tc main_arg2) := by
    show StableHlo.after hostOps1 _ (Proc.devRef .tc main_arg2) = _
    after_results
    try rfl
  rw [e3]
  rw [W2_of_ne m ρ c main_arg2 (by decide)]
  show StableHlo.after hostOps0 _ (Proc.devRef .tc main_arg2) = _
  after_results
  try rfl

theorem end_arg3 (c : Dev nD) : W4 m ρ c (Proc.devRef .tc main_arg3) = m ((c : Thread nD τ).loc main_arg3) := by
  rw [W4_of_ne m ρ c main_arg3 (by decide)]
  have e3 : W3 m ρ c (Proc.devRef .tc main_arg3) = W2 m ρ c (Proc.devRef .tc main_arg3) := by
    show StableHlo.after hostOps1 _ (Proc.devRef .tc main_arg3) = _
    after_results
    try rfl
  rw [e3]
  rw [W2_of_ne m ρ c main_arg3 (by decide)]
  show StableHlo.after hostOps0 _ (Proc.devRef .tc main_arg3) = _
  after_results
  try rfl

theorem end_arg4 (c : Dev nD) : W4 m ρ c (Proc.devRef .tc main_arg4) = m ((c : Thread nD τ).loc main_arg4) := by
  rw [W4_of_ne m ρ c main_arg4 (by decide)]
  have e3 : W3 m ρ c (Proc.devRef .tc main_arg4) = W2 m ρ c (Proc.devRef .tc main_arg4) := by
    show StableHlo.after hostOps1 _ (Proc.devRef .tc main_arg4) = _
    after_results
    try rfl
  rw [e3]
  rw [W2_of_ne m ρ c main_arg4 (by decide)]
  show StableHlo.after hostOps0 _ (Proc.devRef .tc main_arg4) = _
  after_results
  try rfl

/-- The result buffer ends at what the second kernel's write-backs of its output tiles leave. -/
theorem end_result (c : Dev nD) : W4 m ρ c (Proc.devRef .tc main_v12) = (dat1 (V3 m ρ) c).arrAt 4 cfg1.N :=
  W4_arr m ρ c 4

/-! ## The two posts the claims need -/

/-- The program runs to the end, faults nowhere, and leaves its five arguments as launched. -/
theorem frame_run (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (end_arg0 m ρ c),
     (h c _ (mem_uc main_arg1 (by decide))).trans (end_arg1 m ρ c),
     (h c _ (mem_uc main_arg2 (by decide))).trans (end_arg2 m ρ c),
     (h c _ (mem_uc main_arg3 (by decide))).trans (end_arg3 m ρ c),
     (h c _ (mem_uc main_arg4 (by decide))).trans (end_arg4 m ρ c)⟩)
    (run_all m ρ hb0 hb1 hin1 hout1)

/-- The same run with the result named. -/
theorem result_run (hb0 : ∀ c, BodyObligation (dat0 (F := F) (V1 m ρ) c) (defs₀ (F := F)) Variants.none () Set.univ)
    (hb1 : ∀ c, BodyObligation (dat1 (F := F) (V3 m ρ) c) (defs₀ (F := F)) Variants.none () Set.univ)
    (hin1 : ∀ c, Pipeline.ΦA spec1 c ⊢ (dat1 (F := F) (V3 m ρ) c).Φ 0)
    (hout1 : ∀ c, (dat1 (F := F) (V3 m ρ) c).Φ (Fin.last cfg1.N) ⊢ Pipeline.ΦA spec1 c) :
    θ_run defs (onTc (τ := τ) (main (F := F))) ⟨m, fun _ => 0, ρ⟩ (fun r => ∀ c : Dev nD,
      r.2.mem ((c.tc : Thread nD τ).loc main_v12) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v12 (by decide))).trans (end_result m ρ c),
     (h c _ (mem_uc main_arg0 (by decide))).trans (end_arg0 m ρ c),
     (h c _ (mem_uc main_arg1 (by decide))).trans (end_arg1 m ρ c),
     (h c _ (mem_uc main_arg2 (by decide))).trans (end_arg2 m ρ c),
     (h c _ (mem_uc main_arg3 (by decide))).trans (end_arg3 m ρ c),
     (h c _ (mem_uc main_arg4 (by decide))).trans (end_arg4 m ρ c)⟩)
    (run_all m ρ hb0 hb1 hin1 hout1)

end Cert.KernelIdeal.Hand

end
-- ==== Proof.KI.DequantBody.lean ====
/-
  The dequantizing kernel at one grid point.

  At every point of its 4 × 4 grid the kernel finds, in the buffers the pipeline stages for it, the tile of packed
  words and the two 16 × 1024 tiles of transposed scales and zero points that belong to that point. It reads each of
  the three once, whole; it also reads the two output buffers (the values are not used) and then overwrites each of
  them, whole, with one store: the low-nibble tile and the high-nibble tile, both pure functions of the three tiles
  read. Nothing is carried from one point to the next. This module proves exactly that, in the form the launch
  theorem asks of a kernel body: started with the three input tiles in place and the output buffers at anything, the
  body ends with the inputs untouched and the outputs at `loTile` / `hiTile` of the inputs.
-/
import proofs.«181014_j88304527606015_2_alg».proof.Proof.KI.PointData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-! ## What the body finds in the input buffers -/

/-- The staged buffer of the packed words holds the point's tile of the packed array, whether or not the pipeline
    fetched it at this very point: the body never writes it, and a point at which nothing is fetched has the same
    tile index as the point before. -/
theorem found0_0 (c : Dev nD) (t : Fin cfg0.N) (d) : (dat0 V c).before 0 t d = tile0 V c 0 t := by
  refine ((dat0 V c).before_in_eq_fetched 0 rfl (fun _ => rfl) (fun _ _ _ => rfl) (fun t => ?_) t d).trans ?_
  · rw [dat0_after_0]; unfold Dat.blockOf tile0; rw [dat0_A]; try rfl
  · unfold Dat.fetched Dat.blockOf tile0; rw [dat0_A]; try rfl

/-- The same for the transposed scales. -/
theorem found0_1 (c : Dev nD) (t : Fin cfg0.N) (d) : (dat0 V c).before 1 t d = tile0 V c 1 t := by
  refine ((dat0 V c).before_in_eq_fetched 1 rfl (fun _ => rfl) (fun _ _ _ => rfl) (fun t => ?_) t d).trans ?_
  · rw [dat0_after_1]; unfold Dat.blockOf tile0; rw [dat0_A]; try rfl
  · unfold Dat.fetched Dat.blockOf tile0; rw [dat0_A]; try rfl

/-- The same for the transposed zero points. -/
theorem found0_2 (c : Dev nD) (t : Fin cfg0.N) (d) : (dat0 V c).before 2 t d = tile0 V c 2 t := by
  refine ((dat0 V c).before_in_eq_fetched 2 rfl (fun _ => rfl) (fun _ _ _ => rfl) (fun t => ?_) t d).trans ?_
  · rw [dat0_after_2]; unfold Dat.blockOf tile0; rw [dat0_A]; try rfl
  · unfold Dat.fetched Dat.blockOf tile0; rw [dat0_A]; try rfl

/-! ## One store fills an output buffer -/

/-- The single store into an output buffer goes through the rectangle of the whole tile, so every index of the tile
    lies in it. -/
theorem whole_store_covers (p : Vec F S1024x512 .bf16) (y : S1024x512.Idx) :
    ∃ pc ∈ ([⟨rectQ, p⟩] : List (View.Piece (Elt F) S1024x512 .bf16)), y ∈ pc.1.set :=
  View.cover_of_tiled [⟨rectQ, p⟩] S1024x512.size (by rfl) y

/-! ## The body on any five whole buffers -/

set_option maxHeartbeats 1000000 in
/-- Run on five whole buffers, the three inputs reading `q`, `s`, `z` and the two outputs holding anything, the body
    reaches its continuation with the inputs as they were and the outputs reading `loTile q s z` and `hiTile q s z`.
    The two loads of the output buffers read whatever is there and their values go nowhere; each store then replaces
    the whole buffer, so what it held before does not matter. -/
theorem dequant_body_spec (c : Dev nD) (E : Set ℕ) (i : grid0.Coords)
    (a2 : Memref sig .tc .vmem S1024x512 .i32) (h2 : a2.IsWhole)
    (a3 : Memref sig .tc .vmem S16x1024 .f32) (h3 : a3.IsWhole)
    (a4 : Memref sig .tc .vmem S16x1024 .f32) (h4 : a4.IsWhole)
    (a5 : Memref sig .tc .vmem S1024x512 .bf16) (h5 : a5.IsWhole)
    (a6 : Memref sig .tc .vmem S1024x512 .bf16) (h6 : a6.IsWhole)
    (q : Vec F S1024x512 .i32) (s z : Vec F S16x1024 .f32) (K : PUnit → sProp 𝕄) :
    iprop(owns (c : Thread nD τ) a2 fullShare q ∗ owns (c : Thread nD τ) a3 fullShare s ∗ owns (c : Thread nD τ) a4 fullShare z
        ∗ (∃ d, owns (c : Thread nD τ) a5 fullShare d) ∗ (∃ d, owns (c : Thread nD τ) a6 fullShare d)
        ∗ (iprop(owns (c : Thread nD τ) a2 fullShare q ∗ owns (c : Thread nD τ) a3 fullShare s ∗ owns (c : Thread nD τ) a4 fullShare z
            ∗ owns (c : Thread nD τ) a5 fullShare (loTile q s z) ∗ owns (c : Thread nD τ) a6 fullShare (hiTile q s z)) -∗ K ⟨⟩))
      ⊢ wp frame (wpE (defs₀ (F := F)) Variants.none c none) E (cc0__dequant_kernel i a2 h2 a3 h3 a4 h4 a5 h5 a6 h6) K := by
  simp only [cc0__dequant_kernel_eq_skeleton]; unfold cc0__dequant_kernel_skel
  unfold owns
  iintro ⟨⟨%fq, %hq, Hq⟩, ⟨%fs, %hs, Hs⟩, ⟨%fz, %hz, Hz⟩, ⟨%dl, %fl, -, Hl⟩, ⟨%dh, %fh, -, Hh⟩, Hk⟩
  subst hq hs hz
  sl_exec
  sl_step
  iapply Hk
  isplitl [Hq]
  · iexists fq; isplitr; · ipureintro; rfl
    iexact Hq
  isplitl [Hs]
  · iexists fs; isplitr; · ipureintro; rfl
    iexact Hs
  isplitl [Hz]
  · iexists fz; isplitr; · ipureintro; rfl
    iexact Hz
  isplitl [Hl]
  · iexists _; isplitr
    swap; · iexact Hl
    ipureintro
    exact View.read_writes_eq_canon _ _ _ (whole_store_covers _)
  iexists _; isplitr
  swap; · iexact Hh
  ipureintro
  exact View.read_writes_eq_canon _ _ _ (whole_store_covers _)

/-! ## The body as the pipeline calls it -/

/-- What the pipeline hands the body at point `t`: what the kernel keeps between points, what the core owes, and the
    five staged buffers at what they hold before the body. -/
def dequantPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it must hand back: the same two, and the five staged buffers at what the point leaves in them. -/
def dequantPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the three input buffers hold the point's tiles, so the body's specification applies to them; what the
    kernel keeps between points and what the core owes are the same before and after and pass by untouched. -/
theorem dequant_at_point (c : Dev nD) (t : Fin cfg0.N) :
    dequantPre V c t ⊢ wp frame (wpE (defs₀ (F := F)) Variants.none c none) Set.univ (bodyAt0 t) (fun _ => dequantPost V c t) := by
  unfold dequantPre dequantPost bodyAt0
  simp only [found0_0, found0_1, found0_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4]
  iintro ⟨HΦ, Ho, ⟨%d0, H0⟩, ⟨%d1, H1⟩, ⟨%d2, H2⟩, ⟨%d3, H3⟩, ⟨%d4, H4⟩⟩
  iapply (dequant_body_spec c Set.univ _ _ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Body

/-- The obligation the launch theorem puts on the dequantizing kernel's body, at every point of the grid. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact dequant_at_point V c t

end Cert.KernelIdeal.Hand

end
-- ==== Proof.KI.AccumShared.lean ====
/-
  What the runs of the accumulating product kernel's body and its obligation share.

  The body branches twice on the coordinate along the contracted axis: it clears the accumulator where that coordinate
  is zero, and copies the accumulator into the output tile where it is three. Along the grid's row-major order the
  coordinate is the position modulo four, so the two tests read "position ≡ 0" and "position ≡ 3 (mod 4)", and the
  points fall into three kinds: clearing (≡ 0), plain (≡ 1, 2) and copying (≡ 3). The output tile is stored, and
  written back to its array, exactly at the copying points; elsewhere the body leaves its buffer as it found it.
-/
import proofs.«181014_j88304527606015_2_alg».proof.Proof.KI.PointData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two tests, as functions of the grid point -/

/-- The body clears the accumulator where this holds: the comparison of the last coordinate with zero, widened to a
    word and compared with zero again, as the body computes it. -/
abbrev clearsAt (i : grid1.Coords) : Prop :=
  (Scalar.cmpi .ne (Scalar.extui (Scalar.cmpi .eq (BitVec.ofNat 32 (i 2).val) 0#32)) 0#32) = 1#1

/-- Along the grid it holds at the positions divisible by four: the last coordinate is the position modulo four. -/
theorem clearsAt_iff : ∀ t : Fin cfg1.N, clearsAt (grid1.coords t) ↔ t.val % 4 = 0 :=
  (by decide +kernel : ∀ t : Fin grid1.N, clearsAt (grid1.coords t) ↔ t.val % 4 = 0)

/-- The body copies the accumulator out where this holds: the same chain against three. -/
abbrev copiesAt (i : grid1.Coords) : Prop := k1_cond2 i = 1#1

/-- Along the grid it holds at the positions that leave three modulo four: the last block of the contracted axis. -/
theorem copiesAt_iff : ∀ t : Fin cfg1.N, copiesAt (grid1.coords t) ↔ t.val % 4 = 3 :=
  (by decide +kernel : ∀ t : Fin grid1.N, copiesAt (grid1.coords t) ↔ t.val % 4 = 3)

/-! ## Where the output tile is stored -/

/-- Away from the copying points the output window is idle: the body stores nothing into its buffer there, -/
theorem outIdle : ∀ t : Fin cfg1.N, ¬t.val % 4 = 3 → cfg1.idle 4 (grid1.coords t) = true :=
  (by decide +kernel : ∀ t : Fin grid1.N, ¬t.val % 4 = 3 → cfg1.idle 4 (grid1.coords t) = true)

/-- and the tile is not written back there (the output's block index moves only when the last axis wraps). -/
theorem outKept (t : Fin cfg1.N) (h : ¬t.val % 4 = 3) : (cfg1.win 4).flush t = false := by
  cases hf : (cfg1.win 4).flush t with
  | false => rfl
  | true => exact absurd ((flush1_4 t).mp hf) h

/-- At the copying points the window is live. -/
theorem outLive : ∀ t : Fin cfg1.N, t.val % 4 = 3 → cfg1.idle 4 (grid1.coords t) = false :=
  (by decide +kernel : ∀ t : Fin grid1.N, t.val % 4 = 3 → cfg1.idle 4 (grid1.coords t) = false)

/-! ## The buffers the body is called on -/

/-- Each window's current buffer at point `t`, and that it is a whole buffer. -/
abbrev buf0 (t : Fin cfg1.N) : Memref sig .tc .vmem S1024x512 .bf16 := win1_0.stage (cfg1.slots t 0)
abbrev whole0 (t : Fin cfg1.N) : (buf0 t).IsWhole := hstage1_0 ((cfg1.slots t 0).cast nbuf1_0)
abbrev buf1 (t : Fin cfg1.N) : Memref sig .tc .vmem S1024x512 .bf16 := win1_1.stage (cfg1.slots t 1)
abbrev whole1 (t : Fin cfg1.N) : (buf1 t).IsWhole := hstage1_1 ((cfg1.slots t 1).cast nbuf1_1)
abbrev buf2 (t : Fin cfg1.N) : Memref sig .tc .vmem S1024x512 .bf16 := win1_2.stage (cfg1.slots t 2)
abbrev whole2 (t : Fin cfg1.N) : (buf2 t).IsWhole := hstage1_2 ((cfg1.slots t 2).cast nbuf1_2)
abbrev buf3 (t : Fin cfg1.N) : Memref sig .tc .vmem S1024x512 .bf16 := win1_3.stage (cfg1.slots t 3)
abbrev whole3 (t : Fin cfg1.N) : (buf3 t).IsWhole := hstage1_3 ((cfg1.slots t 3).cast nbuf1_3)
abbrev buf4 (t : Fin cfg1.N) : Memref sig .tc .vmem S1024x1024 .f32 := win1_4.stage (cfg1.slots t 4)
abbrev whole4 (t : Fin cfg1.N) : (buf4 t).IsWhole := hstage1_4 ((cfg1.slots t 4).cast nbuf1_4)

/-- The whole 1024 × 1024 tile as a rectangle at the origin: the one rectangle every load and store of the accumulator
    and of the output tile goes through. -/
abbrev rectA : Rect S1024x1024 := Rect.unit (s := S1024x1024) ![0, 0] S1024x1024.size inb_S1024x1024_S1024x1024_0_0

theorem origin2 : (![0, 0] : Fin 2 → Nat) = fun _ => 0 := by
  funext a; match a with | ⟨0, _⟩ => rfl | ⟨1, _⟩ => rfl

/-! ## The input windows' buffers hold their tiles -/

/-- An input window's current buffer holds the tile of its array at the point, whether or not it was fetched there:
    where it was not, the tile's index did not move and the body left the buffer alone. -/
theorem before1_0 (V : (c : Dev nD) → (b : Ref sig .tc) → Buf (Elt F) ((c : Thread nD τ).loc b)) (c : Dev nD) (t : Fin cfg1.N) (d) :
    (dat1 V c).before 0 t d = tile1 V c 0 t :=
  ((dat1 V c).before_in_eq_fetched 0 rfl (fun _ => rfl) (fun _ _ _ => rfl)
    (fun t => by rw [dat1_after_0]; unfold Dat.blockOf tile1; rw [dat1_A]; try rfl) t d).trans
    (by unfold Dat.fetched Dat.blockOf tile1; rw [dat1_A]; try rfl)
theorem before1_1 (V : (c : Dev nD) → (b : Ref sig .tc) → Buf (Elt F) ((c : Thread nD τ).loc b)) (c : Dev nD) (t : Fin cfg1.N) (d) :
    (dat1 V c).before 1 t d = tile1 V c 1 t :=
  ((dat1 V c).before_in_eq_fetched 1 rfl (fun _ => rfl) (fun _ _ _ => rfl)
    (fun t => by rw [dat1_after_1]; unfold Dat.blockOf tile1; rw [dat1_A]; try rfl) t d).trans
    (by unfold Dat.fetched Dat.blockOf tile1; rw [dat1_A]; try rfl)
theorem before1_2 (V : (c : Dev nD) → (b : Ref sig .tc) → Buf (Elt F) ((c : Thread nD τ).loc b)) (c : Dev nD) (t : Fin cfg1.N) (d) :
    (dat1 V c).before 2 t d = tile1 V c 2 t :=
  ((dat1 V c).before_in_eq_fetched 2 rfl (fun _ => rfl) (fun _ _ _ => rfl)
    (fun t => by rw [dat1_after_2]; unfold Dat.blockOf tile1; rw [dat1_A]; try rfl) t d).trans
    (by unfold Dat.fetched Dat.blockOf tile1; rw [dat1_A]; try rfl)
theorem before1_3 (V : (c : Dev nD) → (b : Ref sig .tc) → Buf (Elt F) ((c : Thread nD τ).loc b)) (c : Dev nD) (t : Fin cfg1.N) (d) :
    (dat1 V c).before 3 t d = tile1 V c 3 t :=
  ((dat1 V c).before_in_eq_fetched 3 rfl (fun _ => rfl) (fun _ _ _ => rfl)
    (fun t => by rw [dat1_after_3]; unfold Dat.blockOf tile1; rw [dat1_A]; try rfl) t d).trans
    (by unfold Dat.fetched Dat.blockOf tile1; rw [dat1_A]; try rfl)

end Cert.KernelIdeal.Hand

end
-- ==== Proof.KI.AccumRunClear.lean ====
/-
  The body of the accumulating product kernel at a clearing point, run from start to end.

  At such a point the first test holds and the second does not: the body stores zeros over the whole accumulator, loads
  the four input tiles, reads the accumulator back and stores it with the first product added, reads it back again and
  stores it with the second product added, and leaves the output tile's buffer alone. Whatever the accumulator held on
  entry is overwritten before it is read, so it may be entered at any contents. The run is stated on arbitrary whole
  buffers: the inputs at given contents, returned as found; the output tile's buffer at given contents, returned as
  found; the accumulator returned with the body's three stores written into it. Those stores, as a list of rectangles
  with their values (the last store first), are found by running the body symbolically; they are the witness.
-/
import proofs.«181014_j88304527606015_2_alg».proof.Proof.KI.AccumShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a clearing point makes into the accumulator, with the proof that the body, started on whole buffers (the
    inputs at `xe xo lo hi`, the output tile's buffer at `keep`, the accumulator at anything), runs to any continuation
    that accepts the inputs and the output tile's buffer unchanged and the accumulator with those stores written. -/
noncomputable def bodyRunClear (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : clearsAt i) (hc1 : ¬copiesAt i) (xe xo lo hi : Vec F S1024x512 .bf16) :
    { LS : List (View.Piece (Elt F) S1024x1024 .f32) //
      ∀ (keep : Vec F S1024x1024 .f32) (E : Set ℕ) (K : PUnit → sProp 𝕄),
        iprop(owns (c : Thread nD τ) arg3 fullShare xe ∗ owns (c : Thread nD τ) arg4 fullShare xo ∗ owns (c : Thread nD τ) arg5 fullShare lo ∗ owns (c : Thread nD τ) arg6 fullShare hi
            ∗ owns (c : Thread nD τ) arg7 fullShare keep ∗ (∃ d, owns (c : Thread nD τ) arg8 fullShare d)
            ∗ (iprop(owns (c : Thread nD τ) arg3 fullShare xe ∗ owns (c : Thread nD τ) arg4 fullShare xo ∗ owns (c : Thread nD τ) arg5 fullShare lo ∗ owns (c : Thread nD τ) arg6 fullShare hi
                ∗ owns (c : Thread nD τ) arg7 fullShare keep
                ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun keep E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KI.AccumRunPlain.lean ====
/-
  The body of the accumulating product kernel at a plain point, run from start to end.

  Neither test holds: the body loads the four input tiles, reads the accumulator and stores it with the first product
  added, reads it back and stores it with the second product added, and touches nothing else. The accumulator is entered
  at the contents `acc` the point before left, and its two stores (the last first) are the witness the run finds.
-/
import proofs.«181014_j88304527606015_2_alg».proof.Proof.KI.AccumRunClear

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a plain point makes into the accumulator, with the proof that the body, started on whole buffers (the inputs
    at `xe xo lo hi`, the output tile's buffer at `keep`, the accumulator at `acc`), runs to any continuation that accepts
    the inputs and the output tile's buffer unchanged and the accumulator with those stores written. -/
noncomputable def bodyRunPlain (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : ¬copiesAt i) (xe xo lo hi : Vec F S1024x512 .bf16) (acc : Vec F S1024x1024 .f32) :
    { LS : List (View.Piece (Elt F) S1024x1024 .f32) //
      ∀ (keep : Vec F S1024x1024 .f32) (E : Set ℕ) (K : PUnit → sProp 𝕄),
        iprop(owns (c : Thread nD τ) arg3 fullShare xe ∗ owns (c : Thread nD τ) arg4 fullShare xo ∗ owns (c : Thread nD τ) arg5 fullShare lo ∗ owns (c : Thread nD τ) arg6 fullShare hi
            ∗ owns (c : Thread nD τ) arg7 fullShare keep ∗ owns (c : Thread nD τ) arg8 fullShare acc
            ∗ (iprop(owns (c : Thread nD τ) arg3 fullShare xe ∗ owns (c : Thread nD τ) arg4 fullShare xo ∗ owns (c : Thread nD τ) arg5 fullShare lo ∗ owns (c : Thread nD τ) arg6 fullShare hi
                ∗ owns (c : Thread nD τ) arg7 fullShare keep
                ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun keep E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KI.AccumRunCopy.lean ====
/-
  The body of the accumulating product kernel at a copying point, run from start to end.

  The first test fails and the second holds: the body loads the four input tiles, reads the accumulator and stores it
  with the first product added, reads it back and stores it with the second product added, then reads it once more and
  stores what it read over the whole output tile. The accumulator is entered at the contents `acc` the point before
  left; the output tile's buffer is entered at anything, since the body overwrites all of it. The run finds two lists of
  stores (the last first): the output tile's one and the accumulator's two.
-/
import proofs.«181014_j88304527606015_2_alg».proof.Proof.KI.AccumRunPlain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a copying point makes into the output tile's buffer and into the accumulator, with the proof that the body,
    started on whole buffers (the inputs at `xe xo lo hi`, the output tile's buffer at anything, the accumulator at
    `acc`), runs to any continuation that accepts the inputs unchanged and the two buffers with those stores written. -/
noncomputable def bodyRunCopy (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare xe ∗ owns (c : Thread nD τ) arg4 fullShare xo ∗ owns (c : Thread nD τ) arg5 fullShare lo ∗ owns (c : Thread nD τ) arg6 fullShare hi
            ∗ (∃ d, owns (c : Thread nD τ) arg7 fullShare d) ∗ owns (c : Thread nD τ) arg8 fullShare acc
            ∗ (iprop(owns (c : Thread nD τ) arg3 fullShare xe ∗ owns (c : Thread nD τ) arg4 fullShare xo ∗ owns (c : Thread nD τ) arg5 fullShare lo ∗ owns (c : Thread nD τ) arg6 fullShare hi
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.KI.AccumLeaves.lean ====
/-
  What the body's stores leave behind, read back as one term.

  Every store the body makes into the accumulator, and its one store into the output tile, covers the whole tile. So
  whatever a list of such stores is written over, the buffer afterwards reads as the value of the last store, and a load
  of the whole tile made between two stores reads the value of the store before it. Read this way, the accumulator after
  a point is the accumulator before it (zeros, at a clearing point) plus the product of the even-column tile with the
  low tile, plus the product of the odd-column tile with the high tile; and the output tile at a copying point is that
  same term. The stores' rectangles tile the shape, which is all the cover asks.
-/
import proofs.«181014_j88304527606015_2_alg».proof.Proof.KI.AccumRunCopy
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## A whole-shape load after stores the last of which covers the shape -/

/-- After a list of stores whose last goes through the whole-shape rectangle at the origin, a load through that rectangle
    reads the last store's value, whatever the earlier stores were. -/
theorem readCov_cons_whole {Val : EltTy → Type} [∀ e, Nonempty (Val e)] {sig' : RefSig} {κ : Kind} {sp : Space} {S : Shape} {e : EltTy}
    (v : View sig' κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-! ## A clearing point -/

/-- The three stores of a clearing point tile the accumulator. -/
theorem clearCovers (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : clearsAt i) (hc1 : ¬copiesAt i) (xe xo lo hi : Vec F S1024x512 .bf16) (y : S1024x1024.Idx) :
    ∃ pc ∈ (bodyRunClear c i arg3 harg3 arg4 harg4 arg5 harg5 arg6 harg6 arg7 harg7 arg8 harg8 hc0 hc1 xe xo lo hi).1, y ∈ pc.1.set :=
  View.cover_of_tiledL (bodyRunClear c i arg3 harg3 arg4 harg4 arg5 harg5 arg6 harg6 arg7 harg7 arg8 harg8 hc0 hc1 xe xo lo hi).1 S1024x1024.size (by sl_kernel_rfl) y

/-- They leave the two products added to zeros. -/
theorem clearLeaves (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : clearsAt i) (hc1 : ¬copiesAt i) (xe xo lo hi : Vec F S1024x512 .bf16) :
    View.canon (bodyRunClear c i arg3 harg3 arg4 harg4 arg5 harg5 arg6 harg6 arg7 harg7 arg8 harg8 hc0 hc1 xe xo lo hi).1 = accStep xe xo lo hi k1_pay1 := by
  unfold bodyRunClear; dsimp only; sl_unfold_words
  rw [View.canon_cons_unit_zero origin2, readCov_cons_whole _ origin2, View.readCov_unit_zero _ origin2]
  simp only [View.readAt_eq_ld, harg3.read_unread, harg4.read_unread, harg5.read_unread, harg6.read_unread,
    View.ld_unit_zero (S := S1024x512) origin2]
  rfl

/-! ## A plain point -/

/-- The two stores of a plain point tile the accumulator. -/
theorem plainCovers (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : ¬copiesAt i) (xe xo lo hi : Vec F S1024x512 .bf16) (acc : Vec F S1024x1024 .f32) (y : S1024x1024.Idx) :
    ∃ pc ∈ (bodyRunPlain c i arg3 harg3 arg4 harg4 arg5 harg5 arg6 harg6 arg7 harg7 arg8 harg8 hc0 hc1 xe xo lo hi acc).1, y ∈ pc.1.set :=
  View.cover_of_tiledL (bodyRunPlain c i arg3 harg3 arg4 harg4 arg5 harg5 arg6 harg6 arg7 harg7 arg8 harg8 hc0 hc1 xe xo lo hi acc).1 S1024x1024.size (by sl_kernel_rfl) y

/-- They leave the two products added to what the accumulator held. -/
theorem plainLeaves (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : ¬copiesAt i) (xe xo lo hi : Vec F S1024x512 .bf16) (acc : Vec F S1024x1024 .f32) :
    View.canon (bodyRunPlain c i arg3 harg3 arg4 harg4 arg5 harg5 arg6 harg6 arg7 harg7 arg8 harg8 hc0 hc1 xe xo lo hi acc).1 = accStep xe xo lo hi acc := by
  unfold bodyRunPlain; dsimp only; sl_unfold_words
  rw [View.canon_cons_unit_zero origin2, View.readCov_unit_zero _ origin2]
  simp only [View.readAt_eq_ld, harg3.read_unread, harg4.read_unread, harg5.read_unread, harg6.read_unread, harg8.read_unread,
    View.ld_unit_zero (S := S1024x512) origin2, View.ld_unit_zero (S := S1024x1024) origin2]
  rfl

/-! ## A copying point -/

/-- The two stores of a copying point tile the accumulator, -/
theorem copyCovers (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) (y : S1024x1024.Idx) :
    ∃ pc ∈ (bodyRunCopy c i arg3 harg3 arg4 harg4 arg5 harg5 arg6 harg6 arg7 harg7 arg8 harg8 hc0 hc1 xe xo lo hi acc).2.1, y ∈ pc.1.set :=
  View.cover_of_tiledL (bodyRunCopy c i arg3 harg3 arg4 harg4 arg5 harg5 arg6 harg6 arg7 harg7 arg8 harg8 hc0 hc1 xe xo lo hi acc).2.1 S1024x1024.size (by sl_kernel_rfl) y

/-- and leave the two products added to what it held; -/
theorem copyLeaves (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) :
    View.canon (bodyRunCopy c i arg3 harg3 arg4 harg4 arg5 harg5 arg6 harg6 arg7 harg7 arg8 harg8 hc0 hc1 xe xo lo hi acc).2.1 = accStep xe xo lo hi acc := by
  unfold bodyRunCopy; dsimp only; sl_unfold_words
  rw [View.canon_cons_unit_zero origin2, View.readCov_unit_zero _ origin2]
  simp only [View.readAt_eq_ld, harg3.read_unread, harg4.read_unread, harg5.read_unread, harg6.read_unread, harg8.read_unread,
    View.ld_unit_zero (S := S1024x512) origin2, View.ld_unit_zero (S := S1024x1024) origin2]
  rfl

/-- its one store into the output tile covers the tile, -/
theorem copyOutCovers (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) (y : S1024x1024.Idx) :
    ∃ pc ∈ (bodyRunCopy c i arg3 harg3 arg4 harg4 arg5 harg5 arg6 harg6 arg7 harg7 arg8 harg8 hc0 hc1 xe xo lo hi acc).1, y ∈ pc.1.set :=
  View.cover_of_tiledL (bodyRunCopy c i arg3 harg3 arg4 harg4 arg5 harg5 arg6 harg6 arg7 harg7 arg8 harg8 hc0 hc1 xe xo lo hi acc).1 S1024x1024.size (by sl_kernel_rfl) y

/-- and what it stores there is the accumulator it has just completed. -/
theorem copyOutLeaves (c : Dev nD) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x1024 .f32) (harg7 : arg7.IsWhole) (arg8 : Memref sig .tc .vmem S1024x1024 .f32) (harg8 : arg8.IsWhole)
    (hc0 : ¬clearsAt i) (hc1 : copiesAt i) (xe xo lo hi : Vec F S1024x512 .bf16) (acc : Vec F S1024x1024 .f32) :
    View.canon (bodyRunCopy c i arg3 harg3 arg4 harg4 arg5 harg5 arg6 harg6 arg7 harg7 arg8 harg8 hc0 hc1 xe xo lo hi acc).1 = accStep xe xo lo hi acc := by
  unfold bodyRunCopy; dsimp only; sl_unfold_words
  rw [View.canon_unit_zero origin2, readCov_cons_whole _ origin2, View.readCov_unit_zero _ origin2]
  simp only [View.readAt_eq_ld, harg3.read_unread, harg4.read_unread, harg5.read_unread, harg6.read_unread, harg8.read_unread,
    View.ld_unit_zero (S := S1024x512) origin2, View.ld_unit_zero (S := S1024x1024) origin2]
  rfl

end Cert.KernelIdeal.Hand

end
-- ==== Proof.KI.AccumBody.lean ====
/-
  The body obligation of the accumulating product kernel, and what the kernel holds on entry and on exit.

  At every grid point the body is handed the four input tiles in their buffers, the output tile's buffer, and — between
  points — the accumulator at what the point before left (at anything before the first point), beside the core's other
  buffers, which it never touches. The position modulo four says which of the three runs applies. At a clearing point the
  accumulator comes back at the two products over zeros; at a plain or copying point at the two products over what it
  held; and at a copying point the output tile's buffer comes back at that same term, while elsewhere it comes back as
  found. These are the terms the per-point data name, so the obligation closes by the runs and the read-backs.
-/
import proofs.«181014_j88304527606015_2_alg».proof.Proof.KI.AccumLeaves

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The input windows are never idle -/

theorem inLive0 (t : Fin cfg1.N) : cfg1.idle 0 (grid1.coords t) = false := rfl
theorem inLive1 (t : Fin cfg1.N) : cfg1.idle 1 (grid1.coords t) = false := rfl
theorem inLive2 (t : Fin cfg1.N) : cfg1.idle 2 (grid1.coords t) = false := rfl
theorem inLive3 (t : Fin cfg1.N) : cfg1.idle 3 (grid1.coords t) = false := rfl

/-! ## The obligation at one point -/

/-- What the body is called with at point `t`: what the kernel holds between points, what the core owes, and each
    window's current buffer at what it then holds. -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (buf0 t) fullShare ((dat1 V c).before 0 t d))
    ∗ (∃ d, owns (c : Thread nD τ) (buf1 t) fullShare ((dat1 V c).before 1 t d))
    ∗ (∃ d, owns (c : Thread nD τ) (buf2 t) fullShare ((dat1 V c).before 2 t d))
    ∗ (∃ d, owns (c : Thread nD τ) (buf3 t) fullShare ((dat1 V c).before 3 t d))
    ∗ (∃ d, owns (c : Thread nD τ) (buf4 t) fullShare ((dat1 V c).before 4 t d)))

/-- What it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by the kind of the point. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiAcc V c (t.val + 1) t.isLt from rfl, PhiAcc_succ]
  have hN : t.val < 128 := lt_of_lt_of_eq t.isLt (show cfg1.N = 128 from N_1)
  rw [show (dat1 V c).leavesExact 0 t = owns (c : Thread nD τ) (buf0 t) fullShare ((dat1 V c).after 0 t) from by
    unfold Dat.leavesExact; rw [inLive0 t], dat1_after_0]
  rw [show (dat1 V c).leavesExact 1 t = owns (c : Thread nD τ) (buf1 t) fullShare ((dat1 V c).after 1 t) from by
    unfold Dat.leavesExact; rw [inLive1 t], dat1_after_1]
  rw [show (dat1 V c).leavesExact 2 t = owns (c : Thread nD τ) (buf2 t) fullShare ((dat1 V c).after 2 t) from by
    unfold Dat.leavesExact; rw [inLive2 t], dat1_after_2]
  rw [show (dat1 V c).leavesExact 3 t = owns (c : Thread nD τ) (buf3 t) fullShare ((dat1 V c).after 3 t) from by
    unfold Dat.leavesExact; rw [inLive3 t], dat1_after_3]
  by_cases h0 : t.val % 4 = 0
  · have h3 : ¬t.val % 4 = 3 := by omega
    -- a clearing point: the output tile's buffer is handed back as found; the accumulator starts from zeros
    rw [Dat.leavesExact_idle (dat1 V c) 4 t (outIdle t h3) (outKept t h3)]
    rw [accAt_reset V c t h0]
    by_cases hz : t.val = 0
    · rw [dat1_Phi_castSucc V c t, PhiAcc_zero V c _ _ hz, PhiA1_split]
      iintro ⟨⟨⟨HS, Hrest⟩, Hg⟩, Ho, ⟨%d0, H0⟩, ⟨%d1, H1⟩, ⟨%d2, H2⟩, ⟨%d3, H3⟩, ⟨%d4, H4⟩⟩
      iapply ((bodyRunClear c (grid1.coords t) (buf0 t) (whole0 t) (buf1 t) (whole1 t) (buf2 t) (whole2 t) (buf3 t) (whole3 t) (buf4 t) (whole4 t) accM (Memref.isWhole_whole _) ((clearsAt_iff t).mpr h0) (fun h => h3 ((copiesAt_iff t).mp h)) (tile1 V c 0 t) (tile1 V c 1 t) (tile1 V c 2 t) (tile1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro
            exact (View.read_writes_eq_canon _ _ _ (clearCovers c _ _ _ _ _ _ _ _ _ _ _ _ _ _ _ _ _ _ _)).trans (clearLeaves c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [dat1_Phi_castSucc V c t, PhiAcc_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((bodyRunClear c (grid1.coords t) (buf0 t) (whole0 t) (buf1 t) (whole1 t) (buf2 t) (whole2 t) (buf3 t) (whole3 t) (buf4 t) (whole4 t) accM (Memref.isWhole_whole _) ((clearsAt_iff t).mpr h0) (fun h => h3 ((copiesAt_iff t).mp h)) (tile1 V c 0 t) (tile1 V c 1 t) (tile1 V c 2 t) (tile1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro
            exact (View.read_writes_eq_canon _ _ _ (clearCovers c _ _ _ _ _ _ _ _ _ _ _ _ _ _ _ _ _ _ _)).trans (clearLeaves c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h3 : t.val % 4 = 3
    · -- a copying point: the accumulator goes on from what it held, and the output tile receives it
      rw [show (dat1 V c).leavesExact 4 t = owns (c : Thread nD τ) (buf4 t) fullShare ((dat1 V c).after 4 t) from by
        unfold Dat.leavesExact; rw [outLive t h3], dat1_after_4]
      rw [accAt_carry V c t h0]
      rw [dat1_Phi_castSucc V c t, PhiAcc_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((bodyRunCopy c (grid1.coords t) (buf0 t) (whole0 t) (buf1 t) (whole1 t) (buf2 t) (whole2 t) (buf3 t) (whole3 t) (buf4 t) (whole4 t) accM (Memref.isWhole_whole _) (fun h => h0 ((clearsAt_iff t).mp h)) ((copiesAt_iff t).mpr h3) (tile1 V c 0 t) (tile1 V c 1 t) (tile1 V c 2 t) (tile1 V c 3 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro
            exact (View.read_writes_eq_canon _ _ _ (copyCovers c _ _ _ _ _ _ _ _ _ _ _ _ _ _ _ _ _ _ _ _)).trans (copyLeaves c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (copyOutCovers c _ _ _ _ _ _ _ _ _ _ _ _ _ _ _ _ _ _ _ _)).trans (copyOutLeaves c _ _ _ _ _ _ _ _ _ _ _ _ _ _ _ _ _ _ _ _)
    · -- a plain point: the output tile's buffer is handed back as found; the accumulator goes on from what it held
      rw [Dat.leavesExact_idle (dat1 V c) 4 t (outIdle t h3) (outKept t h3)]
      rw [accAt_carry V c t h0]
      rw [dat1_Phi_castSucc V c t, PhiAcc_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((bodyRunPlain c (grid1.coords t) (buf0 t) (whole0 t) (buf1 t) (whole1 t) (buf2 t) (whole2 t) (buf3 t) (whole3 t) (buf4 t) (whole4 t) accM (Memref.isWhole_whole _) (fun h => h0 ((clearsAt_iff t).mp h)) (fun h => h3 ((copiesAt_iff t).mp h)) (tile1 V c 0 t) (tile1 V c 1 t) (tile1 V c 2 t) (tile1 V c 3 t) (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro
            exact (View.read_writes_eq_canon _ _ _ (plainCovers c _ _ _ _ _ _ _ _ _ _ _ _ _ _ _ _ _ _ _ _)).trans (plainLeaves c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-! ## The three facts the launch takes -/

/-- The body obligation of the kernel's per-point data, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

/-- What the launch hands the kernel is what it holds before the first point. -/
theorem acc_in (V : (c : Dev nD) → (b : Ref sig .tc) → Buf (Elt F) ((c : Thread nD τ).loc b)) (c : Dev nD) : Pipeline.ΦA spec1 c ⊢ (dat1 (F := F) V c).Φ 0 := by
  rw [show (dat1 V c).Φ 0 = PhiAcc V c 0 (Nat.zero_le _) from rfl, PhiAcc_zero V c 0 _ rfl]
  try exact Idealize.SL.BI.Entails.refl _

/-- After any point the kernel can hand everything back: the accumulator's named contents are forgotten. -/
theorem heldAfter (V : (c : Dev nD) → (b : Ref sig .tc) → Buf (Elt F) ((c : Thread nD τ).loc b)) (c : Dev nD) (t : Fin (cfg1.N + 1)) (ht : t.val ≠ 0) :
    (dat1 (F := F) V c).Φ t ⊢ Pipeline.ΦA spec1 c := by
  rw [show (dat1 V c).Φ t = PhiAcc V c t.val (Nat.le_of_lt_succ t.isLt) from rfl, PhiAcc_pos V c _ _ ht, PhiA1_split]
  iintro ⟨⟨HS, Hrest⟩, Hg⟩
  isplitl [HS Hrest]
  · isplitl [HS]
    · iexists _; iexact HS
    iexact Hrest
  iexact Hg

/-- In particular after the last. -/
theorem acc_out (V : (c : Dev nD) → (b : Ref sig .tc) → Buf (Elt F) ((c : Thread nD τ).loc b)) (c : Dev nD) : (dat1 (F := F) V c).Φ (Fin.last cfg1.N) ⊢ Pipeline.ΦA spec1 c :=
  heldAfter V c _ (by rw [Fin.val_last]; have : cfg1.N = 128 := N_1; omega)

end Cert.KernelIdeal.Hand

end
-- ==== Proof.HostValues.lean ====
/-
  What the host lines hand the two kernels, read at an entry, on the extended reals.

  Before the first kernel: the scales are multiplied by the row's second scale and transposed, the zero points are
  transposed; the packed words are passed as they are. Between the kernels: the activations (a change of float format is
  the identity here) are split into their even and their odd columns; the two dequantized arrays the first kernel left
  are passed on untouched.
-/
import proofs.«181014_j88304527606015_2_alg».proof.Proof.KI.Run
import Idealize.ShloMosaic.Lib.ValueIdx
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Hand Idealize.ShloMosaic.ValueIdx Idealize.ShloMosaic.StableHlo

variable (m : (ℓ : Loc nD τ sig) → Buf (Elt Ideal) ℓ) (ρ : Dev nD → PrngReg) (c : Dev nD)

/-! ## The arguments as launched, and the arrays the kernels are handed, as plain functions of an index -/

abbrev actsA : S8192x4096.Idx → EReal := m ((c.tc : Thread nD τ).loc main_arg0)
abbrev wordsA : S4096x2048.Idx → BitVec 32 := m ((c.tc : Thread nD τ).loc main_arg1)
abbrev scaleA : S4096x64.Idx → EReal := m ((c.tc : Thread nD τ).loc main_arg2)
abbrev zeroA : S4096x64.Idx → EReal := m ((c.tc : Thread nD τ).loc main_arg3)
abbrev scale2A : S4096.Idx → EReal := m ((c.tc : Thread nD τ).loc main_arg4)
/-- What the first kernel finds in its three input arrays. -/
abbrev wordsIn : S4096x2048.Idx → BitVec 32 := V1 (F := Ideal) m ρ c main_arg1
abbrev scaleTIn : S64x4096.Idx → EReal := V1 (F := Ideal) m ρ c main_v3
abbrev zeroTIn : S64x4096.Idx → EReal := V1 (F := Ideal) m ρ c main_v4
/-- What the second kernel finds in its four input arrays. -/
abbrev evenIn : S8192x2048.Idx → EReal := V3 (F := Ideal) m ρ c main_v9
abbrev oddIn : S8192x2048.Idx → EReal := V3 (F := Ideal) m ρ c main_v11
abbrev loIn : S4096x2048.Idx → EReal := V3 (F := Ideal) m ρ c main_v5_0
abbrev hiIn : S4096x2048.Idx → EReal := V3 (F := Ideal) m ρ c main_v5_1

/-! ## Before the first kernel -/

/-- The packed words reach the first kernel as launched. -/
theorem words_entry : wordsIn m ρ c = wordsA m c := by
  show StableHlo.after hostOps0 _ (Proc.devRef .tc main_arg1) = _
  after_results
  try rfl

/-- The transposed effective scale at (group g, row q) is scale(q, g) · scale2(q). -/
theorem scaleT_entry (g : Fin 64) (q : Fin 4096) :
    scaleTIn m ρ c (ix2 g q) = scaleA m c (ix2 q g) * scale2A m c (ix1 q) := by
  have e : scaleTIn m ρ c
      = transpose S64x4096 [1, 0] (mulf (F := Ideal) (φ := .f32) (scaleA m c)
          (broadcastInDim S4096x64 ![0, 1] bcast_S4096x1_S4096x64_0_1
            (broadcastInDim S4096x1 ![0] bcast_S4096_S4096x1_0 (scale2A m c))))
        transposes_S4096x64_S64x4096_1_0 := by
    show StableHlo.after hostOps0 _ (Proc.devRef .tc main_v3) = _
    after_results
    try rfl
  rw [e]
  refine (transpose_apply [1, 0] _ transposes_S4096x64_S64x4096_1_0 (ix2 g q) (ix2 q g) (fun b => match b with
    | ⟨0, _⟩ => rfl
    | ⟨1, _⟩ => rfl)).trans ?_
  show scaleA m c (ix2 q g) * _ = _
  refine congrArg (fun z : EReal => scaleA m c (ix2 q g) * z) ?_
  refine (broadcastInDim_apply _ bcast_S4096x1_S4096x64_0_1 _ (ix2 q g) (ix2 q (⟨0, Nat.one_pos⟩ : Fin 1)) (fun a => match a with
    | ⟨0, _⟩ => by show q.val = if (4096 : Nat) = 1 then 0 else q.val; rw [if_neg (by decide)]
    | ⟨1, _⟩ => by show 0 = if (1 : Nat) = 1 then 0 else g.val; rw [if_pos rfl])).trans ?_
  exact broadcastInDim_apply _ bcast_S4096_S4096x1_0 _ (ix2 q (⟨0, Nat.one_pos⟩ : Fin 1)) (ix1 q) (fun a => match a with
    | ⟨0, _⟩ => by show q.val = if (4096 : Nat) = 1 then 0 else q.val; rw [if_neg (by decide)])

/-- The transposed zero point at (group g, row q) is zero(q, g). -/
theorem zeroT_entry (g : Fin 64) (q : Fin 4096) : zeroTIn m ρ c (ix2 g q) = zeroA m c (ix2 q g) := by
  have e : zeroTIn m ρ c = transpose S64x4096 [1, 0] (zeroA m c) transposes_S4096x64_S64x4096_1_0 := by
    show StableHlo.after hostOps0 _ (Proc.devRef .tc main_v4) = _
    after_results
    try rfl
  rw [e]
  exact transpose_apply [1, 0] _ transposes_S4096x64_S64x4096_1_0 (ix2 g q) (ix2 q g) (fun b => match b with
    | ⟨0, _⟩ => rfl
    | ⟨1, _⟩ => rfl)

/-! ## Between the kernels -/

/-- The low-nibble array reaches the second kernel as the first left it. -/
theorem lo_kept : V3 (F := Ideal) m ρ c main_v5_0 = (dat0 (F := Ideal) (V1 m ρ) c).arrAt 3 cfg0.N := by
  have e : V3 (F := Ideal) m ρ c main_v5_0 = W2 m ρ c (Proc.devRef .tc main_v5_0) := by
    show StableHlo.after hostOps1 _ (Proc.devRef .tc main_v5_0) = _
    after_results
    try rfl
  rw [e]
  exact W2_arr m ρ c 3

/-- The high-nibble array likewise. -/
theorem hi_kept : V3 (F := Ideal) m ρ c main_v5_1 = (dat0 (F := Ideal) (V1 m ρ) c).arrAt 4 cfg0.N := by
  have e : V3 (F := Ideal) m ρ c main_v5_1 = W2 m ρ c (Proc.devRef .tc main_v5_1) := by
    show StableHlo.after hostOps1 _ (Proc.devRef .tc main_v5_1) = _
    after_results
    try rfl
  rw [e]
  exact W2_arr m ρ c 4

/-- The activations are still as launched when the second stretch of host lines reads them. -/
theorem acts_kept : (W2 (F := Ideal) m ρ c (Proc.devRef .tc main_arg0) : S8192x4096.Idx → EReal) = actsA m c := by
  rw [W2_of_ne m ρ c main_arg0 (by decide)]
  show StableHlo.after hostOps0 _ (Proc.devRef .tc main_arg0) = _
  after_results
  try rfl

/-- The even-column activations at (p, j) are the activations at (p, 2 j). -/
theorem even_entry (p : Fin 8192) (j : Fin 2048) :
    evenIn m ρ c (ix2 p j) = actsA m c (ix2 p (⟨2 * j.val, by omega⟩ : Fin 4096)) := by
  have e : evenIn m ρ c
      = shapeCast S8192x2048 (extractStridedSlice S8192x2048x1 ![0, 0, 0]
          (shapeCast S8192x2048x2 (truncf (F := Ideal) (φ := .f32) .bf16 (W2 (F := Ideal) m ρ c (Proc.devRef .tc main_arg0) : S8192x4096.Idx → EReal) bitsLt_bf16_f32)
            shapeCasts_S8192x4096_S8192x2048x2) slices_S8192x2048x2_S8192x2048x1_0_0_0) shapeCasts_S8192x2048x1_S8192x2048 := by
    show StableHlo.after hostOps1 _ (Proc.devRef .tc main_v9) = _
    after_results
    try rfl
  rw [e, acts_kept]
  refine (shapeCast_apply _ shapeCasts_S8192x2048x1_S8192x2048 (ix2 p j) (ix3 p j (⟨0, Nat.one_pos⟩ : Fin 1))
    (by rewrite [Shape.rowMajor_val_three, Shape.rowMajor_val_two]; show (p.val * 2048 + j.val) * 1 + 0 = p.val * 2048 + j.val; omega)).trans ?_
  refine (extractStridedSlice_apply ![0, 0, 0] _ slices_S8192x2048x2_S8192x2048x1_0_0_0 (ix3 p j (⟨0, Nat.one_pos⟩ : Fin 1)) (ix3 p j (⟨0, by omega⟩ : Fin 2)) (fun a => match a with
    | ⟨0, _⟩ => by show p.val = 0 + p.val; omega
    | ⟨1, _⟩ => by show j.val = 0 + j.val; omega
    | ⟨2, _⟩ => by show 0 = 0 + 0; rfl)).trans ?_
  exact shapeCast_apply _ shapeCasts_S8192x4096_S8192x2048x2 (ix3 p j (⟨0, by omega⟩ : Fin 2)) (ix2 p (⟨2 * j.val, by omega⟩ : Fin 4096))
    (by rewrite [Shape.rowMajor_val_two, Shape.rowMajor_val_three]; show p.val * 4096 + 2 * j.val = (p.val * 2048 + j.val) * 2 + 0; omega)

/-- The odd-column activations at (p, j) are the activations at (p, 2 j + 1). -/
theorem odd_entry (p : Fin 8192) (j : Fin 2048) :
    oddIn m ρ c (ix2 p j) = actsA m c (ix2 p (⟨2 * j.val + 1, by omega⟩ : Fin 4096)) := by
  have e : oddIn m ρ c
      = shapeCast S8192x2048 (extractStridedSlice S8192x2048x1 ![0, 0, 1]
          (shapeCast S8192x2048x2 (truncf (F := Ideal) (φ := .f32) .bf16 (W2 (F := Ideal) m ρ c (Proc.devRef .tc main_arg0) : S8192x4096.Idx → EReal) bitsLt_bf16_f32)
            shapeCasts_S8192x4096_S8192x2048x2) slices_S8192x2048x2_S8192x2048x1_0_0_1) shapeCasts_S8192x2048x1_S8192x2048 := by
    show StableHlo.after hostOps1 _ (Proc.devRef .tc main_v11) = _
    after_results
    try rfl
  rw [e, acts_kept]
  refine (shapeCast_apply _ shapeCasts_S8192x2048x1_S8192x2048 (ix2 p j) (ix3 p j (⟨0, Nat.one_pos⟩ : Fin 1))
    (by rewrite [Shape.rowMajor_val_three, Shape.rowMajor_val_two]; show (p.val * 2048 + j.val) * 1 + 0 = p.val * 2048 + j.val; omega)).trans ?_
  refine (extractStridedSlice_apply ![0, 0, 1] _ slices_S8192x2048x2_S8192x2048x1_0_0_1 (ix3 p j (⟨0, Nat.one_pos⟩ : Fin 1)) (ix3 p j (⟨1, by omega⟩ : Fin 2)) (fun a => match a with
    | ⟨0, _⟩ => by show p.val = 0 + p.val; omega
    | ⟨1, _⟩ => by show j.val = 0 + j.val; omega
    | ⟨2, _⟩ => by show 1 = 1 + 0; rfl)).trans ?_
  exact shapeCast_apply _ shapeCasts_S8192x4096_S8192x2048x2 (ix3 p j (⟨1, by omega⟩ : Fin 2)) (ix2 p (⟨2 * j.val + 1, by omega⟩ : Fin 4096))
    (by rewrite [Shape.rowMajor_val_two, Shape.rowMajor_val_three]; show p.val * 4096 + (2 * j.val + 1) = (p.val * 2048 + j.val) * 2 + 1; omega)

end Cert.KernelIdeal.HandValue

end
-- ==== Proof.DequantValue.lean ====
/-
  What the dequantizing kernel leaves in its two output arrays, at exact arithmetic.

  The packed weight is an array of 4096 × 2048 words, each holding two four-bit values in its low byte. The kernel
  writes two arrays of the same extents: at row `n` and packed column `j` the low-nibble array holds
  (low nibble of word (n, j) − zero point) · scale, and the high-nibble array the same with the high nibble, where the
  zero point and the scale are those of row `n` and of the group of thirty-two packed columns that `j` lies in,
  group `j / 32`. The scales and zero points reach the kernel transposed, 64 groups × 4096 rows. A change of float
  format is the identity here, so the final narrowing of each product changes nothing.

  The kernel works tile by tile: a 1024 × 512 tile of words together with the 16 × 1024 tiles of scales and zero
  points of the same rows and groups. Inside a tile the body transposes the scale tile and repeats each of its sixteen
  columns over thirty-two neighbouring columns, so tile column `j` meets group `j / 32` of the tile. The proof reads
  this chain of re-layings at one index, reads the whole payload at one index, places each tile inside its array (tile
  (b0, b1) of the words sits at rows 1024 b0 …, columns 512 b1 …; the scale tile at groups 16 b1 …, rows 1024 b0 …), and
  concludes from the fact that the sixteen tiles fill each output array and every grid point writes its tile back.
-/
import proofs.«181014_j88304527606015_2_alg».proof.Proof.KI.PointData
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Hand

/-! ## The body's arithmetic at one entry of a tile -/

/-- The group of thirty-two columns that column `j` of a tile lies in. -/
abbrev grpT (j : Fin 512) : Fin 16 := ⟨j.val / 32, by have := j.isLt; omega⟩

/-- The chain of re-layings the body applies to a 16 × 1024 tile `v` — transpose to 1024 × 16, add a unit axis, repeat
    along it thirty-two times, flatten to 1024 × 512 — read at row `p` and column `j`: it is `v` at group `j / 32` and row
    `p`. Flattening sends (p, g, r) to column 32 g + r, so column `j` comes from g = j / 32, r = j % 32; the repeat
    forgets r; the unit axis and the same-shape casts change nothing; the transpose exchanges the two coordinates. -/
theorem spread_apply {α : Type} (v : S16x1024.Idx → α) (p : Fin 1024) (j : Fin 512) :
    shapeCast S1024x512
      (broadcastTo S1024x16x32
        (shapeCast S1024x16x1
          (shapeCast S1024x16x1
            (transpose S1024x16 [1, 0] (shapeCast S16x1024 v shapeCasts_S16x1024_S16x1024) transposes_S16x1024_p1_0_S1024x16)
            shapeCasts_S1024x16_S1024x16x1)
          shapeCasts_S1024x16x1_S1024x16x1)
        broadcasts_S1024x16x1_S1024x16x32)
      shapeCasts_S1024x16x32_S1024x512 (ix2 p j) = v (ix2 (grpT j) p) := by
  have hj := j.isLt
  have hp := p.isLt
  refine (shapeCast_apply _ _ (ix2 p j) (ix3 p (grpT j) (⟨j.val % 32, Nat.mod_lt _ (by decide)⟩ : Fin 32))
    (by rw [Shape.rowMajor_val_three, Shape.rowMajor_val_two]
        show (p.val * 16 + j.val / 32) * 32 + j.val % 32 = p.val * 512 + j.val
        omega)).trans ?_
  refine (broadcastTo_apply _ _ _ (ix3 p (grpT j) (0 : Fin 1)) (fun a => match a with
      | ⟨0, _⟩ => rfl
      | ⟨1, _⟩ => rfl
      | ⟨2, _⟩ => rfl)).trans ?_
  rw [shapeCast_self]
  refine (shapeCast_apply _ _ _ (ix2 p (grpT j))
    (by rw [Shape.rowMajor_val_three, Shape.rowMajor_val_two]
        show p.val * 16 + j.val / 32 = (p.val * 16 + j.val / 32) * 1 + 0
        omega)).trans ?_
  rw [transpose_ix2_apply, shapeCast_self]

/-- The scales as the body spreads them over a tile, at (`p`, `j`). -/
theorem scale_spread (s : Vec Ideal S16x1024 .f32) (p : Fin 1024) (j : Fin 512) :
    k0_pay2 (F := Ideal) s (ix2 p j) = s (ix2 (grpT j) p) := by
  unfold k0_pay2
  exact spread_apply s p j

/-- The zero points as the body spreads them over a tile, at (`p`, `j`). -/
theorem zero_spread (z : Vec Ideal S16x1024 .f32) (p : Fin 1024) (j : Fin 512) :
    k0_pay3 (F := Ideal) z (ix2 p j) = z (ix2 (grpT j) p) := by
  unfold k0_pay3
  exact spread_apply z p j

/-- The low-nibble payload at (`p`, `j`) of a tile: every operation of it is taken entry by entry, and narrowing the
    product to the shorter float format is the identity. -/
theorem lo_pay_apply (q : Vec Ideal S1024x512 .i32) (s z : Vec Ideal S16x1024 .f32) (p : Fin 1024) (j : Fin 512) :
    k0_pay4 (F := Ideal) q s z (ix2 p j)
      = (FloatOps.sitofp (F := Ideal) .f32 (IntOp.andi (IntOp.andi (q (ix2 p j)) 255#32) 15#32) - z (ix2 (grpT j) p)) * s (ix2 (grpT j) p) := by
  rw [← scale_spread s p j, ← zero_spread z p j]
  rfl

/-- The high-nibble payload at (`p`, `j`) of a tile. -/
theorem hi_pay_apply (q : Vec Ideal S1024x512 .i32) (s z : Vec Ideal S16x1024 .f32) (p : Fin 1024) (j : Fin 512) :
    k0_pay5 (F := Ideal) q s z (ix2 p j)
      = (FloatOps.sitofp (F := Ideal) .f32 (IntOp.andi (IntOp.shrsi .vector (IntOp.andi (q (ix2 p j)) 255#32) 4#32) 15#32) - z (ix2 (grpT j) p)) * s (ix2 (grpT j) p) := by
  rw [← scale_spread s p j, ← zero_spread z p j]
  rfl

/-! ## The two results, entry by entry -/

/-- The group of thirty-two packed columns (sixty-four unpacked ones) that packed column `j` lies in. -/
abbrev grpA (j : Fin 2048) : Fin 64 := ⟨j.val / 32, by have := j.isLt; omega⟩

/-- The dequantized low nibbles: at row `n` and packed column `j`, the low four bits of the packed word (the word first
    cut to its low byte, as the kernel does), read as a number, minus the zero point of row `n` in the group of column
    `j`, times the scale of that row and group. The scales and zero points come transposed: group first, row second. -/
def loArr (wq : IVec S4096x2048 32) (sT zT : FVec Ideal S64x4096 .f32) : FVec Ideal S4096x2048 .bf16 := fun i =>
  (FloatOps.sitofp (F := Ideal) .f32 (IntOp.andi (IntOp.andi (wq i) 255#32) 15#32) - zT (ix2 (grpA (i 1)) (i 0)))
    * sT (ix2 (grpA (i 1)) (i 0))

/-- The dequantized high nibbles: the same with bits four to seven of the word. -/
def hiArr (wq : IVec S4096x2048 32) (sT zT : FVec Ideal S64x4096 .f32) : FVec Ideal S4096x2048 .bf16 := fun i =>
  (FloatOps.sitofp (F := Ideal) .f32 (IntOp.andi (IntOp.shrsi .vector (IntOp.andi (wq i) 255#32) 4#32) 15#32) - zT (ix2 (grpA (i 1)) (i 0)))
    * sT (ix2 (grpA (i 1)) (i 0))

/-- `loArr` at an entry given by its row and packed column. -/
theorem loArr_apply (wq : IVec S4096x2048 32) (sT zT : FVec Ideal S64x4096 .f32) (n : Fin 4096) (j : Fin 2048) :
    loArr wq sT zT (ix2 n j)
      = (FloatOps.sitofp (F := Ideal) .f32 (IntOp.andi (IntOp.andi (wq (ix2 n j)) 255#32) 15#32) - zT (ix2 (grpA j) n)) * sT (ix2 (grpA j) n) := rfl

/-- `hiArr` at an entry given by its row and packed column. -/
theorem hiArr_apply (wq : IVec S4096x2048 32) (sT zT : FVec Ideal S64x4096 .f32) (n : Fin 4096) (j : Fin 2048) :
    hiArr wq sT zT (ix2 n j)
      = (FloatOps.sitofp (F := Ideal) .f32 (IntOp.andi (IntOp.shrsi .vector (IntOp.andi (wq (ix2 n j)) 255#32) 4#32) 15#32) - zT (ix2 (grpA j) n)) * sT (ix2 (grpA j) n) := rfl

/-! ## A tile's result is the matching part of the whole result -/

/-- If the three tiles are the parts of the three arrays at tile row `b0` and tile column `b1` (the scale and zero
    point tiles, being transposed, at tile row `b1` and tile column `b0`), the low-nibble payload at a tile index is
    the whole result at the array index that sits at that place of the tile. The one computation: packed column
    `512 b1 + j` lies in group `16 b1 + j / 32`. -/
theorem lo_tile_entry (wq : IVec S4096x2048 32) (sT zT : FVec Ideal S64x4096 .f32)
    (q : Vec Ideal S1024x512 .i32) (s z : Vec Ideal S16x1024 .f32) (b0 b1 : ℕ) (hb0 : b0 ≤ 3) (hb1 : b1 ≤ 3)
    (hq : ∀ (p : Fin 1024) (j : Fin 512) (k : S4096x2048.Idx), (k 0).val = b0 * 1024 + p.val → (k 1).val = b1 * 512 + j.val → q (ix2 p j) = wq k)
    (hs : ∀ (g : Fin 16) (p : Fin 1024) (k : S64x4096.Idx), (k 0).val = b1 * 16 + g.val → (k 1).val = b0 * 1024 + p.val → s (ix2 g p) = sT k)
    (hz : ∀ (g : Fin 16) (p : Fin 1024) (k : S64x4096.Idx), (k 0).val = b1 * 16 + g.val → (k 1).val = b0 * 1024 + p.val → z (ix2 g p) = zT k)
    (y : S1024x512.Idx) (i : S4096x2048.Idx) (hi0 : (i 0).val = b0 * 1024 + (y 0).val) (hi1 : (i 1).val = b1 * 512 + (y 1).val) :
    k0_pay4 (F := Ideal) q s z y = loArr wq sT zT i := by
  obtain ⟨p, j, rfl⟩ : ∃ (p : Fin 1024) (j : Fin 512), y = ix2 p j := ⟨y 0, y 1, eq_ix2 y⟩
  obtain ⟨n, m, rfl⟩ : ∃ (n : Fin 4096) (m : Fin 2048), i = ix2 n m := ⟨i 0, i 1, eq_ix2 i⟩
  have hj := j.isLt
  have e0 : n.val = b0 * 1024 + p.val := hi0
  have e1 : m.val = b1 * 512 + j.val := hi1
  have eg : (grpA m).val = b1 * 16 + (grpT j).val := by show m.val / 32 = b1 * 16 + j.val / 32; omega
  rw [lo_pay_apply, loArr_apply, hq p j (ix2 n m) e0 e1, hs (grpT j) p (ix2 (grpA m) n) eg e0, hz (grpT j) p (ix2 (grpA m) n) eg e0]

/-- The same for the high nibbles. -/
theorem hi_tile_entry (wq : IVec S4096x2048 32) (sT zT : FVec Ideal S64x4096 .f32)
    (q : Vec Ideal S1024x512 .i32) (s z : Vec Ideal S16x1024 .f32) (b0 b1 : ℕ) (hb0 : b0 ≤ 3) (hb1 : b1 ≤ 3)
    (hq : ∀ (p : Fin 1024) (j : Fin 512) (k : S4096x2048.Idx), (k 0).val = b0 * 1024 + p.val → (k 1).val = b1 * 512 + j.val → q (ix2 p j) = wq k)
    (hs : ∀ (g : Fin 16) (p : Fin 1024) (k : S64x4096.Idx), (k 0).val = b1 * 16 + g.val → (k 1).val = b0 * 1024 + p.val → s (ix2 g p) = sT k)
    (hz : ∀ (g : Fin 16) (p : Fin 1024) (k : S64x4096.Idx), (k 0).val = b1 * 16 + g.val → (k 1).val = b0 * 1024 + p.val → z (ix2 g p) = zT k)
    (y : S1024x512.Idx) (i : S4096x2048.Idx) (hi0 : (i 0).val = b0 * 1024 + (y 0).val) (hi1 : (i 1).val = b1 * 512 + (y 1).val) :
    k0_pay5 (F := Ideal) q s z y = hiArr wq sT zT i := by
  obtain ⟨p, j, rfl⟩ : ∃ (p : Fin 1024) (j : Fin 512), y = ix2 p j := ⟨y 0, y 1, eq_ix2 y⟩
  obtain ⟨n, m, rfl⟩ : ∃ (n : Fin 4096) (m : Fin 2048), i = ix2 n m := ⟨i 0, i 1, eq_ix2 i⟩
  have hj := j.isLt
  have e0 : n.val = b0 * 1024 + p.val := hi0
  have e1 : m.val = b1 * 512 + j.val := hi1
  have eg : (grpA m).val = b1 * 16 + (grpT j).val := by show m.val / 32 = b1 * 16 + j.val / 32; omega
  rw [hi_pay_apply, hiArr_apply, hq p j (ix2 n m) e0 e1, hs (grpT j) p (ix2 (grpA m) n) eg e0, hz (grpT j) p (ix2 (grpA m) n) eg e0]

/-! ## Where the tiles sit -/

section Arrays
variable (V : (c : Dev nD) → (b : Ref sig .tc) → Buf (Elt Ideal) ((c : Thread nD τ).loc b))

/-- The offsets of a whole-tile rectangle are all zero. -/
theorem origin : (![0, 0] : Fin 2 → Nat) = fun _ => 0 := funext fun a => by fin_cases a <;> rfl

/-- At every grid point the packed-word tile and the two output tiles have one and the same tile index (row, column),
    the scale and zero-point tiles have it with the two coordinates exchanged, and both coordinates are at most three. -/
theorem tile_places : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (1 : Fin 2) ∧ win0_1.index t (1 : Fin 2) = win0_3.index t (0 : Fin 2)
    ∧ win0_2.index t (0 : Fin 2) = win0_3.index t (1 : Fin 2) ∧ win0_2.index t (1 : Fin 2) = win0_3.index t (0 : Fin 2)
    ∧ win0_4.index t (0 : Fin 2) = win0_3.index t (0 : Fin 2) ∧ win0_4.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every one of the 4 × 4 tile indices is some grid point's. -/
theorem tile_onto : ∀ (b0 b1 : Fin 4), ∃ t : Fin cfg0.N, win0_3.index t = ![b0.val, b1.val] :=
  (by decide +kernel : ∀ (b0 b1 : Fin 4), ∃ t : Fin grid0.N, win0_3.index t = ![b0.val, b1.val])

/-- The packed-word tile at a point, read at (`p`, `j`), is the packed array at the entry that lies `p` rows and `j`
    columns into the tile. -/
theorem wq_tile_apply (c : Dev nD) (t : Fin cfg0.N) (p : Fin 1024) (j : Fin 512) (k : S4096x2048.Idx)
    (hk0 : (k 0).val = win0_0.index t (0 : Fin 2) * 1024 + p.val) (hk1 : (k 1).val = win0_0.index t (1 : Fin 2) * 512 + j.val) :
    (tile0 V c 0 t : Vec Ideal S1024x512 .i32) (ix2 p j) = (V c main_arg1 : IVec S4096x2048 32) k := by
  unfold tile0
  rw [View.read_apply]
  show V c main_arg1 _ = V c main_arg1 _
  congr 1
  funext a
  apply Fin.ext
  match a with
  | ⟨0, _⟩ => show win0_0.index t (0 : Fin 2) * 1024 + 1 * p.val = (k 0).val; omega
  | ⟨1, _⟩ => show win0_0.index t (1 : Fin 2) * 512 + 1 * j.val = (k 1).val; omega

/-- The scale tile at a point, read at (`g`, `p`), is the transposed scale array `g` rows and `p` columns into the tile. -/
theorem scale_tile_apply (c : Dev nD) (t : Fin cfg0.N) (g : Fin 16) (p : Fin 1024) (k : S64x4096.Idx)
    (hk0 : (k 0).val = win0_1.index t (0 : Fin 2) * 16 + g.val) (hk1 : (k 1).val = win0_1.index t (1 : Fin 2) * 1024 + p.val) :
    (tile0 V c 1 t : Vec Ideal S16x1024 .f32) (ix2 g p) = (V c main_v3 : FVec Ideal S64x4096 .f32) k := by
  unfold tile0
  rw [View.read_apply]
  show V c main_v3 _ = V c main_v3 _
  congr 1
  funext a
  apply Fin.ext
  match a with
  | ⟨0, _⟩ => show win0_1.index t (0 : Fin 2) * 16 + 1 * g.val = (k 0).val; omega
  | ⟨1, _⟩ => show win0_1.index t (1 : Fin 2) * 1024 + 1 * p.val = (k 1).val; omega

/-- The same for the zero points. -/
theorem zero_tile_apply (c : Dev nD) (t : Fin cfg0.N) (g : Fin 16) (p : Fin 1024) (k : S64x4096.Idx)
    (hk0 : (k 0).val = win0_2.index t (0 : Fin 2) * 16 + g.val) (hk1 : (k 1).val = win0_2.index t (1 : Fin 2) * 1024 + p.val) :
    (tile0 V c 2 t : Vec Ideal S16x1024 .f32) (ix2 g p) = (V c main_v4 : FVec Ideal S64x4096 .f32) k := by
  unfold tile0
  rw [View.read_apply]
  show V c main_v4 _ = V c main_v4 _
  congr 1
  funext a
  apply Fin.ext
  match a with
  | ⟨0, _⟩ => show win0_2.index t (0 : Fin 2) * 16 + 1 * g.val = (k 0).val; omega
  | ⟨1, _⟩ => show win0_2.index t (1 : Fin 2) * 1024 + 1 * p.val = (k 1).val; omega

/-! ## What a point writes back -/

/-- What grid point `t` writes back to the low-nibble array is the part of `loArr` under its tile. -/
theorem lo_flushed (c : Dev nD) (t : Fin cfg0.N) :
    (dat0 (F := Ideal) V c).flushed 3 t
      = ((cfg0.win 3).blk t).view.read (Elt Ideal) (loArr (V c main_arg1) (V c main_v3) (V c main_v4)) := by
  show (cfg0.win 3).cut (grid0.coords t) ((dat0 V c).after 3 t) = _
  rw [dat0_after_3]
  unfold loTile
  rw [View.canon_unit_zero origin]
  simp only [View.ld_unit_zero (S := S1024x512) origin, View.ld_unit_zero (S := S16x1024) origin]
  obtain ⟨e00, e01, e10, e11, e20, e21, -, -, hb0, hb1⟩ := tile_places t
  funext y
  refine lo_tile_entry (V c main_arg1) (V c main_v3) (V c main_v4) (tile0 V c 0 t) (tile0 V c 1 t) (tile0 V c 2 t)
    (win0_3.index t (0 : Fin 2)) (win0_3.index t (1 : Fin 2)) hb0 hb1
    (fun p j k h0 h1 => wq_tile_apply V c t p j k (by rw [e00]; exact h0) (by rw [e01]; exact h1))
    (fun g p k h0 h1 => scale_tile_apply V c t g p k (by rw [e10]; exact h0) (by rw [e11]; exact h1))
    (fun g p k h0 h1 => zero_tile_apply V c t g p k (by rw [e20]; exact h0) (by rw [e21]; exact h1))
    y (((cfg0.win 3).blk t).view.emb y) ?_ ?_
  · show win0_3.index t (0 : Fin 2) * 1024 + 1 * (y 0).val = _; omega
  · show win0_3.index t (1 : Fin 2) * 512 + 1 * (y 1).val = _; omega

/-- What grid point `t` writes back to the high-nibble array is the part of `hiArr` under its tile. -/
theorem hi_flushed (c : Dev nD) (t : Fin cfg0.N) :
    (dat0 (F := Ideal) V c).flushed 4 t
      = ((cfg0.win 4).blk t).view.read (Elt Ideal) (hiArr (V c main_arg1) (V c main_v3) (V c main_v4)) := by
  show (cfg0.win 4).cut (grid0.coords t) ((dat0 V c).after 4 t) = _
  rw [dat0_after_4]
  unfold hiTile
  rw [View.canon_unit_zero origin]
  simp only [View.ld_unit_zero (S := S1024x512) origin, View.ld_unit_zero (S := S16x1024) origin]
  obtain ⟨e00, e01, e10, e11, e20, e21, e40, e41, hb0, hb1⟩ := tile_places t
  funext y
  refine hi_tile_entry (V c main_arg1) (V c main_v3) (V c main_v4) (tile0 V c 0 t) (tile0 V c 1 t) (tile0 V c 2 t)
    (win0_3.index t (0 : Fin 2)) (win0_3.index t (1 : Fin 2)) hb0 hb1
    (fun p j k h0 h1 => wq_tile_apply V c t p j k (by rw [e00]; exact h0) (by rw [e01]; exact h1))
    (fun g p k h0 h1 => scale_tile_apply V c t g p k (by rw [e10]; exact h0) (by rw [e11]; exact h1))
    (fun g p k h0 h1 => zero_tile_apply V c t g p k (by rw [e20]; exact h0) (by rw [e21]; exact h1))
    y (((cfg0.win 4).blk t).view.emb y) ?_ ?_
  · show win0_4.index t (0 : Fin 2) * 1024 + 1 * (y 0).val = _; omega
  · show win0_4.index t (1 : Fin 2) * 512 + 1 * (y 1).val = _; omega

/-! ## The tiles fill the arrays -/

/-- An entry of the low-nibble array lies under point `t`'s tile exactly when each coordinate is in the tile's range. -/
theorem mem_lo_tile (t : Fin cfg0.N) (i : S4096x2048.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5_0).slice (win0_3.rect t)).set ↔ _
  rw [View.set_slice_whole, Rect.mem_set_unit]
  exact Iff.rfl

/-- The same for the high-nibble array. -/
theorem mem_hi_tile (t : Fin cfg0.N) (i : S4096x2048.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v5_1).slice (win0_4.rect t)).set ↔ _
  rw [View.set_slice_whole, Rect.mem_set_unit]
  exact Iff.rfl

/-- Entry (`n`, `j`) lies under the tile with index (`n / 1024`, `j / 512`), and every point writes its tile back. -/
theorem lo_covered (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ := tile_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_lo_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The same for the high-nibble array, whose tiles have the same indices. -/
theorem hi_covered (i : S4096x2048.Idx) : ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨t, ht⟩ := tile_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  obtain ⟨-, -, -, -, -, -, e40, e41, -, -⟩ := tile_places t
  refine ⟨t, flush0_4 t, ?_⟩
  rw [mem_hi_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-! ## The two arrays after the kernel -/

/-- After the last point the low-nibble array is `loArr` of the packed words and the transposed scales and zero points
    the kernel was entered with: every point writes the part of `loArr` under its tile, and the tiles fill the array. -/
theorem lo_array (c : Dev nD) :
    (dat0 (F := Ideal) V c).arrAt 3 cfg0.N = loArr (V c main_arg1) (V c main_v3) (V c main_v4) :=
  (dat0 (F := Ideal) V c).arrAt_eq_of_cover 3 (loArr (V c main_arg1) (V c main_v3) (V c main_v4))
    (fun t _ => lo_flushed V c t) lo_covered

/-- And the high-nibble array is `hiArr` of the same three. -/
theorem hi_array (c : Dev nD) :
    (dat0 (F := Ideal) V c).arrAt 4 cfg0.N = hiArr (V c main_arg1) (V c main_v3) (V c main_v4) :=
  (dat0 (F := Ideal) V c).arrAt_eq_of_cover 4 (hiArr (V c main_arg1) (V c main_v3) (V c main_v4))
    (fun t _ => hi_flushed V c t) hi_covered

end Arrays

end Cert.KernelIdeal.HandValue

end
-- ==== Proof.LibContractLast.lean ====
/-
  A matrix product that contracts the LAST axis of both operands, read at an entry.

  For a left operand l of shape [A, K] and a right operand r of shape [B, K] (the right operand held row by row,
  not transposed), the product contracting axis 1 of each has shape [A, B], and its entry (p, q) is the sum over
  k below K of l (p, k) * r (q, k).  The product's definition sums over the index type of the contracted axes
  and reads the operands at indices assembled from the output index and the contraction index; the tactic below
  re-indexes that sum by k and identifies the two assembled indices with (p, k) and (q, k).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts axis 1 of both rank-2 operands (extent `K`) and keeps axis 0 of the left
    operand and axis 0 of the right operand as the output's two axes; `SL` and `SR` are the operands' shapes. It
    expects `l`, `r`, `p`, `q` in scope under these names. -/
macro "contract_last " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.AccumStep.lean ====
/-
  One grid point's gain of the accumulating product kernel, read at a single entry, over the extended reals.

  At a grid point the kernel holds four 1024 × 512 tiles: the even and the odd columns of a band of activation rows
  (xe, xo) and the low- and high-nibble weights of a band of output columns (lo, hi), each weight tile held row by row,
  one row per output column. The point adds to the 1024 × 1024 accumulator first the product of xe with lo and then
  the product of xo with hi, each product contracting the 512 columns of both tiles. So entry (r, s) of the
  accumulator gains the dot product of row r of xe with row s of lo, and then that of row r of xo with row s of hi.
  The buffer the kernel starts each run of blocks from is the zero tile.
-/
import proofs.«181014_j88304527606015_2_alg».proof.Proof.KI.PointData
import proofs.«181014_j88304527606015_2_alg».proof.Proof.LibContractLast
import Idealize.ShloMosaic.Lib.ValueIdx
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe
open Idealize.ShloMosaic.ValueIdx
open Cert.KernelIdeal Cert.KernelIdeal.Gen Cert.KernelIdeal.Hand
open scoped BigOperators

/-- The product of two 1024 × 512 tiles that contracts the columns of both, started from the zero tile: entry (p, q)
    is the dot product of row p of the left tile with row q of the right tile. -/
theorem rowsDot (l r : FVec Ideal S1024x512 .bf16) (p q : Fin 1024) :
    matmul (F := Ideal) dot_S1024x512_S1024x512_S1024x1024_1_1_0_0_n_n none l r
        (constant (F := Ideal) S1024x1024 .f32 0x00000000#32) (ix2 p q)
      = ∑ k : Fin 512, l (ix2 p k) * r (ix2 q k) := by
  refine (Ideal.matmul_constant_zero_apply dot_S1024x512_S1024x512_S1024x1024_1_1_0_0_n_n none l r (ix2 p q)).trans ?_
  contract_last dot_S1024x512_S1024x512_S1024x1024_1_1_0_0_n_n S1024x512 S1024x512 512

/-- One point's gain at entry (r, s): what the accumulator held there, plus the dot product of the even-column row
    with the low-nibble row, plus the dot product of the odd-column row with the high-nibble row. -/
theorem accStep_apply (xe xo lo hi : FVec Ideal S1024x512 .bf16) (a : FVec Ideal S1024x1024 .f32) (r s : Fin 1024) :
    accStep (F := Ideal) xe xo lo hi a (ix2 r s)
      = (a (ix2 r s) + ∑ j : Fin 512, xe (ix2 r j) * lo (ix2 s j)) + ∑ j : Fin 512, xo (ix2 r j) * hi (ix2 s j) := by
  unfold accStep k1_pay3 k1_pay2
  simp only [shapeCast_self]
  exact congrArg₂ (· + ·) (congrArg (a (ix2 r s) + ·) (rowsDot xe lo r s)) (rowsDot xo hi r s)

/-- The tile a run of blocks starts from is zero at every entry. -/
theorem zeroTile_apply (i : S1024x1024.Idx) : k1_pay1 (F := Ideal) i = 0 := by
  unfold k1_pay1
  simp only [shapeCast_self]
  exact Ideal.ofBits_zero_f32

end Cert.KernelIdeal.HandValue

end
-- ==== Proof.AccumTiles.lean ====
/-
  The tiles the accumulating product kernel works on at a grid point, as entries of the arrays they are cut from.

  The grid is 8 × 4 × 4 and its points run with the last axis fastest, so the point at position t has row-band index
  t / 16, column-band index t / 4 mod 4 and block index t mod 4 along the contracted axis. At that point the two
  activation tiles are rows 1024 (t / 16) … + 1023 and columns 512 (t mod 4) … + 511 of the even- and odd-column
  activation arrays, the two weight tiles are rows 1024 (t / 4 mod 4) … + 1023 and the same 512 columns of the low-
  and high-nibble weight arrays, and the output tile is rows 1024 (t / 16) … and columns 1024 (t / 4 mod 4) … of the
  result. An entry of a tile is therefore the entry of its array at (band index × tile height + row, block index ×
  tile width + column).
-/
import proofs.«181014_j88304527606015_2_alg».proof.Proof.KI.PointData
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-- Where each window's tile sits at the point at position `t`: the band and block indices in closed form, checked
    at each of the 128 points. -/
theorem tileIndex1 : ∀ t : Fin cfg1.N,
    win1_0.index t (0 : Fin 2) = t.val / 16 ∧ win1_0.index t (1 : Fin 2) = t.val % 4
    ∧ win1_1.index t (0 : Fin 2) = t.val / 16 ∧ win1_1.index t (1 : Fin 2) = t.val % 4
    ∧ win1_2.index t (0 : Fin 2) = t.val / 4 % 4 ∧ win1_2.index t (1 : Fin 2) = t.val % 4
    ∧ win1_3.index t (0 : Fin 2) = t.val / 4 % 4 ∧ win1_3.index t (1 : Fin 2) = t.val % 4
    ∧ win1_4.index t (0 : Fin 2) = t.val / 16 ∧ win1_4.index t (1 : Fin 2) = t.val / 4 % 4 :=
  (by decide +kernel : ∀ t : Fin grid1.N, _)

section Tiles
variable (V : (c : Dev nD) → (b : Ref sig .tc) → Buf (Elt F) ((c : Thread nD τ).loc b))

/-- The even-column activation tile at entry (r, j) is the even-column array at row 1024 (t / 16) + r and column
    512 (t mod 4) + j. -/
theorem tile1_0_apply (c : Dev nD) (t : Fin cfg1.N) (r : Fin 1024) (j : Fin 512) (i' : S8192x2048.Idx)
    (h0 : (i' 0).val = 1024 * (t.val / 16) + r.val) (h1 : (i' 1).val = 512 * (t.val % 4) + j.val) :
    (tile1 V c 0 t : Vec F S1024x512 .bf16) (ix2 r j) = (V c main_v9 : S8192x2048.Idx → Elt F .bf16) i' := by
  obtain ⟨e0, e1, -⟩ := tileIndex1 t
  unfold tile1
  rw [View.read_apply]
  show (V c main_v9 : S8192x2048.Idx → Elt F .bf16) _ = V c main_v9 i'
  congr 1
  funext a
  apply Fin.ext
  match a with
  | ⟨0, _⟩ => show win1_0.index t 0 * 1024 + 1 * r.val = (i' 0).val; rw [e0, h0]; omega
  | ⟨1, _⟩ => show win1_0.index t 1 * 512 + 1 * j.val = (i' 1).val; rw [e1, h1]; omega

/-- The odd-column activation tile likewise, in the odd-column array. -/
theorem tile1_1_apply (c : Dev nD) (t : Fin cfg1.N) (r : Fin 1024) (j : Fin 512) (i' : S8192x2048.Idx)
    (h0 : (i' 0).val = 1024 * (t.val / 16) + r.val) (h1 : (i' 1).val = 512 * (t.val % 4) + j.val) :
    (tile1 V c 1 t : Vec F S1024x512 .bf16) (ix2 r j) = (V c main_v11 : S8192x2048.Idx → Elt F .bf16) i' := by
  obtain ⟨-, -, e0, e1, -⟩ := tileIndex1 t
  unfold tile1
  rw [View.read_apply]
  show (V c main_v11 : S8192x2048.Idx → Elt F .bf16) _ = V c main_v11 i'
  congr 1
  funext a
  apply Fin.ext
  match a with
  | ⟨0, _⟩ => show win1_1.index t 0 * 1024 + 1 * r.val = (i' 0).val; rw [e0, h0]; omega
  | ⟨1, _⟩ => show win1_1.index t 1 * 512 + 1 * j.val = (i' 1).val; rw [e1, h1]; omega

/-- The low-nibble weight tile at entry (s, j) is the low-nibble array at row 1024 (t / 4 mod 4) + s and column
    512 (t mod 4) + j. -/
theorem tile1_2_apply (c : Dev nD) (t : Fin cfg1.N) (s : Fin 1024) (j : Fin 512) (i' : S4096x2048.Idx)
    (h0 : (i' 0).val = 1024 * (t.val / 4 % 4) + s.val) (h1 : (i' 1).val = 512 * (t.val % 4) + j.val) :
    (tile1 V c 2 t : Vec F S1024x512 .bf16) (ix2 s j) = (V c main_v5_0 : S4096x2048.Idx → Elt F .bf16) i' := by
  obtain ⟨-, -, -, -, e0, e1, -⟩ := tileIndex1 t
  unfold tile1
  rw [View.read_apply]
  show (V c main_v5_0 : S4096x2048.Idx → Elt F .bf16) _ = V c main_v5_0 i'
  congr 1
  funext a
  apply Fin.ext
  match a with
  | ⟨0, _⟩ => show win1_2.index t 0 * 1024 + 1 * s.val = (i' 0).val; rw [e0, h0]; omega
  | ⟨1, _⟩ => show win1_2.index t 1 * 512 + 1 * j.val = (i' 1).val; rw [e1, h1]; omega

/-- The high-nibble weight tile likewise, in the high-nibble array. -/
theorem tile1_3_apply (c : Dev nD) (t : Fin cfg1.N) (s : Fin 1024) (j : Fin 512) (i' : S4096x2048.Idx)
    (h0 : (i' 0).val = 1024 * (t.val / 4 % 4) + s.val) (h1 : (i' 1).val = 512 * (t.val % 4) + j.val) :
    (tile1 V c 3 t : Vec F S1024x512 .bf16) (ix2 s j) = (V c main_v5_1 : S4096x2048.Idx → Elt F .bf16) i' := by
  obtain ⟨-, -, -, -, -, -, e0, e1, -⟩ := tileIndex1 t
  unfold tile1
  rw [View.read_apply]
  show (V c main_v5_1 : S4096x2048.Idx → Elt F .bf16) _ = V c main_v5_1 i'
  congr 1
  funext a
  apply Fin.ext
  match a with
  | ⟨0, _⟩ => show win1_3.index t 0 * 1024 + 1 * s.val = (i' 0).val; rw [e0, h0]; omega
  | ⟨1, _⟩ => show win1_3.index t 1 * 512 + 1 * j.val = (i' 1).val; rw [e1, h1]; omega

end Tiles

end Cert.KernelIdeal.Hand

end
-- ==== Proof.ProdSpec.lean ====
/-
  The result of the dequantize-and-multiply program, entry by entry, as a function of four arrays: the even and the
  odd columns of the activations, xe and xo of shape [8192, 2048], and the low- and high-nibble weights, lo and hi of
  shape [4096, 2048], each weight array holding one row per output column.

  Entry (p, q) is the sum over the 2048 columns, taken as four blocks of 512, of xe (p, ·) · lo (q, ·) and then of
  xo (p, ·) · hi (q, ·): within a block the two dot products are added, and the four blocks' totals are added up.
-/
import Idealize.ShloMosaic.PureOps.Ideal
import Idealize.ShloMosaic.Lib.ValueIdx

noncomputable section

namespace Cert.KernelIdeal.HandValue

open Idealize.ShloMosaic Idealize.ShloMosaic.ValueIdx
open scoped BigOperators

/-- Column `j` of block `b` of the contracted axis: its 2048 columns are four blocks of 512. -/
def blockCol (b : Fin 4) (j : Fin 512) : Fin 2048 := ⟨512 * b.val + j.val, by have := b.isLt; have := j.isLt; omega⟩

theorem blockCol_val (b : Fin 4) (j : Fin 512) : (blockCol b j).val = 512 * b.val + j.val := rfl

/-- Entry (p, q) of the result: over the four blocks b, (Σ_j xe (p, 512 b + j) · lo (q, 512 b + j))
    + (Σ_j xo (p, 512 b + j) · hi (q, 512 b + j)). -/
def prodAt (xe xo : FVec Ideal ⟨2, ![8192, 2048]⟩ .bf16) (lo hi : FVec Ideal ⟨2, ![4096, 2048]⟩ .bf16)
    (p : Fin 8192) (q : Fin 4096) : EReal :=
  ∑ b : Fin 4,
    ((∑ j : Fin 512, xe (ix2 p (blockCol b j)) * lo (ix2 q (blockCol b j)))
      + ∑ j : Fin 512, xo (ix2 p (blockCol b j)) * hi (ix2 q (blockCol b j)))

/-- The whole result array. -/
def prodArr (xe xo : FVec Ideal ⟨2, ![8192, 2048]⟩ .bf16) (lo hi : FVec Ideal ⟨2, ![4096, 2048]⟩ .bf16) :
    FVec Ideal ⟨2, ![8192, 4096]⟩ .f32 :=
  fun i => prodAt xe xo lo hi (i 0) (i 1)

theorem prodArr_apply (xe xo : FVec Ideal ⟨2, ![8192, 2048]⟩ .bf16) (lo hi : FVec Ideal ⟨2, ![4096, 2048]⟩ .bf16)
    (p : Fin 8192) (q : Fin 4096) : prodArr xe xo lo hi (ix2 p q) = prodAt xe xo lo hi p q := rfl

end Cert.KernelIdeal.HandValue

end
-- ==== Proof.LibChainSum.lean ====
/-
  A running total is a sum. If `g 0 = f 0` and `g (n + 1) = g n + f (n + 1)` for the terms `f` of a finite
  sequence, then `g n` is the sum of the first `n + 1` terms (`chain_eq_sum`): the closed form of an
  accumulator that is reset at the first step and added to at every later one.
-/
import Mathlib.Algebra.BigOperators.Fin

namespace Cert.ChainSum

/-- A running total that starts at the first term and adds one term per step is the sum of the terms so far. -/
theorem chain_eq_sum {M : Type*} [AddCommMonoid M] {N : ℕ} (f : Fin N → M) (g : (n : ℕ) → n < N → M)
    (h0 : ∀ h, g 0 h = f ⟨0, h⟩)
    (hs : ∀ n (h : n + 1 < N), g (n + 1) h = g n (Nat.lt_of_succ_lt h) + f ⟨n + 1, h⟩) :
    ∀ (n : ℕ) (h : n < N), g n h = ∑ i : Fin (n + 1), f ⟨i.val, lt_of_le_of_lt (Nat.le_of_lt_succ i.isLt) h⟩
  | 0, h => by
    rw [h0 h, Fin.sum_univ_one]
    rfl
  | n + 1, h => by
    rw [hs n h, chain_eq_sum f g h0 hs n (Nat.lt_of_succ_lt h)]
    exact (Fin.sum_univ_castSucc
      (fun i : Fin (n + 1 + 1) => f ⟨i.val, lt_of_le_of_lt (Nat.le_of_lt_succ i.isLt) h⟩)).symm

end Cert.ChainSum
-- ==== Proof.AccumValue.lean ====
/-
  What the accumulating product kernel leaves in its result array, entry by entry, over the extended reals.

  Fix an entry (r, s) of the 1024 × 1024 accumulator. The point at position n adds to it that point's gain: the dot
  product of row r of the even-column activation tile with row s of the low-nibble weight tile, plus the dot product of
  row r of the odd-column tile with row s of the high-nibble tile. Positions 4 q, 4 q + 1, 4 q + 2, 4 q + 3 are the four
  blocks of the contracted axis for one output tile: the first of them starts from zero, each later one from what the
  one before left. So after the last of the four the accumulator holds the sum of the four gains, and only
  associativity of + and 0 + x = x are used. That last point is the one that copies the accumulator into the
  output tile, rows 1024 (n / 16) … and columns 1024 (n / 4 mod 4) … of the result; the 32 such points tile the result.
  Reading each tile entry in its array turns the four gains into the four blocks of the result's defining sum.
-/
import proofs.«181014_j88304527606015_2_alg».proof.Proof.AccumStep
import proofs.«181014_j88304527606015_2_alg».proof.Proof.AccumTiles
import proofs.«181014_j88304527606015_2_alg».proof.Proof.ProdSpec
import proofs.«181014_j88304527606015_2_alg».proof.Proof.LibChainSum
import Idealize.ShloMosaic.Lib.Pipeline.Value

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.KernelIdeal.Hand
open scoped BigOperators

variable (V : (c : Dev nD) → (b : Ref sig .tc) → Buf (Elt Ideal) ((c : Thread nD τ).loc b))

/-- The four tiles at the point at position `n`, as 1024 × 512 tiles of extended reals: the even and the odd columns of
    the activations, the low- and the high-nibble weights. -/
abbrev xeAt (c : Dev nD) (n : ℕ) (hn : n < cfg1.N) : FVec Ideal S1024x512 .bf16 := tile1 V c 0 ⟨n, hn⟩
abbrev xoAt (c : Dev nD) (n : ℕ) (hn : n < cfg1.N) : FVec Ideal S1024x512 .bf16 := tile1 V c 1 ⟨n, hn⟩
abbrev loAt (c : Dev nD) (n : ℕ) (hn : n < cfg1.N) : FVec Ideal S1024x512 .bf16 := tile1 V c 2 ⟨n, hn⟩
abbrev hiAt (c : Dev nD) (n : ℕ) (hn : n < cfg1.N) : FVec Ideal S1024x512 .bf16 := tile1 V c 3 ⟨n, hn⟩

/-- The gain of entry (r, s) at the point at position `n`. -/
def gain (c : Dev nD) (r s : Fin 1024) (n : ℕ) (hn : n < cfg1.N) : EReal :=
  (∑ j : Fin 512, xeAt V c n hn (ix2 r j) * loAt V c n hn (ix2 s j))
    + ∑ j : Fin 512, xoAt V c n hn (ix2 r j) * hiAt V c n hn (ix2 s j)

/-- At the first block of a run the accumulator starts from zero: the entry is that point's gain. -/
theorem accAt_first (c : Dev nD) (r s : Fin 1024) (n : ℕ) (hn : n < cfg1.N) (h : n % 4 = 0) :
    accAt V c n hn (ix2 r s) = gain V c r s n hn := by
  refine (congrFun (accAt_reset V c ⟨n, hn⟩ h) (ix2 r s)).trans ?_
  refine (accStep_apply (xeAt V c n hn) (xoAt V c n hn) (loAt V c n hn) (hiAt V c n hn) (k1_pay1 (F := Ideal)) r s).trans ?_
  rw [zeroTile_apply, zero_add]
  rfl

/-- At a later block the entry is what the point before left plus this point's gain. -/
theorem accAt_next (c : Dev nD) (r s : Fin 1024) (n : ℕ) (hn : n + 1 < cfg1.N) (h : ¬(n + 1) % 4 = 0) :
    accAt V c (n + 1) hn (ix2 r s) = accAt V c n (Nat.lt_of_succ_lt hn) (ix2 r s) + gain V c r s (n + 1) hn := by
  refine (congrFun (accAt_carry V c ⟨n + 1, hn⟩ h) (ix2 r s)).trans ?_
  refine (accStep_apply (xeAt V c (n + 1) hn) (xoAt V c (n + 1) hn) (loAt V c (n + 1) hn) (hiAt V c (n + 1) hn)
    (accAt V c n (Nat.lt_of_succ_lt hn)) r s).trans ?_
  exact add_assoc _ _ _

/-- After the last of a run's four blocks the entry is the sum of the four gains. -/
theorem accAt_last (c : Dev nD) (r s : Fin 1024) (q : ℕ) (hq : 4 * q + 3 < cfg1.N) :
    accAt V c (4 * q + 3) hq (ix2 r s)
      = ∑ b : Fin 4, gain V c r s (4 * q + b.val) (by have := b.isLt; omega) := by
  exact Cert.ChainSum.chain_eq_sum (N := 4)
    (fun b : Fin 4 => gain V c r s (4 * q + b.val) (by have := b.isLt; omega))
    (fun n (hn : n < 4) => accAt V c (4 * q + n) (by omega) (ix2 r s))
    (fun h => accAt_first V c r s (4 * q + 0) (by omega) (by omega))
    (fun n h => accAt_next V c r s (4 * q + n) (by omega) (by omega))
    3 (by omega)

/-- Block `b`'s share of the result's entry (p, q): the two dot products over the 512 columns of that block. -/
def blockShare (xe xo : FVec Ideal S8192x2048 .bf16) (lo hi : FVec Ideal S4096x2048 .bf16) (p : Fin 8192) (q : Fin 4096)
    (b : Fin 4) : EReal :=
  (∑ j : Fin 512, xe (ix2 p (blockCol b j)) * lo (ix2 q (blockCol b j)))
    + ∑ j : Fin 512, xo (ix2 p (blockCol b j)) * hi (ix2 q (blockCol b j))

/-- A point's gain, read in the arrays: for a point whose row band puts tile row r at row p of the activations, whose
    column band puts tile row s at row q of the weights, and whose block index is b, the two dot products run over the
    columns of block b. -/
theorem gain_eq (c : Dev nD) (r s : Fin 1024) (n : ℕ) (hn : n < cfg1.N) (p : Fin 8192) (q : Fin 4096) (b : Fin 4)
    (hp : p.val = 1024 * (n / 16) + r.val) (hq : q.val = 1024 * (n / 4 % 4) + s.val) (hb : n % 4 = b.val) :
    gain V c r s n hn = blockShare (V c main_v9) (V c main_v11) (V c main_v5_0) (V c main_v5_1) p q b := by
  have hc : ∀ j : Fin 512, (blockCol b j).val = 512 * (n % 4) + j.val := fun j => by rw [hb]; rfl
  unfold gain blockShare
  exact congrArg₂ (fun x y : EReal => x + y)
    (Finset.sum_congr rfl fun j _ => congrArg₂ (fun x y : EReal => x * y)
      (tile1_0_apply V c ⟨n, hn⟩ r j (ix2 p (blockCol b j)) hp (hc j))
      (tile1_2_apply V c ⟨n, hn⟩ s j (ix2 q (blockCol b j)) hq (hc j)))
    (Finset.sum_congr rfl fun j _ => congrArg₂ (fun x y : EReal => x * y)
      (tile1_1_apply V c ⟨n, hn⟩ r j (ix2 p (blockCol b j)) hp (hc j))
      (tile1_3_apply V c ⟨n, hn⟩ s j (ix2 q (blockCol b j)) hq (hc j)))

/-- The accumulator at a point that copies it out (position ≡ 3 mod 4), at entry (r, s), is the result's entry (p, q)
    for the row p and column q that the point's bands put tile row r and tile column s at. -/
theorem acc_entry (c : Dev nD) (t : Fin cfg1.N) (h3 : t.val % 4 = 3) (r s : Fin 1024) (p : Fin 8192) (q : Fin 4096)
    (hp : p.val = 1024 * (t.val / 16) + r.val) (hq : q.val = 1024 * (t.val / 4 % 4) + s.val) :
    accAt V c t.val t.isLt (ix2 r s) = prodAt (V c main_v9) (V c main_v11) (V c main_v5_0) (V c main_v5_1) p q := by
  have hN : cfg1.N = 128 := N_1
  have hlt := t.isLt
  have ht : 4 * (t.val / 4) + 3 = t.val := by omega
  have same : ∀ (u : ℕ) (hu : u < cfg1.N), u = t.val → accAt V c u hu = accAt V c t.val t.isLt :=
    fun u hu e => by subst e; rfl
  rw [← same (4 * (t.val / 4) + 3) (by omega) ht, accAt_last V c r s (t.val / 4) (by omega)]
  unfold prodAt
  refine Finset.sum_congr rfl fun b _ => ?_
  have hb := b.isLt
  exact gain_eq V c r s (4 * (t.val / 4) + b.val) (by omega) p q b (by omega) (by omega) (by omega)

end Cert.KernelIdeal.HandValue

end
-- ==== Proof.AccumOut.lean ====
/-
  The result array after the accumulating product kernel, as a whole.

  The output tile is written back to the result exactly at the points whose position is ≡ 3 mod 4, the last block of
  each run of four. What such a point writes is its accumulator, and the tile it writes sits at rows 1024 (t / 16) …
  and columns 1024 (t / 4 mod 4) … of the result; entry (r, s) of the accumulator is therefore entry
  (1024 (t / 16) + r, 1024 (t / 4 mod 4) + s) of the defining sum. Every entry (p, q) of the result lies in the tile
  of the point at position 16 (p / 1024) + 4 (q / 1024) + 3, so the written tiles cover the result and it ends
  holding the defining sum everywhere.
-/
import proofs.«181014_j88304527606015_2_alg».proof.Proof.AccumValue

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.KernelIdeal.Hand
open scoped BigOperators

variable (V : (c : Dev nD) → (b : Ref sig .tc) → Buf (Elt Ideal) ((c : Thread nD τ).loc b))

/-- The result the kernel is to leave, over the four arrays its windows are cut from. -/
abbrev target (c : Dev nD) : FVec Ideal S8192x4096 .f32 :=
  prodArr (V c main_v9) (V c main_v11) (V c main_v5_0) (V c main_v5_1)

/-- At a point that writes back, entry `y` of the accumulator is the defining sum at the place of the result that
    entry `y` of the point's output tile occupies. -/
theorem written_entry (c : Dev nD) (t : Fin cfg1.N) (h3 : t.val % 4 = 3) (y : S1024x1024.Idx) :
    accAt V c t.val t.isLt y = target V c (((cfg1.win 4).blk t).view.emb y) := by
  have hN : cfg1.N = 128 := N_1
  have hlt := t.isLt
  obtain ⟨-, -, -, -, -, -, -, -, e0, e1⟩ := tileIndex1 t
  obtain ⟨r, s, rfl⟩ : ∃ (r s : Fin 1024), y = ix2 r s := ⟨y 0, y 1, eq_ix2 y⟩
  have hr := r.isLt
  have hs := s.isLt
  have e : (((cfg1.win 4).blk t).view.emb (ix2 r s) : S8192x4096.Idx)
      = ix2 (⟨1024 * (t.val / 16) + r.val, by omega⟩ : Fin 8192) (⟨1024 * (t.val / 4 % 4) + s.val, by omega⟩ : Fin 4096) := by
    funext a
    apply Fin.ext
    match a with
    | ⟨0, _⟩ => show win1_4.index t 0 * 1024 + 1 * r.val = 1024 * (t.val / 16) + r.val; rw [e0]; omega
    | ⟨1, _⟩ => show win1_4.index t 1 * 1024 + 1 * s.val = 1024 * (t.val / 4 % 4) + s.val; rw [e1]; omega
  show _ = prodArr (V c main_v9) (V c main_v11) (V c main_v5_0) (V c main_v5_1) _
  rw [e, prodArr_apply]
  exact acc_entry V c t h3 r s _ _ rfl rfl

/-- What a point that writes back writes is its tile of the defining sum. -/
theorem flushed_eq (c : Dev nD) (t : Fin cfg1.N) (hf : (cfg1.win 4).flush t = true) :
    (dat1 V c).flushed 4 t = ((cfg1.win 4).blk t).view.read (Elt Ideal) (target V c) := by
  have h3 : t.val % 4 = 3 := (flush1_4 t).mp hf
  show (cfg1.win 4).cut (grid1.coords t) ((dat1 V c).after 4 t) = _
  rw [dat1_after_4]
  funext y
  rw [View.read_apply]
  exact written_entry V c t h3 y

/-- An entry of the result lies in a point's output tile when each coordinate lies in the tile's range on its axis. -/
theorem mem_outTile (t : Fin cfg1.N) (i : S8192x4096.Idx) :
    i ∈ ((cfg1.win 4).blk t).view.set
      ↔ ∀ a : Fin 2, win1_4.index t a * S1024x1024.size a ≤ (i a).val
          ∧ (i a).val < win1_4.index t a * S1024x1024.size a + S1024x1024.size a := by
  show i ∈ ((View.whole main_v12).slice (win1_4.rect t)).set ↔ _
  rw [View.set_slice_whole, Rect.mem_set_unit]
  exact Iff.rfl

/-- Every entry (p, q) of the result is in the tile written at position 16 (p / 1024) + 4 (q / 1024) + 3. -/
theorem covered (i : S8192x4096.Idx) :
    ∃ t : Fin cfg1.N, (cfg1.win 4).flush t = true ∧ i ∈ ((cfg1.win 4).blk t).view.set := by
  have hN : cfg1.N = 128 := N_1
  have h0 : (i 0).val < 8192 := idx2_lt0 i
  have h1 : (i 1).val < 4096 := idx2_lt1 i
  obtain ⟨t, ht⟩ : ∃ t : Fin cfg1.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, -, -, e0, e1⟩ := tileIndex1 t
  refine ⟨t, (flush1_4 t).mpr (by omega), ?_⟩
  rw [mem_outTile]
  intro a
  match a with
  | ⟨0, _⟩ =>
    show win1_4.index t 0 * 1024 ≤ (i 0).val ∧ (i 0).val < win1_4.index t 0 * 1024 + 1024
    rw [e0]; omega
  | ⟨1, _⟩ =>
    show win1_4.index t 1 * 1024 ≤ (i 1).val ∧ (i 1).val < win1_4.index t 1 * 1024 + 1024
    rw [e1]; omega

/-- After the kernel the result array holds the defining sum: over the four blocks of the contracted axis, the dot
    product of the even-column activations with the low-nibble weights plus that of the odd-column activations with
    the high-nibble weights. -/
theorem out_array (c : Dev nD) :
    (dat1 (F := Ideal) V c).arrAt 4 cfg1.N = prodArr (V c main_v9) (V c main_v11) (V c main_v5_0) (V c main_v5_1) :=
  (dat1 V c).arrAt_eq_of_cover 4 (target V c) (fun t hf => flushed_eq V c t hf) covered

end Cert.KernelIdeal.HandValue

end
-- ==== Proof.LibEvenOddBlocks.lean ====
/-
  Two small general facts.

  A sum over 4096 consecutive positions, read as four blocks of 512 pairs (an even position and the odd one after it):
  the sum is the sum over the blocks of the even positions' part plus the odd positions' part. Only commutativity and
  associativity of the addition are used, so it holds in any commutative additive monoid.

  A 32-bit word's two low nibbles do not see a mask that keeps the low byte: the low four bits of the word are those
  of its low byte, and the four bits above them, reached by an arithmetic shift by four, are those of the low byte's
  shift (the byte is non-negative as a word, and the shift brings down only bits four to seven).
-/
import Mathlib.Algebra.BigOperators.Fin
import Mathlib.Data.Fintype.BigOperators

namespace Cert.Lib

open scoped BigOperators

/-- Position 2 · (512 · b + j) + e of the 4096, from the block b, the place j inside the block and the parity e:
    every position below 4096 is reached exactly once. -/
def evenOddBlockEquiv : Fin 4 × Fin 512 × Fin 2 ≃ Fin 4096 where
  toFun p := ⟨2 * (512 * p.1.val + p.2.1.val) + p.2.2.val, by
    have h0 := p.1.isLt; have h1 := p.2.1.isLt; have h2 := p.2.2.isLt; omega⟩
  invFun k := (⟨k.val / 1024, by have h := k.isLt; omega⟩, ⟨k.val / 2 % 512, by omega⟩, ⟨k.val % 2, by omega⟩)
  left_inv p := by
    obtain ⟨⟨b, hb⟩, ⟨j, hj⟩, ⟨e, he⟩⟩ := p
    simp only [Prod.mk.injEq, Fin.mk.injEq]
    refine ⟨?_, ?_, ?_⟩ <;> omega
  right_inv k := by
    obtain ⟨k, hk⟩ := k
    simp only [Fin.mk.injEq]
    omega

/-- A sum over 4096 positions is the sum, over four blocks of 512 pairs of neighbours, of the even members' sum plus
    the odd members' sum. -/
theorem sum_even_odd_blocks {M : Type*} [AddCommMonoid M] (f : Fin 4096 → M) :
    ∑ k : Fin 4096, f k = ∑ b : Fin 4, ((∑ j : Fin 512, f ⟨2 * (512 * b.val + j.val), by omega⟩)
      + ∑ j : Fin 512, f ⟨2 * (512 * b.val + j.val) + 1, by omega⟩) := by
  rw [← evenOddBlockEquiv.sum_comp f, Fintype.sum_prod_type]
  refine Finset.sum_congr rfl fun b _ => ?_
  rw [Fintype.sum_prod_type, ← Finset.sum_add_distrib]
  refine Finset.sum_congr rfl fun j _ => ?_
  rw [Fin.sum_univ_two]
  rfl

/-- The low nibble of a word is the low nibble of its low byte. -/
theorem nibble_lo_mask (w : BitVec 32) : (w &&& 255#32) &&& 15#32 = w &&& 15#32 := by
  rw [BitVec.and_assoc, show (255#32 &&& 15#32 : BitVec 32) = 15#32 from by decide]

/-- The second nibble of a word, reached by an arithmetic shift by four, is that of its low byte: the shift of a
    conjunction is the conjunction of the shifts, and the byte mask shifted by four still covers the nibble mask. -/
theorem nibble_hi_mask (w : BitVec 32) : ((w &&& 255#32).sshiftRight 4) &&& 15#32 = (w.sshiftRight 4) &&& 15#32 := by
  rw [BitVec.sshiftRight_and_distrib, BitVec.and_assoc,
    show ((255#32 : BitVec 32).sshiftRight 4 &&& 15#32 : BitVec 32) = 15#32 from by decide]

/-- The same with the shift amount given as a word, the form a machine shift by the literal four unfolds to. -/
theorem nibble_hi_mask' (w : BitVec 32) :
    ((w &&& 255#32).sshiftRight' 4#32) &&& 15#32 = (w.sshiftRight' 4#32) &&& 15#32 := by
  rw [BitVec.sshiftRight_eq', BitVec.sshiftRight_eq', show (4#32 : BitVec 32).toNat = 4 from by decide]
  exact nibble_hi_mask w

end Cert.Lib
-- ==== Proof.RefValue.lean ====
/-
  The reference's result, read at one entry.

  The reference unpacks every 32-bit word of the packed weight [4096, 2048] into two 4-bit values, the low nibble and
  the nibble above it, laid side by side, so that column k of the unpacked row q comes from the word in column k / 2:
  its low nibble when k is even, the next nibble when k is odd. Columns are grouped by 64; every group of a row has
  its own zero point and scale, and every row one more scale. The weight is

      W(q, k) = ((nibble(q, k) − zero(q, k / 64)) · scale(q, k / 64)) · scale2(q)

  and the result's entry (p, q) is the sum over the 4096 columns k of x(p, k) · W(q, k). This module reads the
  program's stages one by one at an index to arrive at exactly that sum; no arithmetic is evaluated and no law of the
  extended reals is used.
-/
import proofs.«181014_j88304527606015_2_alg».proof.Proof.Gen.ReferenceIdeal.Read
import proofs.«181014_j88304527606015_2_alg».proof.Proof.LibEvenOddBlocks
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.StableHlo Idealize.ShloMosaic.ValueIdx
open scoped BigOperators

/-! ## The specification -/

/-- The 4-bit value in column k of the unpacked row q: of the word in column k / 2, the low four bits when k is
    even, the four bits above them (an arithmetic shift by four, then the same mask) when k is odd. -/
def refNibble (wq : (⟨S4096x2048, .i32⟩ : BufTy).Contents (Elt Ideal)) (q k : Fin 4096) : BitVec 32 :=
  if k.val % 2 = 0 then
    IntOp.andi (wq (ix2 q (⟨k.val / 2, by have h := k.isLt; omega⟩ : Fin 2048))) 15#32
  else
    IntOp.andi (IntOp.shrsi .host (wq (ix2 q (⟨k.val / 2, by have h := k.isLt; omega⟩ : Fin 2048))) 4#32) 15#32

/-- The dequantized weight: the nibble as a number, less the zero point of its group of 64 columns, times the
    group's scale, times the row's scale. -/
def refWeight (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (q k : Fin 4096) : EReal :=
  ((FloatOps.sitofp (F := Ideal) .f32 (refNibble wq q k)
      - ze (ix2 q (⟨k.val / 64, by have h := k.isLt; omega⟩ : Fin 64)))
    * sc (ix2 q (⟨k.val / 64, by have h := k.isLt; omega⟩ : Fin 64)))
  * s2 (ix1 q)

/-- At the ideal instance a signed integer becomes the real number it denotes. -/
theorem sitofp_refNibble (wq : (⟨S4096x2048, .i32⟩ : BufTy).Contents (Elt Ideal)) (q k : Fin 4096) :
    FloatOps.sitofp (F := Ideal) .f32 (refNibble wq q k) = (((refNibble wq q k).toInt : ℝ) : EReal) := rfl

/-! ## The two nibbles in the processor's spelling

The tiled program masks the word to its low byte before it takes the nibbles; the reference does not. The results
agree: both nibbles lie inside the low byte. -/

/-- A shift of a 32-bit word by the literal four is the plain arithmetic shift on every unit. -/
theorem shrsi_four (u : ArithUnit) (w : BitVec 32) : IntOp.shrsi u w 4#32 = w.sshiftRight' 4#32 := by
  unfold IntOp.shrsi
  exact if_pos (by decide)

/-- Low nibble: masking to the low byte first changes nothing. -/
theorem andi_byte_nibble (w : BitVec 32) : IntOp.andi (IntOp.andi w 255#32) 15#32 = IntOp.andi w 15#32 :=
  Cert.Lib.nibble_lo_mask w

/-- Second nibble: masking to the low byte first, then shifting on the vector unit, is the host's shift of the
    unmasked word, under the nibble mask. -/
theorem andi_shrsi_byte_nibble (w : BitVec 32) :
    IntOp.andi (IntOp.shrsi .vector (IntOp.andi w 255#32) 4#32) 15#32 = IntOp.andi (IntOp.shrsi .host w 4#32) 15#32 := by
  rw [shrsi_four, shrsi_four]
  exact Cert.Lib.nibble_hi_mask' w

/-! ## The unpacked weight at an index -/

/-- The pair of nibble arrays joined along a new last axis of length two: at last coordinate 0, the low nibble. -/
theorem joined_even (wq : (⟨S4096x2048, .i32⟩ : BufTy).Contents (Elt Ideal)) (q : Fin 4096) (j : Fin 2048) :
    val_main_v8 (F := Ideal) wq (ix3 q j (0 : Fin 2)) = IntOp.andi (wq (ix2 q j)) 15#32 := by
  unfold val_main_v8
  refine (concatenate_pair_apply_left _ _ _ concatenates_S4096x2048x1_S4096x2048x1_S4096x2048x2_d2 _ rfl
    (ix3 q j (0 : Fin 1)) ?_).trans ?_
  · intro b
    match b with
    | ⟨0, _⟩ => rfl
    | ⟨1, _⟩ => rfl
    | ⟨2, _⟩ => rfl
  · have e : idx_main_v6 (ix3 q j (0 : Fin 1)) = ix2 q j := funext fun a => by
      match a with
      | ⟨0, _⟩ => rfl
      | ⟨1, _⟩ => rfl
    rw [val_main_v6_apply, e, val_main_v1_apply, val_main_v0_apply, val_main_c_apply]

/-- At last coordinate 1, the nibble above. -/
theorem joined_odd (wq : (⟨S4096x2048, .i32⟩ : BufTy).Contents (Elt Ideal)) (q : Fin 4096) (j : Fin 2048) :
    val_main_v8 (F := Ideal) wq (ix3 q j (1 : Fin 2)) = IntOp.andi (IntOp.shrsi .host (wq (ix2 q j)) 4#32) 15#32 := by
  unfold val_main_v8
  refine (concatenate_pair_apply_right _ _ _ concatenates_S4096x2048x1_S4096x2048x1_S4096x2048x2_d2 _ rfl rfl
    (ix3 q j (0 : Fin 1)) ?_ ?_).trans ?_
  · intro b hb
    match b, hb with
    | ⟨0, _⟩, _ => rfl
    | ⟨1, _⟩, _ => rfl
    | ⟨2, _⟩, hb => exact absurd rfl hb
  · rfl
  · have e : idx_main_v7 (ix3 q j (0 : Fin 1)) = ix2 q j := funext fun a => by
      match a with
      | ⟨0, _⟩ => rfl
      | ⟨1, _⟩ => rfl
    rw [val_main_v7_apply, e, val_main_v5_apply, val_main_v3_apply, val_main_v2_apply, val_main_c_0_apply,
      val_main_v4_apply, val_main_c_1_apply]

/-- Flattening the last two axes [2048, 2] into 4096 puts column k at word k / 2, nibble k % 2. -/
theorem unpacked_apply (wq : (⟨S4096x2048, .i32⟩ : BufTy).Contents (Elt Ideal)) (q k : Fin 4096) :
    val_main_v9 (F := Ideal) wq (ix2 q k) = refNibble wq q k := by
  have hq := q.isLt
  have hk := k.isLt
  have e : idx_main_v9 (ix2 q k)
      = ix3 q (⟨k.val / 2, by omega⟩ : Fin 2048) (⟨k.val % 2, by omega⟩ : Fin 2) := funext fun a => by
    match a with
    | ⟨0, _⟩ => exact Fin.ext (by show (q.val * 4096 + k.val) / 4096 = q.val; omega)
    | ⟨1, _⟩ => exact Fin.ext (by show (q.val * 4096 + k.val) / 2 % 2048 = k.val / 2; omega)
    | ⟨2, _⟩ => exact Fin.ext (by show (q.val * 4096 + k.val) % 2 = k.val % 2; omega)
  rw [val_main_v9_apply, e]
  unfold refNibble
  by_cases h : k.val % 2 = 0
  · rw [if_pos h, show (⟨k.val % 2, by omega⟩ : Fin 2) = (0 : Fin 2) from Fin.ext h]
    exact joined_even wq q _
  · rw [if_neg h, show (⟨k.val % 2, by omega⟩ : Fin 2) = (1 : Fin 2) from Fin.ext (by show k.val % 2 = 1; omega)]
    exact joined_odd wq q _

/-- The dequantized weight [4096, 4096] at (q, k): through the grouping into 64 columns and back. -/
theorem weight_apply (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (q k : Fin 4096) :
    val_main_v21 (F := Ideal) wq sc ze s2 (ix2 q k) = refWeight wq sc ze s2 q k := by
  have hq := q.isLt
  have hk := k.isLt
  -- (q, k) of [4096, 4096] is (q, k / 64, k % 64) of [4096, 64, 64], and back
  have e18 : idx_main_v18 (ix2 q k)
      = ix3 q (⟨k.val / 64, by omega⟩ : Fin 64) (⟨k.val % 64, by omega⟩ : Fin 64) := funext fun a => by
    match a with
    | ⟨0, _⟩ => exact Fin.ext (by show (q.val * 4096 + k.val) / 4096 = q.val; omega)
    | ⟨1, _⟩ => exact Fin.ext (by show (q.val * 4096 + k.val) / 64 % 64 = k.val / 64; omega)
    | ⟨2, _⟩ => exact Fin.ext (by show (q.val * 4096 + k.val) % 64 = k.val % 64; omega)
  have e11 : idx_main_v11 (ix3 q (⟨k.val / 64, by omega⟩ : Fin 64) (⟨k.val % 64, by omega⟩ : Fin 64))
      = ix2 q k := funext fun a => by
    match a with
    | ⟨0, _⟩ => exact Fin.ext (by show ((q.val * 64 + k.val / 64) * 64 + k.val % 64) / 4096 = q.val; omega)
    | ⟨1, _⟩ => exact Fin.ext (by show ((q.val * 64 + k.val / 64) * 64 + k.val % 64) % 4096 = k.val; omega)
  -- a group's zero point and scale do not depend on the place inside the group
  have e13 : idx_main_v12 (idx_main_v13 (ix3 q (⟨k.val / 64, by omega⟩ : Fin 64) (⟨k.val % 64, by omega⟩ : Fin 64)))
      = ix2 q (⟨k.val / 64, by omega⟩ : Fin 64) := funext fun a => by
    match a with
    | ⟨0, _⟩ => rfl
    | ⟨1, _⟩ => rfl
  have e16 : idx_main_v15 (idx_main_v16 (ix3 q (⟨k.val / 64, by omega⟩ : Fin 64) (⟨k.val % 64, by omega⟩ : Fin 64)))
      = ix2 q (⟨k.val / 64, by omega⟩ : Fin 64) := funext fun a => by
    match a with
    | ⟨0, _⟩ => rfl
    | ⟨1, _⟩ => rfl
  -- the row's scale does not depend on the column
  have e20 : idx_main_v19 (idx_main_v20 (ix2 q k)) = ix1 q := funext fun a => by
    match a with
    | ⟨0, _⟩ => rfl
  rw [val_main_v21_apply, val_main_v20_apply, val_main_v19_apply, e20, val_main_v18_apply, e18, val_main_v17_apply,
    val_main_v16_apply, val_main_v15_apply, e16, val_main_v14_apply, val_main_v13_apply, val_main_v12_apply, e13,
    val_main_v11_apply, e11, val_main_v10_apply, unpacked_apply]
  rfl

/-! ## The result at an entry -/

/-- Entry (p, q) of the reference's result is the sum over the columns k of x(p, k) · W(q, k). -/
theorem ref_entry (x : (⟨S8192x4096, .f32⟩ : BufTy).Contents (Elt Ideal))
    (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (p : Fin 8192) (q : Fin 4096) :
    val_main_v23 (F := Ideal) x wq sc ze s2 (ix2 p q)
      = ∑ k : Fin 4096, x (ix2 p k) * refWeight wq sc ze s2 q k := by
  rw [val_main_v23_apply]
  refine Finset.sum_congr rfl fun k _ => ?_
  have el : lidx_main_v23 (ix2 p q) k = ix2 p k := funext fun a => by
    match a with
    | ⟨0, _⟩ => rfl
    | ⟨1, _⟩ => rfl
  -- the right operand is the transposed weight: its entry (k, q) is W(q, k)
  have er : idx_main_v22 (ridx_main_v23 (ix2 p q) k) = ix2 q k := funext fun a => by
    match a with
    | ⟨0, _⟩ => rfl
    | ⟨1, _⟩ => rfl
  rw [el, val_main_v22_apply, er, weight_apply]

end Cert.ReferenceIdeal.RefValue

end
-- ==== Proof.Join.lean ====
/-
  The tiled program's arithmetic, stated over the arguments, joined to the reference's entry.

  The tiled program never forms the unpacked weight row by row. From every packed word w(q, j) it takes two numbers,
  the low nibble and the nibble above it (after masking the word to its low byte), subtracts the zero point of the
  group the pair of columns 2 j, 2 j + 1 lies in (group j / 32, since a group is 64 columns, that is 32 words), and
  multiplies by the product of the group's scale and the row's scale. It then sums, over four blocks of 512 words,
  the even columns of x against the low-nibble weights plus the odd columns against the high-nibble weights.

  The reference's entry is the sum over all 4096 columns k of x(p, k) · W(q, k). The two agree because
  · a sum over 4096 columns is the sum over the blocks of the even columns' part plus the odd columns' part
    (a regrouping of a finite sum, nothing more);
  · in column 2 j the reference reads the low nibble of word j and in column 2 j + 1 the nibble above, both in group
    j / 32, and a nibble does not see the mask to the low byte;
  · the weights differ by one use of associativity: ((n − z) · s) · s₂ = (n − z) · (s · s₂).
  No distributivity and no cancellation is used, so nothing has to be finite.
-/
import proofs.«181014_j88304527606015_2_alg».proof.Proof.RefValue

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.StableHlo Idealize.ShloMosaic.ValueIdx
open scoped BigOperators

/-! ## The weight at an even and at an odd column

Column 2 · m of a row comes from the low nibble of the word in column m, column 2 · m + 1 from the nibble above it;
both lie in the group of 64 columns numbered m / 32. -/

/-- The nibble in an even column 2 · m: the low nibble of word m. -/
theorem refNibble_even (wq : (⟨S4096x2048, .i32⟩ : BufTy).Contents (Elt Ideal)) (q : Fin 4096) (m : Fin 2048) :
    refNibble wq q (⟨2 * m.val, by have h := m.isLt; omega⟩ : Fin 4096) = IntOp.andi (wq (ix2 q m)) 15#32 := by
  have hm := m.isLt
  unfold refNibble
  rw [if_pos (by show 2 * m.val % 2 = 0; omega)]
  exact congrArg (fun j : Fin 2048 => IntOp.andi (wq (ix2 q j)) 15#32) (Fin.ext (by show 2 * m.val / 2 = m.val; omega))

/-- The nibble in an odd column 2 · m + 1: the nibble above the low one of word m. -/
theorem refNibble_odd (wq : (⟨S4096x2048, .i32⟩ : BufTy).Contents (Elt Ideal)) (q : Fin 4096) (m : Fin 2048) :
    refNibble wq q (⟨2 * m.val + 1, by have h := m.isLt; omega⟩ : Fin 4096)
      = IntOp.andi (IntOp.shrsi .host (wq (ix2 q m)) 4#32) 15#32 := by
  have hm := m.isLt
  unfold refNibble
  rw [if_neg (by show ¬(2 * m.val + 1) % 2 = 0; omega)]
  exact congrArg (fun j : Fin 2048 => IntOp.andi (IntOp.shrsi .host (wq (ix2 q j)) 4#32) 15#32)
    (Fin.ext (by show (2 * m.val + 1) / 2 = m.val; omega))

/-- The weight in an even column 2 · m. -/
theorem refWeight_even (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (q : Fin 4096) (m : Fin 2048) :
    refWeight wq sc ze s2 q (⟨2 * m.val, by have h := m.isLt; omega⟩ : Fin 4096)
      = ((FloatOps.sitofp (F := Ideal) .f32 (IntOp.andi (wq (ix2 q m)) 15#32)
          - ze (ix2 q (⟨m.val / 32, by have h := m.isLt; omega⟩ : Fin 64)))
        * sc (ix2 q (⟨m.val / 32, by have h := m.isLt; omega⟩ : Fin 64)))
      * s2 (ix1 q) := by
  have hm := m.isLt
  have eg : (⟨2 * m.val / 64, by omega⟩ : Fin 64) = (⟨m.val / 32, by omega⟩ : Fin 64) := Fin.ext (by show 2 * m.val / 64 = m.val / 32; omega)
  unfold refWeight
  rw [refNibble_even]
  exact congrArg (fun g : Fin 64 => ((FloatOps.sitofp (F := Ideal) .f32 (IntOp.andi (wq (ix2 q m)) 15#32) - ze (ix2 q g)) * sc (ix2 q g)) * s2 (ix1 q)) eg

/-- The weight in an odd column 2 · m + 1. -/
theorem refWeight_odd (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (q : Fin 4096) (m : Fin 2048) :
    refWeight wq sc ze s2 q (⟨2 * m.val + 1, by have h := m.isLt; omega⟩ : Fin 4096)
      = ((FloatOps.sitofp (F := Ideal) .f32 (IntOp.andi (IntOp.shrsi .host (wq (ix2 q m)) 4#32) 15#32)
          - ze (ix2 q (⟨m.val / 32, by have h := m.isLt; omega⟩ : Fin 64)))
        * sc (ix2 q (⟨m.val / 32, by have h := m.isLt; omega⟩ : Fin 64)))
      * s2 (ix1 q) := by
  have hm := m.isLt
  have eg : (⟨(2 * m.val + 1) / 64, by omega⟩ : Fin 64) = (⟨m.val / 32, by omega⟩ : Fin 64) := Fin.ext (by show (2 * m.val + 1) / 64 = m.val / 32; omega)
  unfold refWeight
  rw [refNibble_odd]
  exact congrArg (fun g : Fin 64 => ((FloatOps.sitofp (F := Ideal) .f32 (IntOp.andi (IntOp.shrsi .host (wq (ix2 q m)) 4#32) 15#32) - ze (ix2 q g)) * sc (ix2 q g)) * s2 (ix1 q)) eg

/-! ## The tiled program's two weights -/

/-- The low-nibble weight the tiled program forms at row q and packed column j:
    (the low nibble of the word's low byte, as a number, less the zero point of group j / 32) times (the group's
    scale times the row's scale). -/
def kerLo (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (q : Fin 4096) (j : Fin 2048) : EReal :=
  (FloatOps.sitofp (F := Ideal) .f32 (IntOp.andi (IntOp.andi (wq (ix2 q j)) 255#32) 15#32)
      - ze (ix2 q (⟨j.val / 32, by have h := j.isLt; omega⟩ : Fin 64)))
    * (sc (ix2 q (⟨j.val / 32, by have h := j.isLt; omega⟩ : Fin 64)) * s2 (ix1 q))

/-- The high-nibble weight: the same with the nibble above the low one, reached by the vector unit's arithmetic
    shift of the low byte by four. -/
def kerHi (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (q : Fin 4096) (j : Fin 2048) : EReal :=
  (FloatOps.sitofp (F := Ideal) .f32
        (IntOp.andi (IntOp.shrsi .vector (IntOp.andi (wq (ix2 q j)) 255#32) 4#32) 15#32)
      - ze (ix2 q (⟨j.val / 32, by have h := j.isLt; omega⟩ : Fin 64)))
    * (sc (ix2 q (⟨j.val / 32, by have h := j.isLt; omega⟩ : Fin 64)) * s2 (ix1 q))

/-- The low-nibble weight at word j is the reference's weight in column 2 j. -/
theorem kerLo_eq (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (q : Fin 4096) (j : Fin 2048) :
    kerLo wq sc ze s2 q j = refWeight wq sc ze s2 q (⟨2 * j.val, by have h := j.isLt; omega⟩ : Fin 4096) := by
  rw [refWeight_even, mul_assoc]
  unfold kerLo
  rw [andi_byte_nibble]

/-- The high-nibble weight at word j is the reference's weight in column 2 j + 1. -/
theorem kerHi_eq (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (q : Fin 4096) (j : Fin 2048) :
    kerHi wq sc ze s2 q j = refWeight wq sc ze s2 q (⟨2 * j.val + 1, by have h := j.isLt; omega⟩ : Fin 4096) := by
  rw [refWeight_odd, mul_assoc]
  unfold kerHi
  rw [andi_shrsi_byte_nibble]

/-! ## The join -/

/-- The tiled program's sum, block by block, even columns against low-nibble weights plus odd columns against
    high-nibble weights, is the reference's entry. -/
theorem kernel_sum_eq_ref (x : (⟨S8192x4096, .f32⟩ : BufTy).Contents (Elt Ideal))
    (wq : (⟨S4096x2048, .i32⟩ : BufTy).Contents (Elt Ideal))
    (sc ze : (⟨S4096x64, .f32⟩ : BufTy).Contents (Elt Ideal)) (s2 : (⟨S4096, .f32⟩ : BufTy).Contents (Elt Ideal))
    (p : Fin 8192) (q : Fin 4096) :
    (∑ b : Fin 4,
        ((∑ j : Fin 512, x (ix2 p (⟨2 * (512 * b.val + j.val), by omega⟩ : Fin 4096))
              * kerLo wq sc ze s2 q (⟨512 * b.val + j.val, by omega⟩ : Fin 2048))
          + ∑ j : Fin 512, x (ix2 p (⟨2 * (512 * b.val + j.val) + 1, by omega⟩ : Fin 4096))
              * kerHi wq sc ze s2 q (⟨512 * b.val + j.val, by omega⟩ : Fin 2048)))
      = val_main_v23 (F := Ideal) x wq sc ze s2 (ix2 p q) := by
  rw [ref_entry, Cert.Lib.sum_even_odd_blocks]
  refine Finset.sum_congr rfl fun b _ => ?_
  congr 1
  · refine Finset.sum_congr rfl fun j _ => ?_
    rw [kerLo_eq]
  · refine Finset.sum_congr rfl fun j _ => ?_
    rw [kerHi_eq]

end Cert.ReferenceIdeal.RefValue

end
-- ==== Proof.Compose.lean ====
/-
  The two idealized programs compute one function: entry (p, q) of the kernel's result is the reference's.

  The second kernel leaves, at (p, q), the sum over the four blocks of the even-column dot product with the low-nibble
  weights plus the odd-column dot product with the high-nibble weights. The even (odd) columns are the activations at
  2 j (2 j + 1); the low (high) weights the first kernel left are, at (q, j), the low (high) nibble of the packed word less
  the group's zero point, times the group's scale times the row's second scale. Regrouping the reference's sum over the
  4096 columns by block and parity, and its weight (· scale) · scale2 as · (scale · scale2), gives the same sum.
-/
import proofs.«181014_j88304527606015_2_alg».proof.Proof.HostValues
import proofs.«181014_j88304527606015_2_alg».proof.Proof.DequantValue
import proofs.«181014_j88304527606015_2_alg».proof.Proof.AccumOut
import proofs.«181014_j88304527606015_2_alg».proof.Proof.Join

set_option maxRecDepth 16384

noncomputable section

namespace Cert.KernelIdeal.HandValue

open Idealize.ShloMosaic Idealize.ShloMosaic.TcCoe Idealize.SL.Sem
open Cert.KernelIdeal Cert.KernelIdeal.Gen Cert.KernelIdeal.Hand Idealize.ShloMosaic.ValueIdx
open Cert.ReferenceIdeal.RefValue (kerLo kerHi kernel_sum_eq_ref)
open scoped BigOperators

variable (m : (ℓ : Loc nD τ sig) → Buf (Elt Ideal) ℓ) (ρ : Dev nD → PrngReg) (c : Dev nD)

/-- The low-nibble weight the second kernel is handed at (q, j), over the launch arguments. -/
theorem lo_at (q : Fin 4096) (j : Fin 2048) :
    loIn m ρ c (ix2 q j) = kerLo (wordsA m c) (scaleA m c) (zeroA m c) (scale2A m c) q j := by
  have h : loIn m ρ c = loArr (wordsIn m ρ c) (scaleTIn m ρ c) (zeroTIn m ρ c) :=
    (lo_kept m ρ c).trans (lo_array (V1 m ρ) c)
  rw [h, loArr_apply, words_entry, scaleT_entry, zeroT_entry]
  rfl

/-- The high-nibble weight likewise. -/
theorem hi_at (q : Fin 4096) (j : Fin 2048) :
    hiIn m ρ c (ix2 q j) = kerHi (wordsA m c) (scaleA m c) (zeroA m c) (scale2A m c) q j := by
  have h : hiIn m ρ c = hiArr (wordsIn m ρ c) (scaleTIn m ρ c) (zeroTIn m ρ c) :=
    (hi_kept m ρ c).trans (hi_array (V1 m ρ) c)
  rw [h, hiArr_apply, words_entry, scaleT_entry, zeroT_entry]
  rfl

/-- The kernel's result array is the reference's result, as functions of the launch arguments. -/
theorem kernel_is_reference :
    (dat1 (F := Ideal) (V3 m ρ) c).arrAt 4 cfg1.N
      = Cert.ReferenceIdeal.Read.val_main_v23 (F := Ideal) (actsA m c) (wordsA m c) (scaleA m c) (zeroA m c) (scale2A m c) := by
  rw [out_array (V3 m ρ) c]
  funext i
  obtain ⟨p, q, rfl⟩ : ∃ (p : Fin 8192) (q : Fin 4096), i = ix2 p q := ⟨i 0, i 1, eq_ix2 i⟩
  rw [prodArr_apply]
  refine Eq.trans ?_ (kernel_sum_eq_ref (actsA m c) (wordsA m c) (scaleA m c) (zeroA m c) (scale2A m c) p q)
  unfold prodAt
  refine Finset.sum_congr rfl fun b _ => ?_
  refine congrArg₂ (· + ·) (Finset.sum_congr rfl fun j _ => ?_) (Finset.sum_congr rfl fun j _ => ?_)
  · show evenIn m ρ c (ix2 p (blockCol b j)) * loIn m ρ c (ix2 q (blockCol b j)) = _
    rw [even_entry, lo_at]
    rfl
  · show oddIn m ρ c (ix2 p (blockCol b j)) * hiIn m ρ c (ix2 q (blockCol b j)) = _
    rw [odd_entry, hi_at]
    rfl

end Cert.KernelIdeal.HandValue

end
-- ==== Proof.lean ====
/-
  The certificate of a 4-bit dequantize-and-multiply in two tiled kernels against its plain reference.

  Both idealized programs compute, at (p, q), the sum over the 4096 input columns k of x(p, k) · W(q, k), where W(q, k) is
  the k-th nibble of row q of the packed weight (two per word: the low nibble for an even column, the high one for an odd
  column) less the zero point of the column's group of 64, times the group's scale, times the row's second scale. The
  reference forms W whole and multiplies once. The kernel first folds the second scale into the scale and dequantizes
  the low and the high nibbles into two arrays, then multiplies the even columns of x with the low array and the odd
  columns with the high array, four blocks of 512 packed columns at a time into an accumulator. On the extended reals
  the two are equal by regrouping a finite sum and by associativity of the product; masking the word to a byte first
  changes neither nibble. No finiteness of the inputs is needed for the value; the frames hold for every input.

  The three frames: the reference is a straight line of host operations (its generated run); each kernel program is
  host lines, the dequantizing kernel, host lines, the accumulating kernel, run piece by piece between named buffer
  contents, once at the word level and once on the extended reals.
-/
import proofs.«181014_j88304527606015_2_alg».proof.Defs
import proofs.«181014_j88304527606015_2_alg».proof.Proof.Gen.Kernel
import proofs.«181014_j88304527606015_2_alg».proof.Proof.Gen.KernelIdeal
import proofs.«181014_j88304527606015_2_alg».proof.Proof.Gen.ReferenceIdeal
import proofs.«181014_j88304527606015_2_alg».proof.Proof.Gen.Pre_finite_inputs
import proofs.«181014_j88304527606015_2_alg».proof.Proof.K.Frame
import proofs.«181014_j88304527606015_2_alg».proof.Proof.K.DequantBody
import proofs.«181014_j88304527606015_2_alg».proof.Proof.K.AccumBody
import proofs.«181014_j88304527606015_2_alg».proof.Proof.KI.Frame
import proofs.«181014_j88304527606015_2_alg».proof.Proof.KI.DequantBody
import proofs.«181014_j88304527606015_2_alg».proof.Proof.KI.AccumBody
import proofs.«181014_j88304527606015_2_alg».proof.Proof.Compose

noncomputable section

namespace Cert.Proof

open Idealize.ShloMosaic Idealize.SL.Sem

/-- The word-level program runs to the end and leaves its arguments as launched. -/
theorem frame_k : Cert.frame_Kernel := fun m ρ _ =>
  Cert.Kernel.Hand.frame_run m ρ (Cert.Kernel.Hand.body_obligation0 _) (Cert.Kernel.Hand.body_obligation1 _) (Cert.Kernel.Hand.acc_in _) (Cert.Kernel.Hand.acc_out _)

/-- So does the idealized one. -/
theorem frame_ki : Cert.frame_KernelIdeal := fun m ρ _ =>
  Cert.KernelIdeal.Hand.frame_run m ρ (Cert.KernelIdeal.Hand.body_obligation0 _) (Cert.KernelIdeal.Hand.body_obligation1 _) (Cert.KernelIdeal.Hand.acc_in _) (Cert.KernelIdeal.Hand.acc_out _)

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => (Cert.KernelIdeal.Hand.dat1 (F := Ideal) (Cert.KernelIdeal.Hand.V3 m ρ) c).arrAt 4 Cert.KernelIdeal.cfg1.N,
    Cert.KernelIdeal.Hand.result_run m ρ (Cert.KernelIdeal.Hand.body_obligation0 _) (Cert.KernelIdeal.Hand.body_obligation1 _) (Cert.KernelIdeal.Hand.acc_in _) (Cert.KernelIdeal.Hand.acc_out _), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v23_eq _ _ _ _ _).trans
    (Cert.KernelIdeal.HandValue.kernel_is_reference m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
